-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S2x4x128x64 : Shape := ⟨4, ![2, 4, 128, 64]⟩
abbrev S4x4096x4096 : Shape := ⟨3, ![4, 4096, 4096]⟩
abbrev S4096x1 : Shape := ⟨2, ![4096, 1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S2x4x128x64 : S_.BroadcastsInDim S2x4x128x64 (![] : Fin 0 → Fin S2x4x128x64.rank)
  reducesTo_S2x4x128x64_S_d0_1_2_3 : S2x4x128x64.ReducesTo [0, 1, 2, 3] S_
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4096x1 : S_.BroadcastsInDim S4096x1 (![] : Fin 0 → Fin S4096x1.rank)
  reducesTo_S4096x1_S_d0_1 : S4096x1.ReducesTo [0, 1] S_

variable [Facts]

def fn_part1 {F : FTy → Type} [FloatOps F] (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  main_v18

def fn {F : FTy → Type} [FloatOps F] (main_arg0 : FVec F S4096x128 .f32) (main_arg1 : FVec F S2x4x128x64 .f32) (main_arg2 : FVec F S4x4096x4096 .f32) (main_arg3 : FVec F S4096x1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S2x4x128x64 .f32 := Host.absf main_arg1
  let main_cst_0 : FVec F S_ .f32 := constant S_ .f32 0x7F800000#32
  let main_v5 : FVec F S2x4x128x64 .f32 := broadcastInDim S2x4x128x64 ![] bcast_S_S2x4x128x64 main_cst_0
  let main_v6 : IVec S2x4x128x64 1 := cmpf .olt main_v4 main_v5
  let main_c_1 : IVec S_ 1 := constantI S_ 1 1#1
  let main_v7 : IVec S_ 1 := (fun x v => Host.reduce IntOp.andi x v reducesTo_S2x4x128x64_S_d0_1_2_3 h_S_) main_v6 main_c_1
  let main_v8 : IVec S_ 1 := andi main_v3 main_v7
  let main_v9 : FVec F S4x4096x4096 .f32 := Host.absf main_arg2
  let main_cst_2 : FVec F S_ .f32 := constant S_ .f32 0x7F800000#32
  let main_v10 : FVec F S4x4096x4096 .f32 := broadcastInDim S4x4096x4096 ![] bcast_S_S4x4096x4096 main_cst_2
  let main_v11 : IVec S4x4096x4096 1 := cmpf .olt main_v9 main_v10
  let main_c_3 : IVec S_ 1 := constantI S_ 1 1#1
  let main_v12 : IVec S_ 1 := (fun x v => Host.reduce IntOp.andi x v reducesTo_S4x4096x4096_S_d0_1_2 h_S_) main_v11 main_c_3
  let main_v13 : IVec S_ 1 := andi main_v8 main_v12
  let main_v14 : FVec F S4096x1 .f32 := Host.absf main_arg3
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_v13 main_v16
-- ==== Kernel.lean ====
abbrev S4096x128 : Shape := ⟨2, ![4096, 128]⟩
abbrev S2x4x128x64 : Shape := ⟨4, ![2, 4, 128, 64]⟩
abbrev S4x4096x4096 : Shape := ⟨3, ![4, 4096, 4096]⟩
abbrev S4096x1 : Shape := ⟨2, ![4096, 1]⟩
abbrev S128x4x2x64 : Shape := ⟨4, ![128, 4, 2, 64]⟩
abbrev S128x512 : Shape := ⟨2, ![128, 512]⟩
abbrev S4096x512 : Shape := ⟨2, ![4096, 512]⟩
abbrev S4x256x4096 : Shape := ⟨3, ![4, 256, 4096]⟩
abbrev S256x1 : Shape := ⟨2, ![256, 1]⟩
abbrev S256x512 : Shape := ⟨2, ![256, 512]⟩
abbrev S512x128 : Shape := ⟨2, ![512, 128]⟩
abbrev S512x1 : Shape := ⟨2, ![512, 1]⟩
abbrev S512x512 : Shape := ⟨2, ![512, 512]⟩
abbrev S1x256x4096 : Shape := ⟨3, ![1, 256, 4096]⟩
abbrev S256x4096 : Shape := ⟨2, ![256, 4096]⟩
abbrev S256x128 : Shape := ⟨2, ![256, 128]⟩
abbrev S256x64 : Shape := ⟨2, ![256, 64]⟩

abbrev nBuf : Space → Nat
  | .hbm => 7
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S2x4x128x64, .f32⟩
  | .hbm, ⟨2, _⟩ => ⟨S4x4096x4096, .f32⟩
  | .hbm, ⟨3, _⟩ => ⟨S4096x1, .f32⟩
  | .hbm, ⟨4, _⟩ => ⟨S128x4x2x64, .f32⟩
  | .hbm, ⟨5, _⟩ => ⟨S128x512, .f32⟩
  | .hbm, ⟨6, _⟩ => ⟨S4096x512, .f32⟩
  | .local _ .vmem, ⟨0, _⟩ => ⟨S4096x128, .f32⟩
  | .local _ .vmem, ⟨1, _⟩ => ⟨S128x512, .f32⟩
  | .local _ .vmem, ⟨2, _⟩ => ⟨S4096x1, .f32⟩
  | .local _ .vmem, ⟨3, _⟩ => ⟨S4x256x4096, .f32⟩
  | .local _ .vmem, ⟨4, _⟩ => ⟨S4x256x4096, .f32⟩
  | .local _ .vmem, ⟨5, _⟩ => ⟨S256x1, .f32⟩
  | .local _ .vmem, ⟨6, _⟩ => ⟨S256x1, .f32⟩
  | .local _ .vmem, ⟨7, _⟩ => ⟨S256x512, .f32⟩
  | .local _ .vmem, ⟨8, _⟩ => ⟨S256x512, .f32⟩
  | .local _ .vmem, ⟨9, _⟩ => ⟨S4096x512, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S2x4x128x64_S128x4x2x64_2_1_0_3 : S2x4x128x64.Transposes [2, 1, 0, 3] S128x4x2x64
  shapeCasts_S128x4x2x64_S128x512 : S128x4x2x64.ShapeCasts S128x512
  inb_S4096x128_S512x128_0_0 : ∀ a, (![0, 0] : Fin 2 → Nat) a + S512x128.size a ≤ S4096x128.size a
  h_S512x128 : 0 < S512x128.numel
  inb_S4096x1_S512x1_0_0 : ∀ a, (![0, 0] : Fin 2 → Nat) a + S512x1.size a ≤ S4096x1.size a
  h_S512x1 : 0 < S512x1.numel
  broadcasts_S512x1_S512x128 : S512x1.Broadcasts S512x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  bitsLt_bf16_f32 : FTy.bits .bf16 < FTy.bits .f32
  inb_S4096x512_S512x512_0_0 : ∀ a, (![0, 0] : Fin 2 → Nat) a + S512x512.size a ≤ S4096x512.size a
  h_S512x512 : 0 < S512x512.numel
  shapeCasts_S512x512_S512x512 : S512x512.ShapeCasts S512x512
  packedbf16_S4096x512_S512x512_0_0 : (Rect.unit (s := S4096x512) ![0, 0] S512x512.size inb_S4096x512_S512x512_0_0).PackedRows (EltTy.packing .bf16)
  inb_S4096x128_S512x128_512_0 : ∀ a, (![512, 0] : Fin 2 → Nat) a + S512x128.size a ≤ S4096x128.size a
  inb_S4096x1_S512x1_512_0 : ∀ a, (![512, 0] : Fin 2 → Nat) a + S512x1.size a ≤ S4096x1.size a
  inb_S4096x512_S512x512_512_0 : ∀ a, (![512, 0] : Fin 2 → Nat) a + S512x512.size a ≤ S4096x512.size a
  packedbf16_S4096x512_S512x512_512_0 : (Rect.unit (s := S4096x512) ![512, 0] S512x512.size inb_S4096x512_S512x512_512_0).PackedRows (EltTy.packing .bf16)
  inb_S4096x128_S512x128_1024_0 : ∀ a, (![1024, 0] : Fin 2 → Nat) a + S512x128.size a ≤ S4096x128.size a
  inb_S4096x1_S512x1_1024_0 : ∀ a, (![1024, 0] : Fin 2 → Nat) a + S512x1.size a ≤ S4096x1.size a
  inb_S4096x512_S512x512_1024_0 : ∀ a, (![1024, 0] : Fin 2 → Nat) a + S512x512.size a ≤ S4096x512.size a
  packedbf16_S4096x512_S512x512_1024_0 : (Rect.unit (s := S4096x512) ![1024, 0] S512x512.size inb_S4096x512_S512x512_1024_0).PackedRows (EltTy.packing .bf16)
  inb_S4096x128_S512x128_1536_0 : ∀ a, (![1536, 0] : Fin 2 → Nat) a + S512x128.size a ≤ S4096x128.size a
  inb_S4096x1_S512x1_1536_0 : ∀ a, (![1536, 0] : Fin 2 → Nat) a + S512x1.size a ≤ S4096x1.size a
  inb_S4096x512_S512x512_1536_0 : ∀ a, (![1536, 0] : Fin 2 → Nat) a + S512x512.size a ≤ S4096x512.size a
  packedbf16_S4096x512_S512x512_1536_0 : (Rect.unit (s := S4096x512) ![1536, 0] S512x512.size inb_S4096x512_S512x512_1536_0).PackedRows (EltTy.packing .bf16)
  inb_S4096x128_S512x128_2048_0 : ∀ a, (![2048, 0] : Fin 2 → Nat) a + S512x128.size a ≤ S4096x128.size a
  inb_S4096x1_S512x1_2048_0 : ∀ a, (![2048, 0] : Fin 2 → Nat) a + S512x1.size a ≤ S4096x1.size a
  inb_S4096x512_S512x512_2048_0 : ∀ a, (![2048, 0] : Fin 2 → Nat) a + S512x512.size a ≤ S4096x512.size a
  packedbf16_S4096x512_S512x512_2048_0 : (Rect.unit (s := S4096x512) ![2048, 0] S512x512.size inb_S4096x512_S512x512_2048_0).PackedRows (EltTy.packing .bf16)
  inb_S4096x128_S512x128_2560_0 : ∀ a, (![2560, 0] : Fin 2 → Nat) a + S512x128.size a ≤ S4096x128.size a
  inb_S4096x1_S512x1_2560_0 : ∀ a, (![2560, 0] : Fin 2 → Nat) a + S512x1.size a ≤ S4096x1.size a
  inb_S4096x512_S512x512_2560_0 : ∀ a, (![2560, 0] : Fin 2 → Nat) a + S512x512.size a ≤ S4096x512.size a
  packedbf16_S4096x512_S512x512_2560_0 : (Rect.unit (s := S4096x512) ![2560, 0] S512x512.size inb_S4096x512_S512x512_2560_0).PackedRows (EltTy.packing .bf16)
  inb_S4096x128_S512x128_3072_0 : ∀ a, (![3072, 0] : Fin 2 → Nat) a + S512x128.size a ≤ S4096x128.size a
  inb_S4096x1_S512x1_3072_0 : ∀ a, (![3072, 0] : Fin 2 → Nat) a + S512x1.size a ≤ S4096x1.size a
  inb_S4096x512_S512x512_3072_0 : ∀ a, (![3072, 0] : Fin 2 → Nat) a + S512x512.size a ≤ S4096x512.size a
  packedbf16_S4096x512_S512x512_3072_0 : (Rect.unit (s := S4096x512) ![3072, 0] S512x512.size inb_S4096x512_S512x512_3072_0).PackedRows (EltTy.packing .bf16)
  inb_S4096x128_S512x128_3584_0 : ∀ a, (![3584, 0] : Fin 2 → Nat) a + S512x128.size a ≤ S4096x128.size a
  inb_S4096x1_S512x1_3584_0 : ∀ a, (![3584, 0] : Fin 2 → Nat) a + S512x1.size a ≤ S4096x1.size a
  inb_S4096x512_S512x512_3584_0 : ∀ a, (![3584, 0] : Fin 2 → Nat) a + S512x512.size a ≤ S4096x512.size a
  packedbf16_S4096x512_S512x512_3584_0 : (Rect.unit (s := S4096x512) ![3584, 0] S512x512.size inb_S4096x512_S512x512_3584_0).PackedRows (EltTy.packing .bf16)
  inb_S256x1_S256x1_0_0 : ∀ a, (![0, 0] : Fin 2 → Nat) a + S256x1.size a ≤ S256x1.size a
  h_S256x1 : 0 < S256x1.numel
  inb_S4x256x4096_S1x256x4096_0_0_0 : ∀ a, (![0, 0, 0] : Fin 3 → Nat) a + S1x256x4096.size a ≤ S4x256x4096.size a
  h_S1x256x4096 : 0 < S1x256x4096.numel
  shapeCasts_S1x256x4096_S256x4096 : S1x256x4096.ShapeCasts S256x4096
  inb_S4096x512_S4096x128_0_0 : ∀ a, (![0, 0] : Fin 2 → Nat) a + S4096x128.size a ≤ S4096x512.size a
  h_S4096x128 : 0 < S4096x128.numel
  broadcasts_S256x1_S256x128 : S256x1.Broadcasts S256x128
  slices_S256x128_o0_0_S256x64 : S256x128.Slices ![0, 0] S256x64
  inb_S256x512_S256x64_0_0 : ∀ a, (![0, 0] : Fin 2 → Nat) a + S256x64.size a ≤ S256x512.size a
  h_S256x64 : 0 < S256x64.numel
  slices_S256x128_o0_64_S256x64 : S256x128.Slices ![0, 64] S256x64
  inb_S256x512_S256x64_0_256 : ∀ a, (![0, 256] : Fin 2 → Nat) a + S256x64.size a ≤ S256x512.size a
  inb_S4x256x4096_S1x256x4096_1_0_0 : ∀ a, (![1, 0, 0] : Fin 3 → Nat) a + S1x256x4096.size a ≤ S4x256x4096.size a
  inb_S4096x512_S4096x128_0_128 : ∀ a, (![0, 128] : Fin 2 → Nat) a + S4096x128.size a ≤ S4096x512.size a
  inb_S256x512_S256x64_0_64 : ∀ a, (![0, 64] : Fin 2 → Nat) a + S256x64.size a ≤ S256x512.size a
  inb_S256x512_S256x64_0_320 : ∀ a, (![0, 320] : Fin 2 → Nat) a + S256x64.size a ≤ S256x512.size a
  inb_S4x256x4096_S1x256x4096_2_0_0 : ∀ a, (![2, 0, 0] : Fin 3 → Nat) a + S1x256x4096.size a ≤ S4x256x4096.size a
  inb_S4096x512_S4096x128_0_256 : ∀ a, (![0, 256] : Fin 2 → Nat) a + S4096x128.size a ≤ S4096x512.size a
  inb_S256x512_S256x64_0_128 : ∀ a, (![0, 128] : Fin 2 → Nat) a + S256x64.size a ≤ S256x512.size a
  inb_S256x512_S256x64_0_384 : ∀ a, (![0, 384] : Fin 2 → Nat) a + S256x64.size a ≤ S256x512.size a
  inb_S4x256x4096_S1x256x4096_3_0_0 : ∀ a, (![3, 0, 0] : Fin 3 → Nat) a + S1x256x4096.size a ≤ S4x256x4096.size a
  inb_S4096x512_S4096x128_0_384 : ∀ a, (![0, 384] : Fin 2 → Nat) a + S4096x128.size a ≤ S4096x512.size a
  inb_S256x512_S256x64_0_192 : ∀ a, (![0, 192] : Fin 2 → Nat) a + S256x64.size a ≤ S256x512.size a
  inb_S256x512_S256x64_0_448 : ∀ a, (![0, 448] : Fin 2 → Nat) a + S256x64.size a ≤ S256x512.size a
  dot_S512x128_S128x512_S512x512_1_0_0_1_n_n_wf : DotDims.WF S512x128 S128x512 S512x512 [1] [0] [0] [1] [] []
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S4096x1.size a
  hwx0_2 : ∀ i : grid0.Coords, EltTy.bits .f32 = 32 ∨ (Rect.block (s := S4096x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x4096.size a ≤ S4x4096x4096.size a
  hwx0_3 : ∀ i : grid0.Coords, EltTy.bits .f32 = 32 ∨ (Rect.block (s := S4x4096x4096) S4x256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S4096x512.size a
  hwx0_5 : ∀ i : grid0.Coords, EltTy.bits .f32 = 32 ∨ (Rect.block (s := S4096x512) S256x512.size (cc0_transform_5 i) (hinb0_5 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4x256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x128 : Shape := ⟨2, ![4096, 128]⟩
abbrev S2x4x128x64 : Shape := ⟨4, ![2, 4, 128, 64]⟩
abbrev S4x4096x4096 : Shape := ⟨3, ![4, 4096, 4096]⟩
abbrev S4096x1 : Shape := ⟨2, ![4096, 1]⟩
abbrev S128x4x2x64 : Shape := ⟨4, ![128, 4, 2, 64]⟩
abbrev S128x512 : Shape := ⟨2, ![128, 512]⟩
abbrev S4096x512 : Shape := ⟨2, ![4096, 512]⟩
abbrev S512x128 : Shape := ⟨2, ![512, 128]⟩
abbrev S512x1 : Shape := ⟨2, ![512, 1]⟩
abbrev S512x512 : Shape := ⟨2, ![512, 512]⟩
abbrev S4x512x512 : Shape := ⟨3, ![4, 512, 512]⟩
abbrev S1x512x512 : Shape := ⟨3, ![1, 512, 512]⟩
abbrev S4096x4x2x64 : Shape := ⟨4, ![4096, 4, 2, 64]⟩
abbrev S4096x2x4x64 : Shape := ⟨4, ![4096, 2, 4, 64]⟩

abbrev nBuf : Space → Nat
  | .hbm => 11
  | .vmem => 16
  | .smem => 0
  | _ => 0

abbrev bufTy : (tb : Table) → Fin (tcTables nBuf tb) → BufTy
  | .hbm, ⟨0, _⟩ => ⟨S4096x128, .f32⟩
  | .hbm, ⟨1, _⟩ => ⟨S2x4x128x64, .f32⟩
  | .hbm, ⟨2, _⟩ => ⟨S4x4096x4096, .f32⟩
  | .hbm, ⟨3, _⟩ => ⟨S4096x1, .f32⟩
  | .hbm, ⟨4, _⟩ => ⟨S128x4x2x64, .f32⟩
  | .hbm, ⟨5, _⟩ => ⟨S128x512, .f32⟩
  | .hbm, ⟨6, _⟩ => ⟨S4096x512, .f32⟩
  | .hbm, ⟨7, _⟩ => ⟨S4096x512, .f32⟩
  | .hbm, ⟨8, _⟩ => ⟨S4096x4x2x64, .f32⟩
  | .hbm, ⟨9, _⟩ => ⟨S4096x2x4x64, .f32⟩
  | .hbm, ⟨10, _⟩ => ⟨S4096x512, .f32⟩
  | .local _ .vmem, ⟨0, _⟩ => ⟨S512x128, .f32⟩
  | .local _ .vmem, ⟨1, _⟩ => ⟨S512x128, .f32⟩
  | .local _ .vmem, ⟨2, _⟩ => ⟨S128x512, .f32⟩
  | .local _ .vmem, ⟨3, _⟩ => ⟨S512x1, .f32⟩
  | .local _ .vmem, ⟨4, _⟩ => ⟨S512x1, .f32⟩
  | .local _ .vmem, ⟨5, _⟩ => ⟨S512x512, .f32⟩
  | .local _ .vmem, ⟨6, _⟩ => ⟨S512x512, .f32⟩
  | .local _ .vmem, ⟨7, _⟩ => ⟨S4x512x512, .f32⟩
  | .local _ .vmem, ⟨8, _⟩ => ⟨S4x512x512, .f32⟩
  | .local _ .vmem, ⟨9, _⟩ => ⟨S512x512, .f32⟩
  | .local _ .vmem, ⟨10, _⟩ => ⟨S512x512, .f32⟩
  | .local _ .vmem, ⟨11, _⟩ => ⟨S512x1, .f32⟩
  | .local _ .vmem, ⟨12, _⟩ => ⟨S512x1, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_18 : BitVec 32 := 0#32
  let v29 : BitVec 1 := Scalar.cmpi .ne v28 c0_i32_18
  v29

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S2x4x128x64_S128x4x2x64_2_1_0_3 : S2x4x128x64.Transposes [2, 1, 0, 3] S128x4x2x64
  shapeCasts_S128x4x2x64_S128x512 : S128x4x2x64.ShapeCasts S128x512
  inb_S512x128_S512x128_0_0 : ∀ a, (![0, 0] : Fin 2 → Nat) a + S512x128.size a ≤ S512x128.size a
  h_S512x128 : 0 < S512x128.numel
  inb_S512x1_S512x1_0_0 : ∀ a, (![0, 0] : Fin 2 → Nat) a + S512x1.size a ≤ S512x1.size a
  h_S512x1 : 0 < S512x1.numel
  broadcasts_S512x1_S512x128 : S512x1.Broadcasts S512x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  slices_S512x512_o0_0_S512x128 : S512x512.Slices ![0, 0] S512x128
  inb_S4x512x512_S1x512x512_1_0_0 : ∀ a, (![1, 0, 0] : Fin 3 → Nat) a + S1x512x512.size a ≤ S4x512x512.size a
  slices_S512x512_o0_128_S512x128 : S512x512.Slices ![0, 128] S512x128
  inb_S4x512x512_S1x512x512_2_0_0 : ∀ a, (![2, 0, 0] : Fin 3 → Nat) a + S1x512x512.size a ≤ S4x512x512.size a
  slices_S512x512_o0_256_S512x128 : S512x512.Slices ![0, 256] S512x128
  inb_S4x512x512_S1x512x512_3_0_0 : ∀ a, (![3, 0, 0] : Fin 3 → Nat) a + S1x512x512.size a ≤ S4x512x512.size a
  slices_S512x512_o0_384_S512x128 : S512x512.Slices ![0, 384] S512x128
  concatenates_S512x128_S512x128_S512x128_S512x128_S512x512_d1 : Shape.Concatenates [S512x128, S512x128, S512x128, S512x128] S512x512 1
  broadcasts_S512x1_S512x512 : S512x1.Broadcasts S512x512
  shapeCasts_S4096x512_S4096x4x2x64 : S4096x512.ShapeCasts S4096x4x2x64
  transposes_S4096x4x2x64_S4096x2x4x64_0_2_1_3 : S4096x4x2x64.Transposes [0, 2, 1, 3] S4096x2x4x64
  shapeCasts_S4096x2x4x64_S4096x512 : S4096x2x4x64.ShapeCasts S4096x512
  dot_S512x128_S128x512_S512x512_1_0_0_1_n_n_wf : DotDims.WF S512x128 S128x512 S512x512 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .f32 = 32 ∨ (Rect.block (s := S4096x512) S512x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x512.size a ≤ S4x4096x4096.size a
  hwx1_0 : ∀ i : grid1.Coords, EltTy.bits .f32 = 32 ∨ (Rect.block (s := S4x4096x4096) S4x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x512.size a
  hwx1_1 : ∀ i : grid1.Coords, EltTy.bits .f32 = 32 ∨ (Rect.block (s := S4096x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x512.size a
  hwx1_3 : ∀ i : grid1.Coords, EltTy.bits .f32 = 32 ∨ (Rect.block (s := S4096x512) S512x512.size (cc1_transform_3 i) (hinb1_3 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S4x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.BitsRun.lean ====
import proofs.«174715_g2000604396416013_pallasbulk_796_15_alg».proof.Proof.Gen.Kernel.Launch
import proofs.«174715_g2000604396416013_pallasbulk_796_15_alg».proof.Proof.Gen.Kernel.Skeleton
import proofs.«174715_g2000604396416013_pallasbulk_796_15_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The fused body on whole buffers

One grid point of the fused layer: the eight 512-row chunks of the transformed features
`(x · norm) W` are written into the scratch, then for each of the four divisions the adjacency
slab is multiplied with that division's 128 columns of the scratch, scaled by the destination
norm, clamped at zero, and its two 64-column halves stored at the head-major column offsets of
the output block. The stores into the output block are found by the run itself. -/

set_option maxHeartbeats 4000000 in
/-- The body on whole staging buffers: the five inputs at contents `x1 … x5` are handed back as
    they were, the output block ends as its (found) list of stores written over whatever it held,
    the scratch ends at some contents. -/
noncomputable def kernelRun (c : Dev nD) (i : grid0.Coords)
    (arg1 : Memref sig .tc .vmem S4096x128 .f32) (harg1 : arg1.IsWhole)
    (arg2 : Memref sig .tc .vmem S128x512 .f32) (harg2 : arg2.IsWhole)
    (arg3 : Memref sig .tc .vmem S4096x1 .f32) (harg3 : arg3.IsWhole)
    (arg4 : Memref sig .tc .vmem S4x256x4096 .f32) (harg4 : arg4.IsWhole)
    (arg5 : Memref sig .tc .vmem S256x1 .f32) (harg5 : arg5.IsWhole)
    (arg6 : Memref sig .tc .vmem S256x512 .f32) (harg6 : arg6.IsWhole)
    (arg7 : Memref sig .tc .vmem S4096x512 .bf16) (harg7 : arg7.IsWhole)
    (x1 : Vec F S4096x128 .f32) (x2 : Vec F S128x512 .f32) (x3 : Vec F S4096x1 .f32)
    (x4 : Vec F S4x256x4096 .f32) (x5 : Vec F S256x1 .f32) :
    { L6 : List (View.Piece (Elt F) S256x512 .f32) //
      ∀ (E : Set ℕ) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5
            ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2
                ∗ owns (c : Thread nD τ) arg3 fullShare x3 ∗ owns (c : Thread nD τ) arg4 fullShare x4
                ∗ owns (c : Thread nD τ) arg5 fullShare x5
                ∗ (∃ f, arg6.view.loc (c : Thread nD τ) ↦[arg6.view.set]{fullShare} arg6.view.writes (Elt F) f L6)
                ∗ (∃ d, owns (c : Thread nD τ) arg7 fullShare d)) -∗ K ⟨⟩))
          ⊢ wp frame (wpE (defs₀ (F := F)) Variants.none c none) E
              (cc0__fused_kernel i arg1 harg1 arg2 harg2 arg3 harg3 arg4 harg4 arg5 harg5 arg6 harg6 arg7 harg7) K } := by
  refine ⟨?_, fun E K => ?run⟩
  case run =>
    simp only [cc0__fused_kernel_eq_skeleton]; unfold cc0__fused_kernel_skel
    simp only [k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3
    obtain rfl := harg4.eq_unread hf4; obtain rfl := harg5.eq_unread hf5
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexists _; isplitr
    swap; · iexact H7
    ipureintro; rfl

end Cert.Kernel.Hand

end
-- ==== Proof.BitsData.lean ====
import proofs.«174715_g2000604396416013_pallasbulk_796_15_alg».proof.Proof.BitsRun
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the fused call finds them -/

/-- Core `c`'s buffers when the fused call is entered: the weights already transposed and flattened
    to `[Fin, D·H·Fout]`, every argument as launched. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The two host operations write only their own results: argument 0 is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The two host operations write only their own results: argument 1 is found as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The two host operations write only their own results: argument 2 is found as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The two host operations write only their own results: argument 3 is found as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The staging buffers the body is called on at a point -/

abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x256x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x512 .f32 := win0_5.stage (cfg0.slots t 5)
abbrev hs5 (t : Fin cfg0.N) : (ms5 t).IsWhole := hstage0_5 ((cfg0.slots t 5).cast nbuf0_5)
/-- The scratch that holds the transformed features within a point. -/
abbrev scM : Memref sig .tc .vmem S4096x512 .bf16 := Memref.whole cc0_scratch0
/-- One staging buffer of the output window, through which the block's contents are stated. -/
abbrev VO5 : View sig .tc .vmem S256x512 .f32 := (Memref.whole cc0_stg5_0 : Memref sig .tc .vmem S256x512 .f32).view

/-- What is kept between points: the scratch, owned whole at some contents. -/
def PhiK (c : Dev nD) : sProp 𝕄 :=
  Pipeline.scopedRest (Ix := Unit) (Name := ℕ) (U := UR sig nD τ) (Lvl := ℕ) (Val := Elt F) spec0 c

theorem PhiK_eq (c : Dev nD) :
    (PhiK (F := F) c : sProp 𝕄) = iprop(∃ d, owns (c : Thread nD τ) scM fullShare d) := by
  unfold PhiK; rw [scopedRest0_eq]; simp only [scM, owns_whole]; try rfl

/-! ## What a point leaves in the output block -/

/-- The eight stores of a point (two 64-column halves per division) tile the 256×512 output block. -/
theorem cover5 (c : Dev nD) (i : grid0.Coords)
    (arg1 : Memref sig .tc .vmem S4096x128 .f32) (harg1 : arg1.IsWhole)
    (arg2 : Memref sig .tc .vmem S128x512 .f32) (harg2 : arg2.IsWhole)
    (arg3 : Memref sig .tc .vmem S4096x1 .f32) (harg3 : arg3.IsWhole)
    (arg4 : Memref sig .tc .vmem S4x256x4096 .f32) (harg4 : arg4.IsWhole)
    (arg5 : Memref sig .tc .vmem S256x1 .f32) (harg5 : arg5.IsWhole)
    (arg6 : Memref sig .tc .vmem S256x512 .f32) (harg6 : arg6.IsWhole)
    (arg7 : Memref sig .tc .vmem S4096x512 .bf16) (harg7 : arg7.IsWhole)
    (x1 : Vec F S4096x128 .f32) (x2 : Vec F S128x512 .f32) (x3 : Vec F S4096x1 .f32)
    (x4 : Vec F S4x256x4096 .f32) (x5 : Vec F S256x1 .f32) (y : S256x512.Idx) :
    ∃ pc ∈ (kernelRun c i arg1 harg1 arg2 harg2 arg3 harg3 arg4 harg4 arg5 harg5 arg6 harg6 arg7 harg7 x1 x2 x3 x4 x5).1, y ∈ pc.1.set :=
  View.cover_of_tiledL (kernelRun c i arg1 harg1 arg2 harg2 arg3 harg3 arg4 harg4 arg5 harg5 arg6 harg6 arg7 harg7 x1 x2 x3 x4 x5).1 S256x64.size (by sl_kernel_rfl) y

/-- The output block after the body at point `t`, from the five input blocks: the point's stores read back. -/
def out5 (c : Dev nD) (t : Fin cfg0.N) (x1 : Vec F S4096x128 .f32) (x2 : Vec F S128x512 .f32) (x3 : Vec F S4096x1 .f32)
    (x4 : Vec F S4x256x4096 .f32) (x5 : Vec F S256x1 .f32) : Vec F S256x512 .f32 :=
  VO5.read (Elt F) (VO5.writes (Elt F) VO5.junk (kernelRun c (grid0.coords t) (ms0 t) (hs0 t) (ms1 t) (hs1 t) (ms2 t) (hs2 t) (ms3 t) (hs3 t) (ms4 t) (hs4 t) (ms5 t) (hs5 t) scM (Memref.isWhole_whole _) x1 x2 x3 x4 x5).1)

/-! ## The proof data of the one pipeline -/

/-- After the body at point `t` every input buffer still holds its block and the output buffer holds `out5` of
    them; between points nothing is kept but the scratch at contents nobody names. The per-node norm is read through
    two windows (whole, and the destination slab), so its array is lent half to each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 c t (iblk m c 0 t) (iblk m c 1 t) (iblk m c 2 t) (iblk m c 3 t) (iblk m c 4 t)
  Φ _ := PhiK c
  q w := match w with
    | ⟨0, _⟩ => fullShare
    | ⟨1, _⟩ => fullShare
    | ⟨2, _⟩ => fullShare.left
    | ⟨3, _⟩ => fullShare
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = out5 c t (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1600000 in
/-- At every point the input buffers hold their blocks, so the run of the body applies; the scratch goes in at
    whatever it holds and comes back at whatever the point wrote. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = PhiK c from rfl, PhiK_eq]
  unfold out5
  iintro ⟨HS, Ho, ⟨%d0, H0⟩, ⟨%d1, H1⟩, ⟨%d2, H2⟩, ⟨%d3, H3⟩, ⟨%d4, H4⟩, ⟨%d5, H5⟩⟩
  iapply ((kernelRun c (grid0.coords t) (ms0 t) (hs0 t) (ms1 t) (hs1 t) (ms2 t) (hs2 t) (ms3 t) (hs3 t) (ms4 t) (hs4 t) (ms5 t) (hs5 t) scM (Memref.isWhole_whole _) (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, HS⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover5 c _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsFrame.lean ====
import proofs.«174715_g2000604396416013_pallasbulk_796_15_alg».proof.Proof.BitsData
import Idealize.ShloMosaic.Lib.Pipeline.FrameBody
import Idealize.ShloMosaic.Lib.Ring
import Idealize.ShloMosaic.Lib.Tactic
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.SL.BI (bigSep bigSepL bigSep_eq_bigSepL_of_eq bigSep_congr)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows

Five distinct buffers stand behind the six windows: the per-node norm is read whole (for the source side of
the feature transform) and by destination slab (for the final scaling). It is lent to the two windows in halves. -/

theorem arrBufs_eq (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_v1) ↦{fullShare} W main_v1)
          ∗ (((c.tc : Thread nD τ).loc main_arg3) ↦{fullShare} W main_arg3) ∗ (((c.tc : Thread nD τ).loc main_arg2) ↦{fullShare} W main_arg2)
          ∗ (((c.tc : Thread nD τ).loc main_v2) ↦{fullShare} W main_v2)) := by
  unfold Pipeline.arrBufs
  rw [bigSep_eq_bigSepL_of_eq [main_arg0, main_v1, main_arg3, main_arg2, main_v2] (by decide) (by decide)]
  rfl

theorem arrays_norm (c : Dev nD) (Fw : (w : Fin cfg0.W) → Buf (Elt F) ((cfg0.win w).arr.view.loc (c.tc : Thread nD τ))) :
    (dats m 0 c).arrays Fw
      = bigSep Finset.univ fun w => (((c.tc : Thread nD τ).loc (Pipeline.arrRef spec0 w)) ↦{(dats m 0 c).share w} Fw w : sProp 𝕄) := by
  unfold Dat.arrays
  exact bigSep_congr fun w _ => by rw [(arr_whole0 w).set_eq_univ]

/-- At entry the five buffers, each whole, are the six windows' arrays at the shares the proof data name. -/
theorem hsplit (c : Dev nD) : (Pipeline.arrBufs spec0 c (V m c) : sProp 𝕄) ⊢ (dats m 0 c).arrays ((dats m 0 c).arrAt · 0) := by
  rw [arrBufs_eq, arrays_norm, bigSep_W0]
  iintro ⟨H0, H1, H3, H2, H5⟩
  ihave Hs := (pointsTo_share (PosShare.mem_left_op_right fullShare)).1 $$ H3
  icases Hs with ⟨Hl, Hr⟩
  isplitl [H0]; · iexact H0
  isplitl [H1]; · iexact H1
  isplitl [Hl]; · iexact Hl
  isplitl [H2]; · iexact H2
  isplitl [Hr]; · iexact Hr
  iexact H5

/-! ## The run -/

set_option backward.isDefEq.respectTransparency.types false in
/-- Every weakly fair execution from a memory with zero counters terminates without a fault; at the end the
    result array holds the sixteen write-backs folded over its launch contents and every argument is as launched. -/
theorem run_main : θ_run defs (onTc (τ := τ) (main (F := F))) ⟨m, fun _ => 0, ρ⟩ (fun r => ∀ c : Dev nD,
      r.2.mem ((c.tc : Thread nD τ).loc main_v2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [show (dats m 0 c).Φ 0 = PhiK c from rfl]; unfold PhiK
      iintro ⟨-, H⟩
      iexact H)
    (hout := fun c => by
      rw [show (dats m 0 c).Φ (Fin.last (cfgs 0).N) = PhiK c from rfl]; unfold PhiK
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c =>
      ⟨(h c).1 5,
       ((h c).1 0).trans (((dats m 0 c).arrAt_in 0 rfl _).trans ((A_eq m c 0).trans (V_main_arg0 m c))),
       ((h c).2 main_arg1 (Pipeline.mem_restRefs_of main_arg1 rfl (by decide))).trans (V_main_arg1 m c),
       ((h c).1 3).trans (((dats m 0 c).arrAt_in 3 rfl _).trans ((A_eq m c 3).trans (V_main_arg2 m c))),
       ((h c).1 2).trans (((dats m 0 c).arrAt_in 2 rfl _).trans ((A_eq m c 2).trans (V_main_arg3 m c)))⟩)

/-- The frame: the run with what the result holds dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Hand

end
-- ==== Proof.KernelRun.lean ====
import proofs.«174715_g2000604396416013_pallasbulk_796_15_alg».proof.Proof.Gen.KernelIdeal.Launch
import proofs.«174715_g2000604396416013_pallasbulk_796_15_alg».proof.Proof.Gen.KernelIdeal.Skeleton
import proofs.«174715_g2000604396416013_pallasbulk_796_15_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The fused body on whole buffers

One grid point of the fused layer: the eight 512-row chunks of the transformed features
`(x · norm) W` are written into the scratch, then for each of the four divisions the adjacency
slab is multiplied with that division's 128 columns of the scratch, scaled by the destination
norm, clamped at zero, and its two 64-column halves stored at the head-major column offsets of
the output block. The stores into the output block are found by the run itself. -/

set_option maxHeartbeats 4000000 in
/-- The body on whole staging buffers: the five inputs at contents `x1 … x5` are handed back as
    they were, the output block ends as its (found) list of stores written over whatever it held,
    the scratch ends at some contents. -/
noncomputable def kernelRun (c : Dev nD) (i : grid0.Coords)
    (arg1 : Memref sig .tc .vmem S4096x128 .f32) (harg1 : arg1.IsWhole)
    (arg2 : Memref sig .tc .vmem S128x512 .f32) (harg2 : arg2.IsWhole)
    (arg3 : Memref sig .tc .vmem S4096x1 .f32) (harg3 : arg3.IsWhole)
    (arg4 : Memref sig .tc .vmem S4x256x4096 .f32) (harg4 : arg4.IsWhole)
    (arg5 : Memref sig .tc .vmem S256x1 .f32) (harg5 : arg5.IsWhole)
    (arg6 : Memref sig .tc .vmem S256x512 .f32) (harg6 : arg6.IsWhole)
    (arg7 : Memref sig .tc .vmem S4096x512 .bf16) (harg7 : arg7.IsWhole)
    (x1 : Vec F S4096x128 .f32) (x2 : Vec F S128x512 .f32) (x3 : Vec F S4096x1 .f32)
    (x4 : Vec F S4x256x4096 .f32) (x5 : Vec F S256x1 .f32) :
    { L6 : List (View.Piece (Elt F) S256x512 .f32) //
      ∀ (E : Set ℕ) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5
            ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2
                ∗ owns (c : Thread nD τ) arg3 fullShare x3 ∗ owns (c : Thread nD τ) arg4 fullShare x4
                ∗ owns (c : Thread nD τ) arg5 fullShare x5
                ∗ (∃ f, arg6.view.loc (c : Thread nD τ) ↦[arg6.view.set]{fullShare} arg6.view.writes (Elt F) f L6)
                ∗ (∃ d, owns (c : Thread nD τ) arg7 fullShare d)) -∗ K ⟨⟩))
          ⊢ wp frame (wpE (defs₀ (F := F)) Variants.none c none) E
              (cc0__fused_kernel i arg1 harg1 arg2 harg2 arg3 harg3 arg4 harg4 arg5 harg5 arg6 harg6 arg7 harg7) K } := by
  refine ⟨?_, fun E K => ?run⟩
  case run =>
    simp only [cc0__fused_kernel_eq_skeleton]; unfold cc0__fused_kernel_skel
    simp only [k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3
    obtain rfl := harg4.eq_unread hf4; obtain rfl := harg5.eq_unread hf5
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexists _; isplitr
    swap; · iexact H7
    ipureintro; rfl

end Cert.KernelIdeal.Hand

end
-- ==== Proof.KernelData.lean ====
import proofs.«174715_g2000604396416013_pallasbulk_796_15_alg».proof.Proof.KernelRun
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the fused call finds them -/

/-- Core `c`'s buffers when the fused call is entered: the weights already transposed and flattened
    to `[Fin, D·H·Fout]`, every argument as launched. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The two host operations write only their own results: argument 0 is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The two host operations write only their own results: argument 1 is found as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The two host operations write only their own results: argument 2 is found as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The two host operations write only their own results: argument 3 is found as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The staging buffers the body is called on at a point -/

abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x256x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x512 .f32 := win0_5.stage (cfg0.slots t 5)
abbrev hs5 (t : Fin cfg0.N) : (ms5 t).IsWhole := hstage0_5 ((cfg0.slots t 5).cast nbuf0_5)
/-- The scratch that holds the transformed features within a point. -/
abbrev scM : Memref sig .tc .vmem S4096x512 .bf16 := Memref.whole cc0_scratch0
/-- One staging buffer of the output window, through which the block's contents are stated. -/
abbrev VO5 : View sig .tc .vmem S256x512 .f32 := (Memref.whole cc0_stg5_0 : Memref sig .tc .vmem S256x512 .f32).view

/-- What is kept between points: the scratch, owned whole at some contents. -/
def PhiK (c : Dev nD) : sProp 𝕄 :=
  Pipeline.scopedRest (Ix := Unit) (Name := ℕ) (U := UR sig nD τ) (Lvl := ℕ) (Val := Elt F) spec0 c

theorem PhiK_eq (c : Dev nD) :
    (PhiK (F := F) c : sProp 𝕄) = iprop(∃ d, owns (c : Thread nD τ) scM fullShare d) := by
  unfold PhiK; rw [scopedRest0_eq]; simp only [scM, owns_whole]; try rfl

/-! ## What a point leaves in the output block -/

/-- The eight stores of a point (two 64-column halves per division) tile the 256×512 output block. -/
theorem cover5 (c : Dev nD) (i : grid0.Coords)
    (arg1 : Memref sig .tc .vmem S4096x128 .f32) (harg1 : arg1.IsWhole)
    (arg2 : Memref sig .tc .vmem S128x512 .f32) (harg2 : arg2.IsWhole)
    (arg3 : Memref sig .tc .vmem S4096x1 .f32) (harg3 : arg3.IsWhole)
    (arg4 : Memref sig .tc .vmem S4x256x4096 .f32) (harg4 : arg4.IsWhole)
    (arg5 : Memref sig .tc .vmem S256x1 .f32) (harg5 : arg5.IsWhole)
    (arg6 : Memref sig .tc .vmem S256x512 .f32) (harg6 : arg6.IsWhole)
    (arg7 : Memref sig .tc .vmem S4096x512 .bf16) (harg7 : arg7.IsWhole)
    (x1 : Vec F S4096x128 .f32) (x2 : Vec F S128x512 .f32) (x3 : Vec F S4096x1 .f32)
    (x4 : Vec F S4x256x4096 .f32) (x5 : Vec F S256x1 .f32) (y : S256x512.Idx) :
    ∃ pc ∈ (kernelRun c i arg1 harg1 arg2 harg2 arg3 harg3 arg4 harg4 arg5 harg5 arg6 harg6 arg7 harg7 x1 x2 x3 x4 x5).1, y ∈ pc.1.set :=
  View.cover_of_tiledL (kernelRun c i arg1 harg1 arg2 harg2 arg3 harg3 arg4 harg4 arg5 harg5 arg6 harg6 arg7 harg7 x1 x2 x3 x4 x5).1 S256x64.size (by sl_kernel_rfl) y

/-- The output block after the body at point `t`, from the five input blocks: the point's stores read back. -/
def out5 (c : Dev nD) (t : Fin cfg0.N) (x1 : Vec F S4096x128 .f32) (x2 : Vec F S128x512 .f32) (x3 : Vec F S4096x1 .f32)
    (x4 : Vec F S4x256x4096 .f32) (x5 : Vec F S256x1 .f32) : Vec F S256x512 .f32 :=
  VO5.read (Elt F) (VO5.writes (Elt F) VO5.junk (kernelRun c (grid0.coords t) (ms0 t) (hs0 t) (ms1 t) (hs1 t) (ms2 t) (hs2 t) (ms3 t) (hs3 t) (ms4 t) (hs4 t) (ms5 t) (hs5 t) scM (Memref.isWhole_whole _) x1 x2 x3 x4 x5).1)

/-! ## The proof data of the one pipeline -/

/-- After the body at point `t` every input buffer still holds its block and the output buffer holds `out5` of
    them; between points nothing is kept but the scratch at contents nobody names. The per-node norm is read through
    two windows (whole, and the destination slab), so its array is lent half to each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 c t (iblk m c 0 t) (iblk m c 1 t) (iblk m c 2 t) (iblk m c 3 t) (iblk m c 4 t)
  Φ _ := PhiK c
  q w := match w with
    | ⟨0, _⟩ => fullShare
    | ⟨1, _⟩ => fullShare
    | ⟨2, _⟩ => fullShare.left
    | ⟨3, _⟩ => fullShare
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = out5 c t (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1600000 in
/-- At every point the input buffers hold their blocks, so the run of the body applies; the scratch goes in at
    whatever it holds and comes back at whatever the point wrote. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = PhiK c from rfl, PhiK_eq]
  unfold out5
  iintro ⟨HS, Ho, ⟨%d0, H0⟩, ⟨%d1, H1⟩, ⟨%d2, H2⟩, ⟨%d3, H3⟩, ⟨%d4, H4⟩, ⟨%d5, H5⟩⟩
  iapply ((kernelRun c (grid0.coords t) (ms0 t) (hs0 t) (ms1 t) (hs1 t) (ms2 t) (hs2 t) (ms3 t) (hs3 t) (ms4 t) (hs4 t) (ms5 t) (hs5 t) scM (Memref.isWhole_whole _) (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, HS⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover5 c _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelFrame.lean ====
import proofs.«174715_g2000604396416013_pallasbulk_796_15_alg».proof.Proof.KernelData
import Idealize.ShloMosaic.Lib.Pipeline.FrameBody
import Idealize.ShloMosaic.Lib.Ring
import Idealize.ShloMosaic.Lib.Tactic
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.SL.BI (bigSep bigSepL bigSep_eq_bigSepL_of_eq bigSep_congr)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows

Five distinct buffers stand behind the six windows: the per-node norm is read whole (for the source side of
the feature transform) and by destination slab (for the final scaling). It is lent to the two windows in halves. -/

theorem arrBufs_eq (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_v1) ↦{fullShare} W main_v1)
          ∗ (((c.tc : Thread nD τ).loc main_arg3) ↦{fullShare} W main_arg3) ∗ (((c.tc : Thread nD τ).loc main_arg2) ↦{fullShare} W main_arg2)
          ∗ (((c.tc : Thread nD τ).loc main_v2) ↦{fullShare} W main_v2)) := by
  unfold Pipeline.arrBufs
  rw [bigSep_eq_bigSepL_of_eq [main_arg0, main_v1, main_arg3, main_arg2, main_v2] (by decide) (by decide)]
  rfl

theorem arrays_norm (c : Dev nD) (Fw : (w : Fin cfg0.W) → Buf (Elt F) ((cfg0.win w).arr.view.loc (c.tc : Thread nD τ))) :
    (dats m 0 c).arrays Fw
      = bigSep Finset.univ fun w => (((c.tc : Thread nD τ).loc (Pipeline.arrRef spec0 w)) ↦{(dats m 0 c).share w} Fw w : sProp 𝕄) := by
  unfold Dat.arrays
  exact bigSep_congr fun w _ => by rw [(arr_whole0 w).set_eq_univ]

/-- At entry the five buffers, each whole, are the six windows' arrays at the shares the proof data name. -/
theorem hsplit (c : Dev nD) : (Pipeline.arrBufs spec0 c (V m c) : sProp 𝕄) ⊢ (dats m 0 c).arrays ((dats m 0 c).arrAt · 0) := by
  rw [arrBufs_eq, arrays_norm, bigSep_W0]
  iintro ⟨H0, H1, H3, H2, H5⟩
  ihave Hs := (pointsTo_share (PosShare.mem_left_op_right fullShare)).1 $$ H3
  icases Hs with ⟨Hl, Hr⟩
  isplitl [H0]; · iexact H0
  isplitl [H1]; · iexact H1
  isplitl [Hl]; · iexact Hl
  isplitl [H2]; · iexact H2
  isplitl [Hr]; · iexact Hr
  iexact H5

/-! ## The run -/

set_option backward.isDefEq.respectTransparency.types false in
/-- Every weakly fair execution from a memory with zero counters terminates without a fault; at the end the
    result array holds the sixteen write-backs folded over its launch contents and every argument is as launched. -/
theorem run_main : θ_run defs (onTc (τ := τ) (main (F := F))) ⟨m, fun _ => 0, ρ⟩ (fun r => ∀ c : Dev nD,
      r.2.mem ((c.tc : Thread nD τ).loc main_v2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [show (dats m 0 c).Φ 0 = PhiK c from rfl]; unfold PhiK
      iintro ⟨-, H⟩
      iexact H)
    (hout := fun c => by
      rw [show (dats m 0 c).Φ (Fin.last (cfgs 0).N) = PhiK c from rfl]; unfold PhiK
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c =>
      ⟨(h c).1 5,
       ((h c).1 0).trans (((dats m 0 c).arrAt_in 0 rfl _).trans ((A_eq m c 0).trans (V_main_arg0 m c))),
       ((h c).2 main_arg1 (Pipeline.mem_restRefs_of main_arg1 rfl (by decide))).trans (V_main_arg1 m c),
       ((h c).1 3).trans (((dats m 0 c).arrAt_in 3 rfl _).trans ((A_eq m c 3).trans (V_main_arg2 m c))),
       ((h c).1 2).trans (((dats m 0 c).arrAt_in 2 rfl _).trans ((A_eq m c 2).trans (V_main_arg3 m c)))⟩)

/-- The frame: the run with what the result holds dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.KernelValue.lean ====
import proofs.«174715_g2000604396416013_pallasbulk_796_15_alg».proof.Proof.KernelFrame
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.ShloMosaic.Pipeline (Dat Cfg Window)
open Idealize.ShloMosaic.Tactic

/-! ## The layer as one function of the arrays

`feat` is the transformed feature matrix `(x · norm) W`; `layerAt` is the output entry at destination row `r` and
output column `q = (h·4 + d)·64 + f` (head `h`, division `d`, feature `f`): the division's adjacency row against the
column `d·128 + h·64 + f` of `feat`, scaled by the destination's norm and clamped at zero. -/

/-- Transformed features: row `s`, column `j` is `∑ₖ (x s k · norm s) · w k j`. -/
def feat (x : S4096x128.Idx → EReal) (w : S128x512.Idx → EReal) (nrm : S4096x1.Idx → EReal) : S4096x512.Idx → EReal :=
  fun i => ∑ k : Fin 128, (x (ix2 (i 0) k) * nrm (ix2 (i 0) 0)) * w (ix2 k (i 1))

/-- The division an output column belongs to. -/
def divOf (q : Fin 512) : Fin 4 := ⟨(q.val / 64) % 4, Nat.mod_lt _ (by decide)⟩
/-- The column of the transformed features an output column reads. -/
def colOf (q : Fin 512) : Fin 512 := ⟨((q.val / 64) % 4) * 128 + (q.val / 256) * 64 + q.val % 64, by have := q.isLt; omega⟩

/-- One output entry from an adjacency row `a` (over the 4096 sources), the features and the destination's norm. -/
def entry (a : Fin 4096 → EReal) (ft : S4096x512.Idx → EReal) (nd : EReal) (q : Fin 512) : EReal :=
  max ((∑ s : Fin 4096, a s * ft (ix2 s (colOf q))) * nd) 0

/-! ## Reading through unit-stride rectangles -/

theorem emb_unit2 {n0 n1 : Nat} (o0 o1 s0 s1 : Nat) (inb : ∀ a, (![o0, o1] : Fin 2 → Nat) a + (![s0, s1] : Fin 2 → Nat) a ≤ (⟨2, ![n0, n1]⟩ : Shape).size a)
    (a : Fin s0) (b : Fin s1) (h0 : o0 + a.val < n0) (h1 : o1 + b.val < n1) :
    (Rect.unit (s := ⟨2, ![n0, n1]⟩) ![o0, o1] ![s0, s1] inb).emb (ix2 a b) = ix2 ⟨o0 + a.val, h0⟩ ⟨o1 + b.val, h1⟩ := by
  funext i; apply Fin.ext
  match i with
  | ⟨0, _⟩ => simp [Rect.emb_apply]
  | ⟨1, _⟩ => simp [Rect.emb_apply]

theorem emb_unit3 {n0 n1 n2 : Nat} (o0 o1 o2 s0 s1 s2 : Nat)
    (inb : ∀ a, (![o0, o1, o2] : Fin 3 → Nat) a + (![s0, s1, s2] : Fin 3 → Nat) a ≤ (⟨3, ![n0, n1, n2]⟩ : Shape).size a)
    (a : Fin s0) (b : Fin s1) (e : Fin s2) (h0 : o0 + a.val < n0) (h1 : o1 + b.val < n1) (h2 : o2 + e.val < n2) :
    (Rect.unit (s := ⟨3, ![n0, n1, n2]⟩) ![o0, o1, o2] ![s0, s1, s2] inb).emb (ix3 a b e)
      = ix3 ⟨o0 + a.val, h0⟩ ⟨o1 + b.val, h1⟩ ⟨o2 + e.val, h2⟩ := by
  funext i; apply Fin.ext
  match i with
  | ⟨0, _⟩ => simp [Rect.emb_apply]
  | ⟨1, _⟩ => simp [Rect.emb_apply]
  | ⟨2, _⟩ => simp [Rect.emb_apply]

theorem ix2_congr {n0 n1 : Nat} {a a' : Fin n0} {b b' : Fin n1} (ha : a.val = a'.val) (hb : b.val = b'.val) :
    (ix2 a b : (⟨2, ![n0, n1]⟩ : Shape).Idx) = ix2 a' b' := by rw [Fin.ext ha, Fin.ext hb]

theorem ix3_congr {n0 n1 n2 : Nat} {a a' : Fin n0} {b b' : Fin n1} {e e' : Fin n2} (ha : a.val = a'.val) (hb : b.val = b'.val)
    (he : e.val = e'.val) : (ix3 a b e : (⟨3, ![n0, n1, n2]⟩ : Shape).Idx) = ix3 a' b' e' := by
  rw [Fin.ext ha, Fin.ext hb, Fin.ext he]

/-! ## The scratch holds the transformed features

Each of the eight stores writes rows `o … o+511` of `(x · norm) W`: its chunk of `x` and of the norm are the rows
`o + r` of the whole arrays, the weights are read whole. -/

theorem chunk_ok (x1 : Vec Ideal S4096x128 .f32) (x2 : Vec Ideal S128x512 .f32) (x3 : Vec Ideal S4096x1 .f32)
    (o : Nat) (ho : o + 512 ≤ 4096)
    (P : Vec Ideal S512x128 .f32 → Vec Ideal S512x1 .f32 → Vec Ideal S128x512 .f32 → FVec Ideal S512x512 .bf16)
    (hP : ∀ x n w (r j : Fin 512), P x n w (ix2 r j) = ∑ k : Fin 128, (x (ix2 r k) * n (ix2 r 0)) * w (ix2 k j))
    (inb1 : ∀ a, (![o, 0] : Fin 2 → Nat) a + S512x128.size a ≤ S4096x128.size a)
    (inb3 : ∀ a, (![o, 0] : Fin 2 → Nat) a + S512x1.size a ≤ S4096x1.size a)
    (inb2 : ∀ a, (![0, 0] : Fin 2 → Nat) a + S128x512.size a ≤ S128x512.size a)
    (inb7 : ∀ a, (![o, 0] : Fin 2 → Nat) a + S512x512.size a ≤ S4096x512.size a)
    (y : (Rect.unit (s := S4096x512) ![o, 0] S512x512.size inb7).shape.Idx) :
    P (View.ld x1 (Rect.unit (s := S4096x128) ![o, 0] S512x128.size inb1)) (View.ld x3 (Rect.unit (s := S4096x1) ![o, 0] S512x1.size inb3))
        (View.ld x2 (Rect.unit (s := S128x512) ![0, 0] S128x512.size inb2)) y
      = feat x1 x2 x3 ((Rect.unit (s := S4096x512) ![o, 0] S512x512.size inb7).emb y) := by
  obtain ⟨r, j, rfl⟩ : ∃ (r : Fin 512) (j : Fin 512), y = ix2 r j := ⟨y 0, y 1, eq_ix2 y⟩
  have hr := r.isLt
  have hj := j.isLt
  rw [hP, emb_unit2 o 0 512 512 inb7 r j (by omega) (by omega)]
  unfold feat
  refine Finset.sum_congr rfl fun k _ => ?_
  have hk := k.isLt
  have e1 : View.ld x1 (Rect.unit (s := S4096x128) ![o, 0] S512x128.size inb1) (ix2 r k)
      = x1 (ix2 ⟨o + r.val, by omega⟩ k) := by
    show x1 ((Rect.unit (s := S4096x128) ![o, 0] S512x128.size inb1).emb (ix2 r k)) = _
    rw [emb_unit2 o 0 512 128 inb1 r k (by omega) (by omega)]
    exact congrArg x1 (ix2_congr rfl (Nat.zero_add _))
  have e3 : View.ld x3 (Rect.unit (s := S4096x1) ![o, 0] S512x1.size inb3) (ix2 r 0)
      = x3 (ix2 ⟨o + r.val, by omega⟩ 0) := by
    show x3 ((Rect.unit (s := S4096x1) ![o, 0] S512x1.size inb3).emb (ix2 r 0)) = _
    rw [emb_unit2 o 0 512 1 inb3 r 0 (by omega) (by simp)]
    exact congrArg x3 (ix2_congr rfl (by simp))
  have e2 : View.ld x2 (Rect.unit (s := S128x512) ![0, 0] S128x512.size inb2) (ix2 k j)
      = x2 (ix2 k ⟨0 + j.val, by omega⟩) := by
    show x2 ((Rect.unit (s := S128x512) ![0, 0] S128x512.size inb2).emb (ix2 k j)) = _
    rw [emb_unit2 0 0 128 512 inb2 k j (by omega) (by omega)]
    exact congrArg x2 (ix2_congr (Nat.zero_add _) rfl)
  rw [e1, e3, e2]

/-- What a chunk store's payload must be, read at an index: the chunk's rows of `(x · norm) W`. -/
abbrev ChunkSpec (P : Vec Ideal S512x128 .f32 → Vec Ideal S512x1 .f32 → Vec Ideal S128x512 .f32 → FVec Ideal S512x512 .bf16) : Prop :=
  ∀ x n w (r j : Fin 512), P x n w (ix2 r j) = ∑ k : Fin 128, (x (ix2 r k) * n (ix2 r 0)) * w (ix2 k j)

section Scratch

variable (h6 : ChunkSpec k0_pay6) (h7 : ChunkSpec k0_pay7) (h9 : ChunkSpec fun x n w => k0_pay9 (k0_pay8 x n w))
  (h10 : ChunkSpec k0_pay10) (h11 : ChunkSpec k0_pay11) (h13 : ChunkSpec fun x n w => k0_pay13 (k0_pay12 x n w))
  (h14 : ChunkSpec k0_pay14) (h15 : ChunkSpec k0_pay15)

include h6 h7 h9 h10 h11 h13 h14 h15 in
/-- After the eight chunk stores the scratch reads as the whole feature matrix, whatever it held before. -/
theorem scratch_canon (c : Dev nD)
    (arg1 : Memref sig .tc .vmem S4096x128 .f32) (harg1 : arg1.IsWhole)
    (arg2 : Memref sig .tc .vmem S128x512 .f32) (harg2 : arg2.IsWhole)
    (arg3 : Memref sig .tc .vmem S4096x1 .f32) (harg3 : arg3.IsWhole)
    (x1 : Vec Ideal S4096x128 .f32) (x2 : Vec Ideal S128x512 .f32) (x3 : Vec Ideal S4096x1 .f32) :
    View.canon (kernelRun.sl.H7_8 (F := Ideal) c arg1 harg1 arg2 harg2 arg3 harg3 x1 x2 x3) = feat x1 x2 x3 := by
  funext y
  refine View.canon_apply_of_pieces (feat x1 x2 x3) _ ?_ y
    (View.cover_of_tiledL (kernelRun.sl.H7_8 (F := Ideal) c arg1 harg1 arg2 harg2 arg3 harg3 x1 x2 x3) S512x512.size (by sl_kernel_rfl) y)
  unfold kernelRun.sl.H7_8
  intro p hp x
  simp only [List.mem_cons, List.mem_nil_iff, or_false] at hp
  rcases hp with rfl | rfl | rfl | rfl | rfl | rfl | rfl | rfl
  · simp only [View.readAt_eq_ld, harg1.read_unread, harg2.read_unread, harg3.read_unread]
    exact chunk_ok x1 x2 x3 3584 (by omega) k0_pay15 h15 _ _ _ _ x
  · simp only [View.readAt_eq_ld, harg1.read_unread, harg2.read_unread, harg3.read_unread]
    exact chunk_ok x1 x2 x3 3072 (by omega) k0_pay14 h14 _ _ _ _ x
  · unfold kernelRun.sl.r_1
    simp only [View.readAt_eq_ld, harg1.read_unread, harg2.read_unread, harg3.read_unread]
    exact chunk_ok x1 x2 x3 2560 (by omega) (fun x n w => k0_pay13 (k0_pay12 x n w)) h13 _ _ _ _ x
  · simp only [View.readAt_eq_ld, harg1.read_unread, harg2.read_unread, harg3.read_unread]
    exact chunk_ok x1 x2 x3 2048 (by omega) k0_pay11 h11 _ _ _ _ x
  · simp only [View.readAt_eq_ld, harg1.read_unread, harg2.read_unread, harg3.read_unread]
    exact chunk_ok x1 x2 x3 1536 (by omega) k0_pay10 h10 _ _ _ _ x
  · unfold kernelRun.sl.r
    simp only [View.readAt_eq_ld, harg1.read_unread, harg2.read_unread, harg3.read_unread]
    exact chunk_ok x1 x2 x3 1024 (by omega) (fun x n w => k0_pay9 (k0_pay8 x n w)) h9 _ _ _ _ x
  · simp only [View.readAt_eq_ld, harg1.read_unread, harg2.read_unread, harg3.read_unread]
    exact chunk_ok x1 x2 x3 512 (by omega) k0_pay7 h7 _ _ _ _ x
  · simp only [View.readAt_eq_ld, harg1.read_unread, harg2.read_unread, harg3.read_unread]
    exact chunk_ok x1 x2 x3 0 (by omega) k0_pay6 h6 _ _ _ _ x

end Scratch

/-! ## A division's product and its two halves -/

/-- What a division's product must be, read at an index: adjacency row times the division's feature columns,
    scaled by the destination's norm, clamped at zero. -/
abbrev ProdSpec (P : Vec Ideal S256x1 .f32 → Vec Ideal S1x256x4096 .f32 → Vec Ideal S4096x128 .bf16 → FVec Ideal S256x128 .f32) : Prop :=
  ∀ nrm a ms (p : Fin 256) (j : Fin 128),
    P nrm a ms (ix2 p j) = max ((∑ s : Fin 4096, a (ix3 0 p s) * ms (ix2 s j)) * nrm (ix2 p 0)) 0

/-- The output block as one function of the five input blocks. -/
def blkFun (x1 : S4096x128.Idx → EReal) (x2 : S128x512.Idx → EReal) (x3 : S4096x1.Idx → EReal)
    (x4 : S4x256x4096.Idx → EReal) (x5 : S256x1.Idx → EReal) : S256x512.Idx → EReal :=
  fun i => entry (fun s => x4 (ix3 (divOf (i 1)) (i 0) s)) (feat x1 x2 x3) (x5 (ix2 (i 0) 0)) (i 1)

theorem prod_ok (x1 : Vec Ideal S4096x128 .f32) (x2 : Vec Ideal S128x512 .f32) (x3 : Vec Ideal S4096x1 .f32)
    (x4 : Vec Ideal S4x256x4096 .f32) (x5 : Vec Ideal S256x1 .f32) (d o7 : Nat) (hd : d < 4) (ho7 : o7 = d * 128)
    (inb5 : ∀ a, (![0, 0] : Fin 2 → Nat) a + S256x1.size a ≤ S256x1.size a)
    (inb4 : ∀ a, (![d, 0, 0] : Fin 3 → Nat) a + S1x256x4096.size a ≤ S4x256x4096.size a)
    (inb7 : ∀ a, (![0, o7] : Fin 2 → Nat) a + S4096x128.size a ≤ S4096x512.size a)
    (P : Vec Ideal S256x1 .f32 → Vec Ideal S1x256x4096 .f32 → Vec Ideal S4096x128 .bf16 → FVec Ideal S256x128 .f32)
    (hP : ProdSpec P) (p : Fin 256) (j : Fin 128) :
    P (View.ld x5 (Rect.unit (s := S256x1) ![0, 0] S256x1.size inb5))
        (View.ld x4 (Rect.unit (s := S4x256x4096) ![d, 0, 0] S1x256x4096.size inb4))
        (View.ld (Val := Elt Ideal) (e' := .bf16) (feat x1 x2 x3) (Rect.unit (s := S4096x512) ![0, o7] S4096x128.size inb7)) (ix2 p j)
      = max ((∑ s : Fin 4096, x4 (ix3 ⟨d, hd⟩ p s) * feat x1 x2 x3 (ix2 s ⟨d * 128 + j.val, by have := j.isLt; omega⟩)) * x5 (ix2 p 0)) 0 := by
  have hp := p.isLt
  have hj := j.isLt
  rw [hP]
  have e5 : View.ld x5 (Rect.unit (s := S256x1) ![0, 0] S256x1.size inb5) (ix2 p 0) = x5 (ix2 p 0) := by
    show x5 ((Rect.unit (s := S256x1) ![0, 0] S256x1.size inb5).emb (ix2 p 0)) = _
    rw [emb_unit2 0 0 256 1 inb5 p 0 (by omega) (by simp)]
    exact congrArg x5 (ix2_congr (Nat.zero_add _) (by simp))
  rw [e5]
  congr 2
  refine Finset.sum_congr rfl fun s _ => ?_
  have hs := s.isLt
  have e4 : View.ld x4 (Rect.unit (s := S4x256x4096) ![d, 0, 0] S1x256x4096.size inb4) (ix3 0 p s) = x4 (ix3 ⟨d, hd⟩ p s) := by
    show x4 ((Rect.unit (s := S4x256x4096) ![d, 0, 0] S1x256x4096.size inb4).emb (ix3 0 p s)) = _
    rw [emb_unit3 d 0 0 1 256 4096 inb4 0 p s (by simp; omega) (by omega) (by omega)]
    exact congrArg x4 (ix3_congr (by simp) (Nat.zero_add _) (Nat.zero_add _))
  have e7 : View.ld (Val := Elt Ideal) (e' := .bf16) (feat x1 x2 x3) (Rect.unit (s := S4096x512) ![0, o7] S4096x128.size inb7) (ix2 s j)
      = feat x1 x2 x3 (ix2 s ⟨d * 128 + j.val, by omega⟩) := by
    show feat x1 x2 x3 ((Rect.unit (s := S4096x512) ![0, o7] S4096x128.size inb7).emb (ix2 s j)) = _
    rw [emb_unit2 0 o7 4096 128 inb7 s j (by omega) (by omega)]
    exact congrArg (feat x1 x2 x3) (ix2_congr (Nat.zero_add _) (by simp; omega))
  rw [e4, e7]

/-- A 64-column half of a division's product, stored at column offset `o = (h·4 + d)·64` of the output block,
    is the block function there. -/
theorem half_ok (x1 : Vec Ideal S4096x128 .f32) (x2 : Vec Ideal S128x512 .f32) (x3 : Vec Ideal S4096x1 .f32)
    (x4 : Vec Ideal S4x256x4096 .f32) (x5 : Vec Ideal S256x1 .f32) (d hh o : Nat) (hd : d < 4) (hhh : hh < 2) (ho : o = (hh * 4 + d) * 64)
    (inb6 : ∀ a, (![0, o] : Fin 2 → Nat) a + S256x64.size a ≤ S256x512.size a)
    (Q : FVec Ideal S256x64 .f32)
    (hQ : ∀ (p : Fin 256) (f : Fin 64), Q (ix2 p f)
      = max ((∑ s : Fin 4096, x4 (ix3 ⟨d, hd⟩ p s) * feat x1 x2 x3 (ix2 s ⟨d * 128 + (hh * 64 + f.val), by have := f.isLt; omega⟩)) * x5 (ix2 p 0)) 0)
    (y : (Rect.unit (s := S256x512) ![0, o] S256x64.size inb6).shape.Idx) :
    Q y = blkFun x1 x2 x3 x4 x5 ((Rect.unit (s := S256x512) ![0, o] S256x64.size inb6).emb y) := by
  obtain ⟨p, f, rfl⟩ : ∃ (p : Fin 256) (f : Fin 64), y = ix2 p f := ⟨y 0, y 1, eq_ix2 y⟩
  have hp := p.isLt
  have hf := f.isLt
  rw [hQ, emb_unit2 0 o 256 64 inb6 p f (by omega) (by omega)]
  unfold blkFun entry
  have hdiv : divOf ⟨o + f.val, by omega⟩ = ⟨d, hd⟩ := by
    apply Fin.ext; show ((o + f.val) / 64) % 4 = d; omega
  have hcol : colOf ⟨o + f.val, by omega⟩ = ⟨d * 128 + (hh * 64 + f.val), by omega⟩ := by
    apply Fin.ext; show ((o + f.val) / 64) % 4 * 128 + ((o + f.val) / 256) * 64 + (o + f.val) % 64 = d * 128 + (hh * 64 + f.val); omega
  show max ((∑ s : Fin 4096, x4 (ix3 ⟨d, hd⟩ p s) * feat x1 x2 x3 (ix2 s ⟨d * 128 + (hh * 64 + f.val), _⟩)) * x5 (ix2 p 0)) 0
    = max ((∑ s : Fin 4096, x4 (ix3 (divOf ⟨o + f.val, _⟩) ⟨0 + p.val, _⟩ s) * feat x1 x2 x3 (ix2 s (colOf ⟨o + f.val, _⟩))) * x5 (ix2 ⟨0 + p.val, _⟩ 0)) 0
  rw [hdiv, hcol]
  have hp0 : (⟨0 + p.val, by omega⟩ : Fin 256) = p := Fin.ext (Nat.zero_add _)
  rw [hp0]

theorem piece_ok (x1 : Vec Ideal S4096x128 .f32) (x2 : Vec Ideal S128x512 .f32) (x3 : Vec Ideal S4096x1 .f32)
    (x4 : Vec Ideal S4x256x4096 .f32) (x5 : Vec Ideal S256x1 .f32) (d hh o o7 : Nat) (hd : d < 4) (hhh : hh < 2)
    (ho : o = (hh * 4 + d) * 64) (ho7 : o7 = d * 128)
    (inb5 : ∀ a, (![0, 0] : Fin 2 → Nat) a + S256x1.size a ≤ S256x1.size a)
    (inb4 : ∀ a, (![d, 0, 0] : Fin 3 → Nat) a + S1x256x4096.size a ≤ S4x256x4096.size a)
    (inb7 : ∀ a, (![0, o7] : Fin 2 → Nat) a + S4096x128.size a ≤ S4096x512.size a)
    (inb6 : ∀ a, (![0, o] : Fin 2 → Nat) a + S256x64.size a ≤ S256x512.size a)
    (P : Vec Ideal S256x1 .f32 → Vec Ideal S1x256x4096 .f32 → Vec Ideal S4096x128 .bf16 → FVec Ideal S256x128 .f32)
    (hP : ProdSpec P) (Q : FVec Ideal S256x64 .f32)
    (hH : ∀ (p : Fin 256) (f : Fin 64), Q (ix2 p f)
      = P (View.ld x5 (Rect.unit (s := S256x1) ![0, 0] S256x1.size inb5))
          (View.ld x4 (Rect.unit (s := S4x256x4096) ![d, 0, 0] S1x256x4096.size inb4))
          (View.ld (Val := Elt Ideal) (e' := .bf16) (feat x1 x2 x3) (Rect.unit (s := S4096x512) ![0, o7] S4096x128.size inb7))
          (ix2 p ⟨hh * 64 + f.val, by have := f.isLt; omega⟩))
    (y : (Rect.unit (s := S256x512) ![0, o] S256x64.size inb6).shape.Idx) :
    Q y = blkFun x1 x2 x3 x4 x5 ((Rect.unit (s := S256x512) ![0, o] S256x64.size inb6).emb y) :=
  half_ok x1 x2 x3 x4 x5 d hh o hd hhh ho inb6 Q (fun p f => by
    rw [hH, prod_ok x1 x2 x3 x4 x5 d o7 hd ho7 inb5 inb4 inb7 P hP p ⟨hh * 64 + f.val, by have := f.isLt; omega⟩]) y

section Out

variable (h6 : ChunkSpec k0_pay6) (h7 : ChunkSpec k0_pay7) (h9 : ChunkSpec fun x n w => k0_pay9 (k0_pay8 x n w))
  (h10 : ChunkSpec k0_pay10) (h11 : ChunkSpec k0_pay11) (h13 : ChunkSpec fun x n w => k0_pay13 (k0_pay12 x n w))
  (h14 : ChunkSpec k0_pay14) (h15 : ChunkSpec k0_pay15)
  (hp17 : ProdSpec fun nrm a ms => k0_pay17 nrm (k0_pay16 a) ms) (hp20 : ProdSpec k0_pay20) (hp23 : ProdSpec k0_pay23)
  (hp3 : ProdSpec k0_pay3)
  (hl18 : ∀ nrm a ms (p : Fin 256) (f : Fin 64), k0_pay18 (F := Ideal) nrm a ms (ix2 p f) = k0_pay17 nrm a ms (ix2 p ⟨0 * 64 + f.val, by have := f.isLt; omega⟩))
  (hl19 : ∀ nrm a ms (p : Fin 256) (f : Fin 64), k0_pay19 (F := Ideal) nrm a ms (ix2 p f) = k0_pay17 nrm a ms (ix2 p ⟨1 * 64 + f.val, by have := f.isLt; omega⟩))
  (hl21 : ∀ nrm a ms (p : Fin 256) (f : Fin 64), k0_pay21 (F := Ideal) nrm a ms (ix2 p f) = k0_pay20 nrm a ms (ix2 p ⟨0 * 64 + f.val, by have := f.isLt; omega⟩))
  (hl22 : ∀ nrm a ms (p : Fin 256) (f : Fin 64), k0_pay22 (F := Ideal) nrm a ms (ix2 p f) = k0_pay20 nrm a ms (ix2 p ⟨1 * 64 + f.val, by have := f.isLt; omega⟩))
  (hl1 : ∀ (v : FVec Ideal S256x128 .f32) (p : Fin 256) (f : Fin 64), k0_pay1 (F := Ideal) v (ix2 p f) = v (ix2 p ⟨0 * 64 + f.val, by have := f.isLt; omega⟩))
  (hl2 : ∀ (v : FVec Ideal S256x128 .f32) (p : Fin 256) (f : Fin 64), k0_pay2 (F := Ideal) v (ix2 p f) = v (ix2 p ⟨1 * 64 + f.val, by have := f.isLt; omega⟩))
  (hl4 : ∀ nrm a ms (p : Fin 256) (f : Fin 64), k0_pay4 (F := Ideal) nrm a ms (ix2 p f) = k0_pay3 nrm a ms (ix2 p ⟨0 * 64 + f.val, by have := f.isLt; omega⟩))
  (hl5 : ∀ nrm a ms (p : Fin 256) (f : Fin 64), k0_pay5 (F := Ideal) nrm a ms (ix2 p f) = k0_pay3 nrm a ms (ix2 p ⟨1 * 64 + f.val, by have := f.isLt; omega⟩))

/-- The scratch's eight stores tile it. -/
theorem scratch_cover (c : Dev nD)
    (arg1 : Memref sig .tc .vmem S4096x128 .f32) (harg1 : arg1.IsWhole)
    (arg2 : Memref sig .tc .vmem S128x512 .f32) (harg2 : arg2.IsWhole)
    (arg3 : Memref sig .tc .vmem S4096x1 .f32) (harg3 : arg3.IsWhole)
    (x1 : Vec Ideal S4096x128 .f32) (x2 : Vec Ideal S128x512 .f32) (x3 : Vec Ideal S4096x1 .f32) (y : S4096x512.Idx) :
    ∃ p ∈ kernelRun.sl.H7_8 (F := Ideal) c arg1 harg1 arg2 harg2 arg3 harg3 x1 x2 x3, y ∈ p.1.set :=
  View.cover_of_tiledL (kernelRun.sl.H7_8 (F := Ideal) c arg1 harg1 arg2 harg2 arg3 harg3 x1 x2 x3) S512x512.size (by sl_kernel_rfl) y

include h6 h7 h9 h10 h11 h13 h14 h15 hp17 hp20 hp23 hp3 hl18 hl19 hl21 hl22 hl1 hl2 hl4 hl5 in
/-- Every store of a point into the output block writes the block function's values under its rectangle. -/
theorem pieces_ok (c : Dev nD) (i : grid0.Coords)
    (arg1 : Memref sig .tc .vmem S4096x128 .f32) (harg1 : arg1.IsWhole)
    (arg2 : Memref sig .tc .vmem S128x512 .f32) (harg2 : arg2.IsWhole)
    (arg3 : Memref sig .tc .vmem S4096x1 .f32) (harg3 : arg3.IsWhole)
    (arg4 : Memref sig .tc .vmem S4x256x4096 .f32) (harg4 : arg4.IsWhole)
    (arg5 : Memref sig .tc .vmem S256x1 .f32) (harg5 : arg5.IsWhole)
    (arg6 : Memref sig .tc .vmem S256x512 .f32) (harg6 : arg6.IsWhole)
    (arg7 : Memref sig .tc .vmem S4096x512 .bf16) (harg7 : arg7.IsWhole)
    (x1 : Vec Ideal S4096x128 .f32) (x2 : Vec Ideal S128x512 .f32) (x3 : Vec Ideal S4096x1 .f32)
    (x4 : Vec Ideal S4x256x4096 .f32) (x5 : Vec Ideal S256x1 .f32) :
    ∀ p ∈ (kernelRun (F := Ideal) c i arg1 harg1 arg2 harg2 arg3 harg3 arg4 harg4 arg5 harg5 arg6 harg6 arg7 harg7 x1 x2 x3 x4 x5).1,
      ∀ x : p.1.shape.Idx, p.2 x = blkFun x1 x2 x3 x4 x5 (p.1.emb x) := by
  have hsc := scratch_canon h6 h7 h9 h10 h11 h13 h14 h15 c arg1 harg1 arg2 harg2 arg3 harg3 x1 x2 x3
  have hcv := scratch_cover c arg1 harg1 arg2 harg2 arg3 harg3 x1 x2 x3
  unfold kernelRun; dsimp only
  intro p hp x
  simp only [List.mem_cons, List.mem_nil_iff, or_false] at hp
  rcases hp with rfl | rfl | rfl | rfl | rfl | rfl | rfl | rfl
  · unfold kernelRun.sl.r_2 kernelRun.sl.v131
    simp only [View.readAt_eq_ld, harg4.read_unread, harg5.read_unread]
    rw [View.readCov_eq_canon_ld _ _ _ hcv, hsc]
    exact piece_ok x1 x2 x3 x4 x5 3 1 448 384 (by omega) (by omega) (by omega) (by omega) _ _ _ _ k0_pay3 hp3 _ (fun p f => hl5 _ _ _ p f) x
  · unfold kernelRun.sl.r_2 kernelRun.sl.v131
    simp only [View.readAt_eq_ld, harg4.read_unread, harg5.read_unread]
    rw [View.readCov_eq_canon_ld _ _ _ hcv, hsc]
    exact piece_ok x1 x2 x3 x4 x5 3 0 192 384 (by omega) (by omega) (by omega) (by omega) _ _ _ _ k0_pay3 hp3 _ (fun p f => hl4 _ _ _ p f) x
  · unfold kernelRun.sl.r_4 kernelRun.sl.r_2 kernelRun.sl.v118
    simp only [View.readAt_eq_ld, harg4.read_unread, harg5.read_unread]
    rw [View.readCov_eq_canon_ld _ _ _ hcv, hsc]
    exact piece_ok x1 x2 x3 x4 x5 2 1 384 256 (by omega) (by omega) (by omega) (by omega) _ _ _ _ k0_pay23 hp23 _ (fun p f => hl2 _ p f) x
  · unfold kernelRun.sl.r_4 kernelRun.sl.r_2 kernelRun.sl.v118
    simp only [View.readAt_eq_ld, harg4.read_unread, harg5.read_unread]
    rw [View.readCov_eq_canon_ld _ _ _ hcv, hsc]
    exact piece_ok x1 x2 x3 x4 x5 2 0 128 256 (by omega) (by omega) (by omega) (by omega) _ _ _ _ k0_pay23 hp23 _ (fun p f => hl1 _ p f) x
  · unfold kernelRun.sl.r_2 kernelRun.sl.v105
    simp only [View.readAt_eq_ld, harg4.read_unread, harg5.read_unread]
    rw [View.readCov_eq_canon_ld _ _ _ hcv, hsc]
    exact piece_ok x1 x2 x3 x4 x5 1 1 320 128 (by omega) (by omega) (by omega) (by omega) _ _ _ _ k0_pay20 hp20 _ (fun p f => hl22 _ _ _ p f) x
  · unfold kernelRun.sl.r_2 kernelRun.sl.v105
    simp only [View.readAt_eq_ld, harg4.read_unread, harg5.read_unread]
    rw [View.readCov_eq_canon_ld _ _ _ hcv, hsc]
    exact piece_ok x1 x2 x3 x4 x5 1 0 64 128 (by omega) (by omega) (by omega) (by omega) _ _ _ _ k0_pay20 hp20 _ (fun p f => hl21 _ _ _ p f) x
  · unfold kernelRun.sl.r_2 kernelRun.sl.r_3 kernelRun.sl.v92
    simp only [View.readAt_eq_ld, harg4.read_unread, harg5.read_unread]
    rw [View.readCov_eq_canon_ld _ _ _ hcv, hsc]
    exact piece_ok x1 x2 x3 x4 x5 0 1 256 0 (by omega) (by omega) (by omega) (by omega) _ _ _ _ (fun nrm a ms => k0_pay17 nrm (k0_pay16 a) ms) hp17 _ (fun p f => hl19 _ _ _ p f) x
  · unfold kernelRun.sl.r_2 kernelRun.sl.r_3 kernelRun.sl.v92
    simp only [View.readAt_eq_ld, harg4.read_unread, harg5.read_unread]
    rw [View.readCov_eq_canon_ld _ _ _ hcv, hsc]
    exact piece_ok x1 x2 x3 x4 x5 0 0 0 0 (by omega) (by omega) (by omega) (by omega) _ _ _ _ (fun nrm a ms => k0_pay17 nrm (k0_pay16 a) ms) hp17 _ (fun p f => hl18 _ _ _ p f) x

end Out

end Cert.KernelIdeal.Hand

end
-- ==== Proof.KernelFinal.lean ====
import proofs.«174715_g2000604396416013_pallasbulk_796_15_alg».proof.Proof.KernelValue
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.ShloMosaic.Pipeline (Dat Cfg Window)
open Idealize.ShloMosaic.Tactic

/-! ## From the blocks to the result array -/

/-- The layer's result as one function of the four arrays the fused call reads. -/
def layer (x : S4096x128.Idx → EReal) (w : S128x512.Idx → EReal) (nrm : S4096x1.Idx → EReal) (adj : S4x4096x4096.Idx → EReal) :
    S4096x512.Idx → EReal :=
  fun i => entry (fun s => adj (ix3 (divOf (i 1)) (i 0) s)) (feat x w nrm) (nrm (ix2 (i 0) 0)) (i 1)

/-- The printed index maps over the sixteen grid points: the three whole-array windows sit at block 0, the adjacency
    slab and the destination norm slab move with the output's row tile, which stays below 16. -/
theorem idx_facts5 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = win0_5.index t (0 : Fin 2) ∧ win0_3.index t (2 : Fin 3) = 0
    ∧ win0_4.index t (0 : Fin 2) = win0_5.index t (0 : Fin 2) ∧ win0_4.index t (1 : Fin 2) = 0
    ∧ win0_5.index t (0 : Fin 2) ≤ 15 ∧ win0_5.index t (1 : Fin 2) = 0 :=
  (by decide +kernel : ∀ t : Fin grid0.N, _)

theorem idx_onto5 : ∀ q0 : Fin 16, ∃ t : Fin cfg0.N, win0_5.index t = ![q0.val, 0] :=
  (by decide +kernel : ∀ q0 : Fin 16, ∃ t : Fin grid0.N, win0_5.index t = ![q0.val, 0])

/-- A block of the layer: if the adjacency slab and the norm slab of a point are rows `i0·256 + p` of their arrays,
    the block function is the layer at those rows. -/
theorem blk_layer (x : S4096x128.Idx → EReal) (w : S128x512.Idx → EReal) (nrm : S4096x1.Idx → EReal) (adj : S4x4096x4096.Idx → EReal)
    (x4 : S4x256x4096.Idx → EReal) (x5 : S256x1.Idx → EReal) (i0 : Nat) (hi0 : i0 * 256 + 256 ≤ 4096)
    (h4 : ∀ (d : Fin 4) (p : Fin 256) (s : Fin 4096), x4 (ix3 d p s) = adj (ix3 d ⟨i0 * 256 + p.val, by have := p.isLt; omega⟩ s))
    (h5 : ∀ p : Fin 256, x5 (ix2 p 0) = nrm (ix2 ⟨i0 * 256 + p.val, by have := p.isLt; omega⟩ 0))
    (p : Fin 256) (q : Fin 512) :
    blkFun x w nrm x4 x5 (ix2 p q) = layer x w nrm adj (ix2 ⟨i0 * 256 + p.val, by have := p.isLt; omega⟩ q) := by
  unfold blkFun layer entry
  simp only [h4, h5]

section Final

variable (h6 : ChunkSpec k0_pay6) (h7 : ChunkSpec k0_pay7) (h9 : ChunkSpec fun x n w => k0_pay9 (k0_pay8 x n w))
  (h10 : ChunkSpec k0_pay10) (h11 : ChunkSpec k0_pay11) (h13 : ChunkSpec fun x n w => k0_pay13 (k0_pay12 x n w))
  (h14 : ChunkSpec k0_pay14) (h15 : ChunkSpec k0_pay15)
  (hp17 : ProdSpec fun nrm a ms => k0_pay17 nrm (k0_pay16 a) ms) (hp20 : ProdSpec k0_pay20) (hp23 : ProdSpec k0_pay23)
  (hp3 : ProdSpec k0_pay3)
  (hl18 : ∀ nrm a ms (p : Fin 256) (f : Fin 64), k0_pay18 (F := Ideal) nrm a ms (ix2 p f) = k0_pay17 nrm a ms (ix2 p ⟨0 * 64 + f.val, by have := f.isLt; omega⟩))
  (hl19 : ∀ nrm a ms (p : Fin 256) (f : Fin 64), k0_pay19 (F := Ideal) nrm a ms (ix2 p f) = k0_pay17 nrm a ms (ix2 p ⟨1 * 64 + f.val, by have := f.isLt; omega⟩))
  (hl21 : ∀ nrm a ms (p : Fin 256) (f : Fin 64), k0_pay21 (F := Ideal) nrm a ms (ix2 p f) = k0_pay20 nrm a ms (ix2 p ⟨0 * 64 + f.val, by have := f.isLt; omega⟩))
  (hl22 : ∀ nrm a ms (p : Fin 256) (f : Fin 64), k0_pay22 (F := Ideal) nrm a ms (ix2 p f) = k0_pay20 nrm a ms (ix2 p ⟨1 * 64 + f.val, by have := f.isLt; omega⟩))
  (hl1 : ∀ (v : FVec Ideal S256x128 .f32) (p : Fin 256) (f : Fin 64), k0_pay1 (F := Ideal) v (ix2 p f) = v (ix2 p ⟨0 * 64 + f.val, by have := f.isLt; omega⟩))
  (hl2 : ∀ (v : FVec Ideal S256x128 .f32) (p : Fin 256) (f : Fin 64), k0_pay2 (F := Ideal) v (ix2 p f) = v (ix2 p ⟨1 * 64 + f.val, by have := f.isLt; omega⟩))
  (hl4 : ∀ nrm a ms (p : Fin 256) (f : Fin 64), k0_pay4 (F := Ideal) nrm a ms (ix2 p f) = k0_pay3 nrm a ms (ix2 p ⟨0 * 64 + f.val, by have := f.isLt; omega⟩))
  (hl5 : ∀ nrm a ms (p : Fin 256) (f : Fin 64), k0_pay5 (F := Ideal) nrm a ms (ix2 p f) = k0_pay3 nrm a ms (ix2 p ⟨1 * 64 + f.val, by have := f.isLt; omega⟩))

variable (m : (ℓ : Loc nD τ sig) → Buf (Elt Ideal) ℓ)

include h6 h7 h9 h10 h11 h13 h14 h15 hp17 hp20 hp23 hp3 hl18 hl19 hl21 hl22 hl1 hl2 hl4 hl5 in
/-- The output block a point leaves is the block function of its five input blocks. -/
theorem out5_eq (c : Dev nD) (t : Fin cfg0.N) (x1 : Vec Ideal S4096x128 .f32) (x2 : Vec Ideal S128x512 .f32) (x3 : Vec Ideal S4096x1 .f32)
    (x4 : Vec Ideal S4x256x4096 .f32) (x5 : Vec Ideal S256x1 .f32) :
    out5 (F := Ideal) c t x1 x2 x3 x4 x5 = blkFun x1 x2 x3 x4 x5 := by
  unfold out5
  rw [View.read_writes_eq_canon _ _ _ (cover5 c _ _ _ _ _ _ _ _ _ _ _ _ _ _ _ x1 x2 x3 x4 x5)]
  funext y
  exact View.canon_apply_of_pieces (blkFun x1 x2 x3 x4 x5) _
    (pieces_ok h6 h7 h9 h10 h11 h13 h14 h15 hp17 hp20 hp23 hp3 hl18 hl19 hl21 hl22 hl1 hl2 hl4 hl5 c _ _ _ _ _ _ _ _ _ _ _ _ _ _ _ x1 x2 x3 x4 x5) y (cover5 c _ _ _ _ _ _ _ _ _ _ _ _ _ _ _ x1 x2 x3 x4 x5 y)

include h6 h7 h9 h10 h11 h13 h14 h15 hp17 hp20 hp23 hp3 hl18 hl19 hl21 hl22 hl1 hl2 hl4 hl5 in
/-- What point `t` writes back is block `t` of `layer` of the arrays as the call finds them. -/
theorem flushed5_eq (c : Dev nD) (t : Fin cfg0.N) :
    (dats (F := Ideal) m 0 c).flushed 5 t
      = ((cfg0.win 5).blk t).view.read (Elt Ideal) (layer (V m c main_arg0) (V m c main_v1) (V m c main_arg3) (V m c main_arg2)) := by
  show (cfg0.win 5).cut (grid0.coords t) ((dats m 0 c).after 5 t) = _
  rw [after_5, out5_eq h6 h7 h9 h10 h11 h13 h14 h15 hp17 hp20 hp23 hp3 hl18 hl19 hl21 hl22 hl1 hl2 hl4 hl5]
  obtain ⟨e00, e01, e10, e11, e20, e21, e30, e31, e32, e40, e41, e50, e51⟩ := idx_facts5 t
  have b0 : (iblk m c 0 t : S4096x128.Idx → EReal) = V m c main_arg0 := funext fun j => congrArg (V m c main_arg0) (by
    funext a; apply Fin.ext
    match a with
    | ⟨0, _⟩ => show win0_0.index t (0 : Fin 2) * 4096 + 1 * (j 0).val = (j 0).val; omega
    | ⟨1, _⟩ => show win0_0.index t (1 : Fin 2) * 128 + 1 * (j 1).val = (j 1).val; omega)
  have b1 : (iblk m c 1 t : S128x512.Idx → EReal) = V m c main_v1 := funext fun j => congrArg (V m c main_v1) (by
    funext a; apply Fin.ext
    match a with
    | ⟨0, _⟩ => show win0_1.index t (0 : Fin 2) * 128 + 1 * (j 0).val = (j 0).val; omega
    | ⟨1, _⟩ => show win0_1.index t (1 : Fin 2) * 512 + 1 * (j 1).val = (j 1).val; omega)
  have b2 : (iblk m c 2 t : S4096x1.Idx → EReal) = V m c main_arg3 := funext fun j => congrArg (V m c main_arg3) (by
    funext a; apply Fin.ext
    match a with
    | ⟨0, _⟩ => show win0_2.index t (0 : Fin 2) * 4096 + 1 * (j 0).val = (j 0).val; omega
    | ⟨1, _⟩ => show win0_2.index t (1 : Fin 2) * 1 + 1 * (j 1).val = (j 1).val; omega)
  funext j
  obtain ⟨p, q, rfl⟩ : ∃ (p : Fin 256) (q : Fin 512), j = ix2 p q := ⟨j 0, j 1, eq_ix2 j⟩
  have hp := p.isLt
  have hq := q.isLt
  show blkFun (iblk m c 0 t) (iblk m c 1 t) (iblk m c 2 t) (iblk m c 3 t) (iblk m c 4 t) (ix2 p q)
    = layer (V m c main_arg0) (V m c main_v1) (V m c main_arg3) (V m c main_arg2) (((cfg0.win 5).blk t).view.emb (ix2 p q))
  have hE : (((cfg0.win 5).blk t).view.emb (ix2 p q) : S4096x512.Idx)
      = ix2 ⟨win0_5.index t (0 : Fin 2) * 256 + p.val, by omega⟩ q := by
    funext a; apply Fin.ext
    match a with
    | ⟨0, _⟩ => show win0_5.index t (0 : Fin 2) * 256 + 1 * p.val = win0_5.index t (0 : Fin 2) * 256 + p.val; omega
    | ⟨1, _⟩ => show win0_5.index t (1 : Fin 2) * 512 + 1 * q.val = q.val; omega
  rw [hE, b0, b1, b2]
  exact blk_layer (V m c main_arg0) (V m c main_v1) (V m c main_arg3) (V m c main_arg2) (iblk m c 3 t) (iblk m c 4 t)
    (win0_5.index t (0 : Fin 2)) (by omega)
    (fun d p s => congrArg (V m c main_arg2) (by
      funext a; apply Fin.ext
      match a with
      | ⟨0, _⟩ => show win0_3.index t (0 : Fin 3) * 4 + 1 * d.val = d.val; omega
      | ⟨1, _⟩ => show win0_3.index t (1 : Fin 3) * 256 + 1 * p.val = win0_5.index t (0 : Fin 2) * 256 + p.val; omega
      | ⟨2, _⟩ => show win0_3.index t (2 : Fin 3) * 4096 + 1 * s.val = s.val; omega))
    (fun p => congrArg (V m c main_arg3) (by
      funext a; apply Fin.ext
      match a with
      | ⟨0, _⟩ => show win0_4.index t (0 : Fin 2) * 256 + 1 * p.val = win0_5.index t (0 : Fin 2) * 256 + p.val; omega
      | ⟨1, _⟩ => show win0_4.index t (1 : Fin 2) * 1 + 1 * 0 = 0; omega))
    p q

/-- An index of the result array is in point `t`'s block iff each coordinate is in the block's range. -/
theorem mem_blk5 (t : Fin cfg0.N) (i : S4096x512.Idx) :
    i ∈ ((cfg0.win 5).blk t).view.set ↔ ∀ a : Fin 2, win0_5.index t a * S256x512.size a ≤ (i a).val ∧ (i a).val < win0_5.index t a * S256x512.size a + S256x512.size a := by
  show i ∈ ((View.whole main_v2).slice (win0_5.rect t)).set ↔ _
  rw [View.set_slice_whole, Rect.mem_set_unit]
  exact Iff.rfl

/-- The sixteen row tiles cover the result array. -/
theorem cover_arr5 (i : S4096x512.Idx) :
    ∃ t : Fin cfg0.N, (cfg0.win 5).flush t = true ∧ i ∈ ((cfg0.win 5).blk t).view.set := by
  have hi0 : (i 0).val < 4096 := (i 0).isLt
  have hi1 : (i 1).val < 512 := (i 1).isLt
  obtain ⟨t, ht⟩ := idx_onto5 ⟨(i 0).val / 256, by omega⟩
  have q0 : win0_5.index t (0 : Fin 2) = (i 0).val / 256 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 512 ≤ (i 1).val ∧ (i 1).val < win0_5.index t (1 : Fin 2) * 512 + 512; omega

include h6 h7 h9 h10 h11 h13 h14 h15 hp17 hp20 hp23 hp3 hl18 hl19 hl21 hl22 hl1 hl2 hl4 hl5 in
/-- The result array after the run is `layer` of the arrays as the call finds them. -/
theorem final5 (c : Dev nD) :
    (dats (F := Ideal) m 0 c).arrAt 5 cfg0.N
      = fun i => layer (V m c main_arg0) (V m c main_v1) (V m c main_arg3) (V m c main_arg2) i :=
  (dats m 0 c).arrAt_eq_of_cover 5 _ (fun t _ => flushed5_eq h6 h7 h9 h10 h11 h13 h14 h15 hp17 hp20 hp23 hp3 hl18 hl19 hl21 hl22 hl1 hl2 hl4 hl5 m c t) cover_arr5

end Final

end Cert.KernelIdeal.Hand

end
-- ==== Proof.KernelPayloads.lean ====
import proofs.«174715_g2000604396416013_pallasbulk_796_15_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.SL.Sem
open Idealize.ShloMosaic.ValueIdx

/-! ## The feature chunk: rows of x scaled by their norm entry, times the weight matrix -/

/-- The common term of the eight scratch stores: the product, into the zero splat, of a 512-row chunk of `x` with every
    row scaled by that row's entry of the norm column, and the weight matrix. -/
def featChunk (x : Vec Ideal S512x128 .f32) (n : Vec Ideal S512x1 .f32) (w : Vec Ideal S128x512 .f32) :
    FVec Ideal S512x512 .f32 :=
  have xs : FVec Ideal S512x128 .f32 := mulf (φ := .f32) x (broadcastTo S512x128 n broadcasts_S512x1_S512x128)
  have ws : FVec Ideal S128x512 .f32 := shapeCast S128x512 w shapeCasts_S128x512_S128x512
  matmul dot_S512x128_S128x512_S512x512_1_0_0_1_n_n none xs ws (constant (F := Ideal) S512x512 .f32 0x00000000#32)

/-- The left operand index of the 512x128 by 128x512 product at output (r, j) and contraction coordinate k is (r, k). -/
theorem featDot_lhsIdx (r j : Fin 512) (k : Fin 128) :
    (dot_S512x128_S128x512_S512x512_1_0_0_1_n_n).lhsIdx (ix2 r j)
      ((contrEquiv1 dot_S512x128_S128x512_S512x512_1_0_0_1_n_n 128 rfl rfl).symm k) = ix2 r k := by
  have ck := contrEquiv1_symm_val dot_S512x128_S128x512_S512x512_1_0_0_1_n_n 128 rfl rfl k
  funext ax; apply Fin.ext
  match ax with
  | ⟨0, _⟩ => simp [DotDims.lhsIdx, dot_S512x128_S128x512_S512x512_1_0_0_1_n_n]; rfl
  | ⟨1, _⟩ => exact (DotDims.lhsIdx_val_of_single _ rfl _ _).trans ck

/-- The right operand index there is (k, j). -/
theorem featDot_rhsIdx (r j : Fin 512) (k : Fin 128) :
    (dot_S512x128_S128x512_S512x512_1_0_0_1_n_n).rhsIdx (ix2 r j)
      ((contrEquiv1 dot_S512x128_S128x512_S512x512_1_0_0_1_n_n 128 rfl rfl).symm k) = ix2 k j := by
  have ck := contrEquiv1_symm_val dot_S512x128_S128x512_S512x512_1_0_0_1_n_n 128 rfl rfl k
  funext ax; apply Fin.ext
  match ax with
  | ⟨0, _⟩ => exact (DotDims.rhsIdx_val_of_single _ rfl _ _).trans ck
  | ⟨1, _⟩ => simp [DotDims.rhsIdx, dot_S512x128_S128x512_S512x512_1_0_0_1_n_n]; rfl

/-- The feature chunk at row `r`, column `j`: the sum over the 128 input features of (x entry × the row's norm) × weight
    entry. The broadcast of the norm column reads the row's one entry, the shape cast to the same shape is the identity,
    and the product into the zero splat is the plain sum over the contraction index, re-indexed by its one coordinate. -/
theorem featChunk_apply (x : Vec Ideal S512x128 .f32) (n : Vec Ideal S512x1 .f32) (w : Vec Ideal S128x512 .f32)
    (r : Fin 512) (j : Fin 512) :
    featChunk x n w (ix2 r j) = ∑ k : Fin 128, (x (ix2 r k) * n (ix2 r 0)) * w (ix2 k j) := by
  unfold featChunk
  show FloatOps.matmul dot_S512x128_S128x512_S512x512_1_0_0_1_n_n none
      (mulf x (broadcastTo S512x128 n broadcasts_S512x1_S512x128))
      (shapeCast S128x512 w shapeCasts_S128x512_S128x512) (constant (F := Ideal) S512x512 .f32 0x00000000#32) (ix2 r j) = _
  rw [Ideal.matmul_constant_zero_apply, shapeCast_self,
    ← Equiv.sum_comp (contrEquiv1 dot_S512x128_S128x512_S512x512_1_0_0_1_n_n 128 rfl rfl).symm]
  refine Finset.sum_congr rfl fun k _ => ?_
  rw [featDot_lhsIdx, featDot_rhsIdx, mulf_apply]
  rw [broadcastTo_apply n broadcasts_S512x1_S512x128 (ix2 r k) (ix2 r 0) (fun a => by
    match a with
    | ⟨0, _⟩ => rfl
    | ⟨1, _⟩ => rfl)]

/-! ## The eight scratch stores are feature chunks -/

/-- A shape cast to the same shape and a narrowing of the float format change nothing at the ideal values: a store's
    payload that is such a cast of the narrowed feature chunk reads as the feature chunk. -/
theorem truncCast_featChunk_apply (x : Vec Ideal S512x128 .f32) (n : Vec Ideal S512x1 .f32) (w : Vec Ideal S128x512 .f32)
    (r : Fin 512) (j : Fin 512) :
    shapeCast S512x512 (truncf .bf16 (featChunk x n w) bitsLt_bf16_f32) shapeCasts_S512x512_S512x512 (ix2 r j)
      = ∑ k : Fin 128, (x (ix2 r k) * n (ix2 r 0)) * w (ix2 k j) := by
  rw [shapeCast_self, truncf_apply]
  exact featChunk_apply x n w r j

/-- The store of payload 6 at row `r`, column `j`: the feature chunk's sum. -/
theorem k0_pay6_apply (x : Vec Ideal S512x128 .f32) (n : Vec Ideal S512x1 .f32) (w : Vec Ideal S128x512 .f32)
    (r : Fin 512) (j : Fin 512) :
    k0_pay6 x n w (ix2 r j) = ∑ k : Fin 128, (x (ix2 r k) * n (ix2 r 0)) * w (ix2 k j) :=
  truncCast_featChunk_apply x n w r j

/-- The store of payload 7 at row `r`, column `j`: the feature chunk's sum. -/
theorem k0_pay7_apply (x : Vec Ideal S512x128 .f32) (n : Vec Ideal S512x1 .f32) (w : Vec Ideal S128x512 .f32)
    (r : Fin 512) (j : Fin 512) :
    k0_pay7 x n w (ix2 r j) = ∑ k : Fin 128, (x (ix2 r k) * n (ix2 r 0)) * w (ix2 k j) :=
  truncCast_featChunk_apply x n w r j

/-- The store of payload 10 at row `r`, column `j`: the feature chunk's sum. -/
theorem k0_pay10_apply (x : Vec Ideal S512x128 .f32) (n : Vec Ideal S512x1 .f32) (w : Vec Ideal S128x512 .f32)
    (r : Fin 512) (j : Fin 512) :
    k0_pay10 x n w (ix2 r j) = ∑ k : Fin 128, (x (ix2 r k) * n (ix2 r 0)) * w (ix2 k j) :=
  truncCast_featChunk_apply x n w r j

/-- The store of payload 11 at row `r`, column `j`: the feature chunk's sum. -/
theorem k0_pay11_apply (x : Vec Ideal S512x128 .f32) (n : Vec Ideal S512x1 .f32) (w : Vec Ideal S128x512 .f32)
    (r : Fin 512) (j : Fin 512) :
    k0_pay11 x n w (ix2 r j) = ∑ k : Fin 128, (x (ix2 r k) * n (ix2 r 0)) * w (ix2 k j) :=
  truncCast_featChunk_apply x n w r j

/-- The store of payload 14 at row `r`, column `j`: the feature chunk's sum. -/
theorem k0_pay14_apply (x : Vec Ideal S512x128 .f32) (n : Vec Ideal S512x1 .f32) (w : Vec Ideal S128x512 .f32)
    (r : Fin 512) (j : Fin 512) :
    k0_pay14 x n w (ix2 r j) = ∑ k : Fin 128, (x (ix2 r k) * n (ix2 r 0)) * w (ix2 k j) :=
  truncCast_featChunk_apply x n w r j

/-- The store of payload 15 at row `r`, column `j`: the feature chunk's sum. -/
theorem k0_pay15_apply (x : Vec Ideal S512x128 .f32) (n : Vec Ideal S512x1 .f32) (w : Vec Ideal S128x512 .f32)
    (r : Fin 512) (j : Fin 512) :
    k0_pay15 x n w (ix2 r j) = ∑ k : Fin 128, (x (ix2 r k) * n (ix2 r 0)) * w (ix2 k j) :=
  truncCast_featChunk_apply x n w r j

/-- The value carried out of the first part is the narrowed feature chunk … -/
theorem k0_pay8_eq (x : Vec Ideal S512x128 .f32) (n : Vec Ideal S512x1 .f32) (w : Vec Ideal S128x512 .f32) :
    k0_pay8 x n w = truncf .bf16 (featChunk x n w) bitsLt_bf16_f32 := rfl

/-- … and its store casts it to its own shape: at row `r`, column `j` the feature chunk's sum. -/
theorem k0_pay9_apply (x : Vec Ideal S512x128 .f32) (n : Vec Ideal S512x1 .f32) (w : Vec Ideal S128x512 .f32)
    (r : Fin 512) (j : Fin 512) :
    k0_pay9 (k0_pay8 x n w) (ix2 r j) = ∑ k : Fin 128, (x (ix2 r k) * n (ix2 r 0)) * w (ix2 k j) :=
  truncCast_featChunk_apply x n w r j

/-- The value carried out of the second part is the feature chunk itself … -/
theorem k0_pay12_eq (x : Vec Ideal S512x128 .f32) (n : Vec Ideal S512x1 .f32) (w : Vec Ideal S128x512 .f32) :
    k0_pay12 x n w = featChunk x n w := rfl

/-- … and its store narrows and casts it: at row `r`, column `j` the feature chunk's sum. -/
theorem k0_pay13_apply (x : Vec Ideal S512x128 .f32) (n : Vec Ideal S512x1 .f32) (w : Vec Ideal S128x512 .f32)
    (r : Fin 512) (j : Fin 512) :
    k0_pay13 (k0_pay12 x n w) (ix2 r j) = ∑ k : Fin 128, (x (ix2 r k) * n (ix2 r 0)) * w (ix2 k j) :=
  truncCast_featChunk_apply x n w r j

/-! ## A division's block: adjacency slab times a column slab of the features, scaled by the row norm, clipped at zero -/

/-- The common term of the four per-division products: the product, into the zero splat, of the 256x4096 adjacency slab
    and a 4096x128 column slab of the features, every row scaled by that row's entry of the norm column, and the
    maximum with the zero splat. -/
def divBlock (nrm : Vec Ideal S256x1 .f32) (a : FVec Ideal S256x4096 .bf16) (ms : Vec Ideal S4096x128 .bf16) :
    FVec Ideal S256x128 .f32 :=
  have pr : FVec Ideal S256x128 .f32 :=
    matmul (φ₁ := .bf16) (φ₂ := .bf16) dot_S256x4096_S4096x128_S256x128_1_0_0_1_n_n none a ms (constant (F := Ideal) S256x128 .f32 0x00000000#32)
  have sc : FVec Ideal S256x128 .f32 := mulf pr (broadcastTo S256x128 nrm broadcasts_S256x1_S256x128)
  maximumf sc (broadcast S256x128 (Scalar.ofBits (F := Ideal) .f32 0x00000000#32))

/-- The left operand index of the 256x4096 by 4096x128 product at output (p, j) and contraction coordinate s is (p, s). -/
theorem divDot_lhsIdx (p : Fin 256) (j : Fin 128) (s : Fin 4096) :
    (dot_S256x4096_S4096x128_S256x128_1_0_0_1_n_n).lhsIdx (ix2 p j) ((contrEquiv1 dot_S256x4096_S4096x128_S256x128_1_0_0_1_n_n 4096 rfl rfl).symm s) = ix2 p s := by
  have cs := contrEquiv1_symm_val dot_S256x4096_S4096x128_S256x128_1_0_0_1_n_n 4096 rfl rfl s
  funext ax; apply Fin.ext
  match ax with
  | ⟨0, _⟩ => simp [DotDims.lhsIdx, dot_S256x4096_S4096x128_S256x128_1_0_0_1_n_n]; rfl
  | ⟨1, _⟩ => exact (DotDims.lhsIdx_val_of_single _ rfl _ _).trans cs

/-- The right operand index there is (s, j). -/
theorem divDot_rhsIdx (p : Fin 256) (j : Fin 128) (s : Fin 4096) :
    (dot_S256x4096_S4096x128_S256x128_1_0_0_1_n_n).rhsIdx (ix2 p j) ((contrEquiv1 dot_S256x4096_S4096x128_S256x128_1_0_0_1_n_n 4096 rfl rfl).symm s) = ix2 s j := by
  have cs := contrEquiv1_symm_val dot_S256x4096_S4096x128_S256x128_1_0_0_1_n_n 4096 rfl rfl s
  funext ax; apply Fin.ext
  match ax with
  | ⟨0, _⟩ => exact (DotDims.rhsIdx_val_of_single _ rfl _ _).trans cs
  | ⟨1, _⟩ => simp [DotDims.rhsIdx, dot_S256x4096_S4096x128_S256x128_1_0_0_1_n_n]; rfl

/-- A division's block at row `p`, column `j`: the sum over the 4096 source nodes of adjacency entry × feature entry,
    times the row's norm, and the maximum of that with zero. -/
theorem divBlock_apply (nrm : Vec Ideal S256x1 .f32) (a : FVec Ideal S256x4096 .bf16) (ms : Vec Ideal S4096x128 .bf16)
    (p : Fin 256) (j : Fin 128) :
    divBlock nrm a ms (ix2 p j) = max ((∑ s : Fin 4096, a (ix2 p s) * ms (ix2 s j)) * nrm (ix2 p 0)) 0 := by
  unfold divBlock
  show max (FloatOps.matmul dot_S256x4096_S4096x128_S256x128_1_0_0_1_n_n none a ms (constant (F := Ideal) S256x128 .f32 0x00000000#32) (ix2 p j)
      * broadcastTo S256x128 nrm broadcasts_S256x1_S256x128 (ix2 p j)) (Ideal.ofBits .f32 0x00000000#32) = _
  rw [Ideal.matmul_constant_zero_apply,
    ← Equiv.sum_comp (contrEquiv1 dot_S256x4096_S4096x128_S256x128_1_0_0_1_n_n 4096 rfl rfl).symm,
    broadcastTo_apply nrm broadcasts_S256x1_S256x128 (ix2 p j) (ix2 p 0) (fun ax => by
      match ax with
      | ⟨0, _⟩ => rfl
      | ⟨1, _⟩ => rfl),
    Ideal.ofBits_zero_f32]
  refine congrArg (fun t => max (t * nrm (ix2 p 0)) 0) (Finset.sum_congr rfl fun s _ => ?_)
  rw [divDot_lhsIdx, divDot_rhsIdx]

/-- The adjacency slab as the body uses it: the [1, 256, 4096] load seen as [256, 4096] and narrowed, which at the ideal
    values reads the loaded slab at (0, p, s). -/
theorem k0_pay16_apply (a3 : Vec Ideal S1x256x4096 .f32) (p : Fin 256) (s : Fin 4096) :
    k0_pay16 a3 (ix2 p s) = a3 (ix3 (0 : Fin 1) p s) := by
  unfold k0_pay16
  rw [truncf_apply]
  exact shapeCast_1ab_ab_apply a3 shapeCasts_S1x256x4096_S256x4096 p s

/-- Payload 17 is the division block of its (already cast) slab … -/
theorem k0_pay17_eq (nrm : Vec Ideal S256x1 .f32) (a : FVec Ideal S256x4096 .bf16) (ms : Vec Ideal S4096x128 .bf16) :
    k0_pay17 nrm a ms = divBlock nrm a ms := rfl

/-- … payloads 20, 23 and 3 are the division blocks of the cast of their loaded slab. -/
theorem k0_pay20_eq (nrm : Vec Ideal S256x1 .f32) (a3 : Vec Ideal S1x256x4096 .f32) (ms : Vec Ideal S4096x128 .bf16) :
    k0_pay20 nrm a3 ms = divBlock nrm (k0_pay16 a3) ms := rfl
theorem k0_pay23_eq (nrm : Vec Ideal S256x1 .f32) (a3 : Vec Ideal S1x256x4096 .f32) (ms : Vec Ideal S4096x128 .bf16) :
    k0_pay23 nrm a3 ms = divBlock nrm (k0_pay16 a3) ms := rfl
theorem k0_pay3_eq (nrm : Vec Ideal S256x1 .f32) (a3 : Vec Ideal S1x256x4096 .f32) (ms : Vec Ideal S4096x128 .bf16) :
    k0_pay3 nrm a3 ms = divBlock nrm (k0_pay16 a3) ms := rfl

/-- The division block of a loaded [1, 256, 4096] slab at row `p`, column `j`. -/
theorem divBlock_pay16_apply (nrm : Vec Ideal S256x1 .f32) (a3 : Vec Ideal S1x256x4096 .f32) (ms : Vec Ideal S4096x128 .bf16)
    (p : Fin 256) (j : Fin 128) :
    divBlock nrm (k0_pay16 a3) ms (ix2 p j) = max ((∑ s : Fin 4096, a3 (ix3 (0 : Fin 1) p s) * ms (ix2 s j)) * nrm (ix2 p 0)) 0 := by
  rw [divBlock_apply]
  refine congrArg (fun t => max (t * nrm (ix2 p 0)) 0) (Finset.sum_congr rfl fun s _ => ?_)
  rw [k0_pay16_apply]

/-- Payload 17 at row `p`, column `j`, over any already cast slab … -/
theorem k0_pay17_apply (nrm : Vec Ideal S256x1 .f32) (a : FVec Ideal S256x4096 .bf16) (ms : Vec Ideal S4096x128 .bf16)
    (p : Fin 256) (j : Fin 128) :
    k0_pay17 nrm a ms (ix2 p j) = max ((∑ s : Fin 4096, a (ix2 p s) * ms (ix2 s j)) * nrm (ix2 p 0)) 0 :=
  divBlock_apply nrm a ms p j

/-- … and over the cast of the loaded slab, as the body calls it. -/
theorem k0_pay17_pay16_apply (nrm : Vec Ideal S256x1 .f32) (a3 : Vec Ideal S1x256x4096 .f32) (ms : Vec Ideal S4096x128 .bf16)
    (p : Fin 256) (j : Fin 128) :
    k0_pay17 nrm (k0_pay16 a3) ms (ix2 p j) = max ((∑ s : Fin 4096, a3 (ix3 (0 : Fin 1) p s) * ms (ix2 s j)) * nrm (ix2 p 0)) 0 :=
  divBlock_pay16_apply nrm a3 ms p j

/-- Payload 20 at row `p`, column `j`. -/
theorem k0_pay20_apply (nrm : Vec Ideal S256x1 .f32) (a3 : Vec Ideal S1x256x4096 .f32) (ms : Vec Ideal S4096x128 .bf16)
    (p : Fin 256) (j : Fin 128) :
    k0_pay20 nrm a3 ms (ix2 p j) = max ((∑ s : Fin 4096, a3 (ix3 (0 : Fin 1) p s) * ms (ix2 s j)) * nrm (ix2 p 0)) 0 :=
  divBlock_pay16_apply nrm a3 ms p j

/-- Payload 23 at row `p`, column `j`. -/
theorem k0_pay23_apply (nrm : Vec Ideal S256x1 .f32) (a3 : Vec Ideal S1x256x4096 .f32) (ms : Vec Ideal S4096x128 .bf16)
    (p : Fin 256) (j : Fin 128) :
    k0_pay23 nrm a3 ms (ix2 p j) = max ((∑ s : Fin 4096, a3 (ix3 (0 : Fin 1) p s) * ms (ix2 s j)) * nrm (ix2 p 0)) 0 :=
  divBlock_pay16_apply nrm a3 ms p j

/-- Payload 3 at row `p`, column `j`. -/
theorem k0_pay3_apply (nrm : Vec Ideal S256x1 .f32) (a3 : Vec Ideal S1x256x4096 .f32) (ms : Vec Ideal S4096x128 .bf16)
    (p : Fin 256) (j : Fin 128) :
    k0_pay3 nrm a3 ms (ix2 p j) = max ((∑ s : Fin 4096, a3 (ix3 (0 : Fin 1) p s) * ms (ix2 s j)) * nrm (ix2 p 0)) 0 :=
  divBlock_pay16_apply nrm a3 ms p j

/-! ## The two 64-column halves of a 128-column block -/

/-- Column `f` of the low half is column `f` of the 128-column block … -/
abbrev halfLo (f : Fin 64) : Fin 128 := ⟨f.val, Nat.lt_of_lt_of_le f.isLt (by decide)⟩
/-- … and column `f` of the high half is column `64 + f`. -/
abbrev halfHi (f : Fin 64) : Fin 128 := ⟨64 + f.val, Nat.lt_of_lt_of_le (Nat.add_lt_add_left f.isLt 64) (by decide)⟩

theorem halfLo_val (f : Fin 64) : (halfLo f).val = f.val := rfl
theorem halfHi_val (f : Fin 64) : (halfHi f).val = 64 + f.val := rfl

/-- The slice at column offset 0 of a 256x128 block, read at row `p`, column `f`: the block at (p, f). -/
theorem sliceLo_apply (v : FVec Ideal S256x128 .f32) (p : Fin 256) (f : Fin 64) :
    extractStridedSlice S256x64 ![0, 0] v slices_S256x128_o0_0_S256x64 (ix2 p f) = v (ix2 p (halfLo f)) :=
  slice2_axis1_apply 0 v slices_S256x128_o0_0_S256x64 p f (halfLo f) (Nat.zero_add _).symm

/-- The slice at column offset 64, read at row `p`, column `f`: the block at (p, 64 + f). -/
theorem sliceHi_apply (v : FVec Ideal S256x128 .f32) (p : Fin 256) (f : Fin 64) :
    extractStridedSlice S256x64 ![0, 64] v slices_S256x128_o0_64_S256x64 (ix2 p f) = v (ix2 p (halfHi f)) :=
  slice2_axis1_apply 64 v slices_S256x128_o0_64_S256x64 p f (halfHi f) rfl

/-- Payloads 1 and 2 are the two halves of the block they are given. -/
theorem k0_pay1_apply (v : FVec Ideal S256x128 .f32) (p : Fin 256) (f : Fin 64) :
    k0_pay1 v (ix2 p f) = v (ix2 p (halfLo f)) := sliceLo_apply v p f
theorem k0_pay2_apply (v : FVec Ideal S256x128 .f32) (p : Fin 256) (f : Fin 64) :
    k0_pay2 v (ix2 p f) = v (ix2 p (halfHi f)) := sliceHi_apply v p f

/-- Payloads 18 and 19 are the two halves of payload 17's block, over any already cast slab … -/
theorem k0_pay18_eq_apply (nrm : Vec Ideal S256x1 .f32) (a : FVec Ideal S256x4096 .bf16) (ms : Vec Ideal S4096x128 .bf16)
    (p : Fin 256) (f : Fin 64) :
    k0_pay18 nrm a ms (ix2 p f) = k0_pay17 nrm a ms (ix2 p (halfLo f)) := sliceLo_apply (k0_pay17 nrm a ms) p f
theorem k0_pay19_eq_apply (nrm : Vec Ideal S256x1 .f32) (a : FVec Ideal S256x4096 .bf16) (ms : Vec Ideal S4096x128 .bf16)
    (p : Fin 256) (f : Fin 64) :
    k0_pay19 nrm a ms (ix2 p f) = k0_pay17 nrm a ms (ix2 p (halfHi f)) := sliceHi_apply (k0_pay17 nrm a ms) p f

/-- … payloads 21 and 22 of payload 20's, and payloads 4 and 5 of payload 3's. -/
theorem k0_pay21_eq_apply (nrm : Vec Ideal S256x1 .f32) (a3 : Vec Ideal S1x256x4096 .f32) (ms : Vec Ideal S4096x128 .bf16)
    (p : Fin 256) (f : Fin 64) :
    k0_pay21 nrm a3 ms (ix2 p f) = k0_pay20 nrm a3 ms (ix2 p (halfLo f)) := sliceLo_apply (k0_pay20 nrm a3 ms) p f
theorem k0_pay22_eq_apply (nrm : Vec Ideal S256x1 .f32) (a3 : Vec Ideal S1x256x4096 .f32) (ms : Vec Ideal S4096x128 .bf16)
    (p : Fin 256) (f : Fin 64) :
    k0_pay22 nrm a3 ms (ix2 p f) = k0_pay20 nrm a3 ms (ix2 p (halfHi f)) := sliceHi_apply (k0_pay20 nrm a3 ms) p f
theorem k0_pay4_eq_apply (nrm : Vec Ideal S256x1 .f32) (a3 : Vec Ideal S1x256x4096 .f32) (ms : Vec Ideal S4096x128 .bf16)
    (p : Fin 256) (f : Fin 64) :
    k0_pay4 nrm a3 ms (ix2 p f) = k0_pay3 nrm a3 ms (ix2 p (halfLo f)) := sliceLo_apply (k0_pay3 nrm a3 ms) p f
theorem k0_pay5_eq_apply (nrm : Vec Ideal S256x1 .f32) (a3 : Vec Ideal S1x256x4096 .f32) (ms : Vec Ideal S4096x128 .bf16)
    (p : Fin 256) (f : Fin 64) :
    k0_pay5 nrm a3 ms (ix2 p f) = k0_pay3 nrm a3 ms (ix2 p (halfHi f)) := sliceHi_apply (k0_pay3 nrm a3 ms) p f

/-! ### The eight stored halves in closed form: division `d`'s block at column `f` or `64 + f` -/

/-- The stored half of payload 18 at row `p`, column `f`. -/
theorem k0_pay18_closed (nrm : Vec Ideal S256x1 .f32) (a3 : Vec Ideal S1x256x4096 .f32) (ms : Vec Ideal S4096x128 .bf16)
    (p : Fin 256) (f : Fin 64) :
    k0_pay18 nrm (k0_pay16 a3) ms (ix2 p f) = max ((∑ s : Fin 4096, a3 (ix3 (0 : Fin 1) p s) * ms (ix2 s (halfLo f))) * nrm (ix2 p 0)) 0 :=
  (k0_pay18_eq_apply _ _ _ p f).trans (k0_pay17_pay16_apply nrm a3 ms p (halfLo f))

/-- The stored half of payload 19 at row `p`, column `f`. -/
theorem k0_pay19_closed (nrm : Vec Ideal S256x1 .f32) (a3 : Vec Ideal S1x256x4096 .f32) (ms : Vec Ideal S4096x128 .bf16)
    (p : Fin 256) (f : Fin 64) :
    k0_pay19 nrm (k0_pay16 a3) ms (ix2 p f) = max ((∑ s : Fin 4096, a3 (ix3 (0 : Fin 1) p s) * ms (ix2 s (halfHi f))) * nrm (ix2 p 0)) 0 :=
  (k0_pay19_eq_apply _ _ _ p f).trans (k0_pay17_pay16_apply nrm a3 ms p (halfHi f))

/-- The stored half of payload 21 at row `p`, column `f`. -/
theorem k0_pay21_closed (nrm : Vec Ideal S256x1 .f32) (a3 : Vec Ideal S1x256x4096 .f32) (ms : Vec Ideal S4096x128 .bf16)
    (p : Fin 256) (f : Fin 64) :
    k0_pay21 nrm a3 ms (ix2 p f) = max ((∑ s : Fin 4096, a3 (ix3 (0 : Fin 1) p s) * ms (ix2 s (halfLo f))) * nrm (ix2 p 0)) 0 :=
  (k0_pay21_eq_apply _ _ _ p f).trans (k0_pay20_apply nrm a3 ms p (halfLo f))

/-- The stored half of payload 22 at row `p`, column `f`. -/
theorem k0_pay22_closed (nrm : Vec Ideal S256x1 .f32) (a3 : Vec Ideal S1x256x4096 .f32) (ms : Vec Ideal S4096x128 .bf16)
    (p : Fin 256) (f : Fin 64) :
    k0_pay22 nrm a3 ms (ix2 p f) = max ((∑ s : Fin 4096, a3 (ix3 (0 : Fin 1) p s) * ms (ix2 s (halfHi f))) * nrm (ix2 p 0)) 0 :=
  (k0_pay22_eq_apply _ _ _ p f).trans (k0_pay20_apply nrm a3 ms p (halfHi f))

/-- The stored half of payload 1 at row `p`, column `f`. -/
theorem k0_pay1_closed (nrm : Vec Ideal S256x1 .f32) (a3 : Vec Ideal S1x256x4096 .f32) (ms : Vec Ideal S4096x128 .bf16)
    (p : Fin 256) (f : Fin 64) :
    k0_pay1 (k0_pay23 nrm a3 ms) (ix2 p f) = max ((∑ s : Fin 4096, a3 (ix3 (0 : Fin 1) p s) * ms (ix2 s (halfLo f))) * nrm (ix2 p 0)) 0 :=
  (k0_pay1_apply _ p f).trans (k0_pay23_apply nrm a3 ms p (halfLo f))

/-- The stored half of payload 2 at row `p`, column `f`. -/
theorem k0_pay2_closed (nrm : Vec Ideal S256x1 .f32) (a3 : Vec Ideal S1x256x4096 .f32) (ms : Vec Ideal S4096x128 .bf16)
    (p : Fin 256) (f : Fin 64) :
    k0_pay2 (k0_pay23 nrm a3 ms) (ix2 p f) = max ((∑ s : Fin 4096, a3 (ix3 (0 : Fin 1) p s) * ms (ix2 s (halfHi f))) * nrm (ix2 p 0)) 0 :=
  (k0_pay2_apply _ p f).trans (k0_pay23_apply nrm a3 ms p (halfHi f))

/-- The stored half of payload 4 at row `p`, column `f`. -/
theorem k0_pay4_closed (nrm : Vec Ideal S256x1 .f32) (a3 : Vec Ideal S1x256x4096 .f32) (ms : Vec Ideal S4096x128 .bf16)
    (p : Fin 256) (f : Fin 64) :
    k0_pay4 nrm a3 ms (ix2 p f) = max ((∑ s : Fin 4096, a3 (ix3 (0 : Fin 1) p s) * ms (ix2 s (halfLo f))) * nrm (ix2 p 0)) 0 :=
  (k0_pay4_eq_apply _ _ _ p f).trans (k0_pay3_apply nrm a3 ms p (halfLo f))

/-- The stored half of payload 5 at row `p`, column `f`. -/
theorem k0_pay5_closed (nrm : Vec Ideal S256x1 .f32) (a3 : Vec Ideal S1x256x4096 .f32) (ms : Vec Ideal S4096x128 .bf16)
    (p : Fin 256) (f : Fin 64) :
    k0_pay5 nrm a3 ms (ix2 p f) = max ((∑ s : Fin 4096, a3 (ix3 (0 : Fin 1) p s) * ms (ix2 s (halfHi f))) * nrm (ix2 p 0)) 0 :=
  (k0_pay5_eq_apply _ _ _ p f).trans (k0_pay3_apply nrm a3 ms p (halfHi f))

end Cert.KernelIdeal.Hand

end
-- ==== Proof.KernelClosed.lean ====
import proofs.«174715_g2000604396416013_pallasbulk_796_15_alg».proof.Proof.KernelFinal
import proofs.«174715_g2000604396416013_pallasbulk_796_15_alg».proof.Proof.KernelPayloads
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.ShloMosaic.Pipeline (Dat Cfg Window)
open Idealize.ShloMosaic.Tactic

/-! ## The fused call's result, closed

The payload lemmas discharge the hypotheses under which the run's stores were read: the result array after
the run is `layer` of the arguments, with the weights in their flattened `[Fin, D·H·Fout]` layout. -/

variable (m : (ℓ : Loc nD τ sig) → Buf (Elt Ideal) ℓ) (ρ : Dev nD → PrngReg)

theorem final5_closed (c : Dev nD) :
    (dats (F := Ideal) m 0 c).arrAt 5 cfg0.N
      = fun i => layer (V m c main_arg0) (V m c main_v1) (V m c main_arg3) (V m c main_arg2) i :=
  final5 k0_pay6_apply k0_pay7_apply k0_pay9_apply k0_pay10_apply k0_pay11_apply k0_pay13_apply k0_pay14_apply k0_pay15_apply
    k0_pay17_pay16_apply k0_pay20_apply k0_pay23_apply k0_pay3_apply
    (fun nrm a ms p f => (k0_pay18_eq_apply nrm a ms p f).trans (congrArg (k0_pay17 nrm a ms) (ix2_congr rfl (by show f.val = 0 * 64 + f.val; omega))))
    (fun nrm a ms p f => (k0_pay19_eq_apply nrm a ms p f).trans (congrArg (k0_pay17 nrm a ms) (ix2_congr rfl (by show 64 + f.val = 1 * 64 + f.val; omega))))
    (fun nrm a ms p f => (k0_pay21_eq_apply nrm a ms p f).trans (congrArg (k0_pay20 nrm a ms) (ix2_congr rfl (by show f.val = 0 * 64 + f.val; omega))))
    (fun nrm a ms p f => (k0_pay22_eq_apply nrm a ms p f).trans (congrArg (k0_pay20 nrm a ms) (ix2_congr rfl (by show 64 + f.val = 1 * 64 + f.val; omega))))
    (fun v p f => (k0_pay1_apply v p f).trans (congrArg v (ix2_congr rfl (by show f.val = 0 * 64 + f.val; omega))))
    (fun v p f => (k0_pay2_apply v p f).trans (congrArg v (ix2_congr rfl (by show 64 + f.val = 1 * 64 + f.val; omega))))
    (fun nrm a ms p f => (k0_pay4_eq_apply nrm a ms p f).trans (congrArg (k0_pay3 nrm a ms) (ix2_congr rfl (by show f.val = 0 * 64 + f.val; omega))))
    (fun nrm a ms p f => (k0_pay5_eq_apply nrm a ms p f).trans (congrArg (k0_pay3 nrm a ms) (ix2_congr rfl (by show 64 + f.val = 1 * 64 + f.val; omega))))
    m c

/-- The run at the exact reals with the result named: the layer of the launch arrays. -/
theorem value_run : θ_run defs (onTc (τ := τ) (main (F := Ideal))) ⟨m, fun _ => 0, ρ⟩ (fun r => ∀ c : Dev nD,
      r.2.mem ((c.tc : Thread nD τ).loc main_v2)
        = (fun i => layer (m ((c.tc : Thread nD τ).loc main_arg0)) (V m c main_v1) (m ((c.tc : Thread nD τ).loc main_arg3))
            (m ((c.tc : Thread nD τ).loc main_arg2)) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans ((final5_closed m c).trans (by
      rw [V_main_arg0 m c, V_main_arg3 m c, V_main_arg2 m c])), (h c).2⟩) (run_main m ρ)

end Cert.KernelIdeal.Hand

end
-- ==== Proof.KernelEntry.lean ====
import proofs.«174715_g2000604396416013_pallasbulk_796_15_alg».proof.Proof.KernelData
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.StableHlo

/-! ## The weight matrix as the fused call finds it -/

/-- When the fused call is entered, the flattened weight matrix holds the launch contents of the weight argument with
    its axes permuted to [input feature, head, division, output feature] and then flattened to
    [input feature, head · division · output feature]: the two host operations before the call, composed. -/
theorem V_main_v1 (m : (ℓ : Loc nD τ sig) → Buf (Elt Ideal) ℓ) (c : Dev nD) :
    (V (F := Ideal) m c main_v1 : S128x512.Idx → EReal)
      = shapeCast S128x512
          (transpose S128x4x2x64 [2, 1, 0, 3] (m ((c : Thread nD τ).loc main_arg1) : S2x4x128x64.Idx → EReal)
            transposes_S2x4x128x64_S128x4x2x64_2_1_0_3)
          shapeCasts_S128x4x2x64_S128x512 := by
  dsimp only [V, hostOps0]
  after_results
  rfl

end Cert.KernelIdeal.Hand

end
-- ==== Proof.RefTransform.lean ====
/- The transform kernel of the reference program (region 0 of its @main), at an arbitrary valuation `V` of the
   TensorCore's buffers when the region is entered: the block each window's staging buffer holds when the body is
   entered at a grid point, what the body leaves in the output window's buffer (the one product it stores, over
   the three input blocks), the body's triple, the proof data of the pipeline and the library's body obligation. -/
import proofs.«174715_g2000604396416013_pallasbulk_796_15_alg».proof.Proof.Gen.ReferenceIdeal.Launch
import proofs.«174715_g2000604396416013_pallasbulk_796_15_alg».proof.Proof.Gen.ReferenceIdeal.Skeleton
import proofs.«174715_g2000604396416013_pallasbulk_796_15_alg».proof.Proof.Gen.ReferenceIdeal.Points
import Idealize.ShloMosaic.Lib.Pipeline.FrameBody
import Idealize.ShloMosaic.Lib.Ring
import Idealize.ShloMosaic.Lib.Tactic

-- membership in a rectangle of extent 512: the structural check recurses once per coordinate of the long axes
set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of the left operand (window 0) is in its staging buffer at every point, for any proof data whose
    array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right operand (window 1), whose block index never moves, is fetched at the first point only and is still
    in its staging buffer at every later one. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The row tile of the scaling column (window 2) is in its staging buffer at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole of their buffer -/

abbrev r0_0 : Rect S512x128 := Rect.unit (s := S512x128) ![0, 0] S512x128.size inb_S512x128_S512x128_0_0
abbrev r0_1 : Rect S128x512 := Rect.unit (s := S128x512) ![0, 0] S128x512.size inb_S128x512_S128x512_0_0
abbrev r0_2 : Rect S512x1 := Rect.unit (s := S512x1) ![0, 0] S512x1.size inb_S512x1_S512x1_0_0
abbrev r0_3 : Rect S512x512 := Rect.unit (s := S512x512) ![0, 0] S512x512.size inb_S512x512_S512x512_0_0

/-! ## What the body leaves in the output window's buffer -/

/-- Window 3's staging buffer after the body, from the three input blocks (`x0` the left operand's row tile, `x1`
    the right operand, `x2` the scaling column's row tile): its one store, of the product of the row-scaled tile
    with the right operand. -/
def out0_3 (x0 : Vec F S512x128 .f32) (x1 : Vec F S128x512 .f32) (x2 : Vec F S512x1 .f32) : Vec F S512x512 .f32 :=
  View.canon [⟨r0_3, k0_pay1 (View.ld x0 r0_0) (View.ld x2 r0_2) (View.ld x1 r0_1)⟩]

/-- The one store takes the whole buffer, so it covers it. -/
theorem cover0_3 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

/-! ## The body's triple -/

set_option maxHeartbeats 1000000 in
/-- The kernel body on whole staging memrefs, the inputs' at read contents `x0`, `x1`, `x2` and the output's at
    anything, runs to the continuation holding the inputs' as they were and the output's at `out0_3` of them. The
    body also loads the output buffer before it stores: that load reads the unknown prior contents, which no later
    operation uses. -/
theorem sound_kernel0 (c : Dev nD) (E : Set ℕ) (i : grid0.Coords)
    (arg1 : Memref sig .tc .vmem S512x128 .f32) (harg1 : arg1.IsWhole) (arg2 : Memref sig .tc .vmem S128x512 .f32) (harg2 : arg2.IsWhole)
    (arg3 : Memref sig .tc .vmem S512x1 .f32) (harg3 : arg3.IsWhole) (arg4 : Memref sig .tc .vmem S512x512 .f32) (harg4 : arg4.IsWhole)
    (x0 : Vec F S512x128 .f32) (x1 : Vec F S128x512 .f32) (x2 : Vec F S512x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__transform_kernel i arg1 harg1 arg2 harg2 arg3 harg3 arg4 harg4) K := by
  simp only [cc0__transform_kernel_eq_skeleton]; unfold cc0__transform_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the transform kernel's pipeline on core `c`: the arrays as the region finds them (`V`); after
    the body at point `t` each input's buffer still at its block and the output's at `out0_3` of the three input
    blocks; the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.RefTransformValue.lean ====
/- The VALUE of the reference's transform kernel (region 0 of its @main) at the ideal values: the result array after
   the region as ONE function of the three arrays the region reads — the row-scaled matrix product `Mfun` —, from
   the body's payload read at an index, what each grid point writes back, and the cover of the array by the blocks. -/
import proofs.«174715_g2000604396416013_pallasbulk_796_15_alg».proof.Proof.RefTransform
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.ShloMosaic.TcCoe Idealize.SL.Sem
open Idealize.ShloMosaic.ValueIdx
open Idealize.ShloMosaic.Pipeline (Dat)

/-! ## The product the body stores, read at an index -/

/-- At the ideal values the body's payload at row `p`, column `q` of the block is the sum over the contracted
    coordinate of (left entry × the row's scale) × right entry: the broadcast of the scaling column reads the row's
    one entry, the shape cast to the same shape is the identity, and the product into the zero splat is the plain sum
    over the contraction index, re-indexed by its one coordinate. -/
theorem pay_apply (x0 : Vec Ideal S512x128 .f32) (x2 : Vec Ideal S512x1 .f32) (x1 : Vec Ideal S128x512 .f32)
    (p : Fin 512) (q : Fin 512) :
    k0_pay1 x0 x2 x1 (ix2 p q) = ∑ k : Fin 128, (x0 (ix2 p k) * x2 (ix2 p 0)) * x1 (ix2 k q) := by
  unfold k0_pay1
  show FloatOps.matmul dot_S512x128_S128x512_S512x512_1_0_0_1_n_n none (mulf x0 (broadcastTo S512x128 x2 broadcasts_S512x1_S512x128))
      (shapeCast S128x512 x1 shapeCasts_S128x512_S128x512) (constant (F := Ideal) S512x512 .f32 0x00000000#32) (ix2 p q) = _
  rw [Ideal.matmul_constant_zero_apply, shapeCast_self,
    ← Equiv.sum_comp (contrEquiv1 dot_S512x128_S128x512_S512x512_1_0_0_1_n_n 128 rfl rfl).symm]
  refine Finset.sum_congr rfl fun k _ => ?_
  have ck := contrEquiv1_symm_val dot_S512x128_S128x512_S512x512_1_0_0_1_n_n 128 rfl rfl k
  have hl : (dot_S512x128_S128x512_S512x512_1_0_0_1_n_n).lhsIdx (ix2 p q) ((contrEquiv1 dot_S512x128_S128x512_S512x512_1_0_0_1_n_n 128 rfl rfl).symm k) = ix2 p k := by
    funext ax; apply Fin.ext
    match ax with
    | ⟨0, _⟩ => simp [DotDims.lhsIdx, dot_S512x128_S128x512_S512x512_1_0_0_1_n_n]; rfl
    | ⟨1, _⟩ => exact (DotDims.lhsIdx_val_of_single _ rfl _ _).trans ck
  have hr : (dot_S512x128_S128x512_S512x512_1_0_0_1_n_n).rhsIdx (ix2 p q) ((contrEquiv1 dot_S512x128_S128x512_S512x512_1_0_0_1_n_n 128 rfl rfl).symm k) = ix2 k q := by
    funext ax; apply Fin.ext
    match ax with
    | ⟨0, _⟩ => exact (DotDims.rhsIdx_val_of_single _ rfl _ _).trans ck
    | ⟨1, _⟩ => simp [DotDims.rhsIdx, dot_S512x128_S128x512_S512x512_1_0_0_1_n_n]; rfl
  rw [hl, hr, mulf_apply]
  rw [broadcastTo_apply x2 broadcasts_S512x1_S512x128 (ix2 p k) (ix2 p 0) (fun a => by
    match a with
    | ⟨0, _⟩ => rfl
    | ⟨1, _⟩ => rfl)]

/-! ## The transform's result as one function of the arrays the region finds -/

/-- The zero offsets of the body's whole-buffer rectangles, as the constant function. -/
theorem hz0 : (![0, 0] : Fin 2 → Nat) = fun _ => 0 := funext fun a => by fin_cases a <;> rfl

/-- The row-scaled product: at row `r`, column `j`, the sum over the 128 contracted coordinates of
    (`x` at (r, k) × the scaling column `nrm` at row r) × `w` at (k, j). What the transform kernel leaves in its
    result array, as one function of the three arrays it reads. -/
def Mfun (x : S4096x128.Idx → EReal) (w : S128x512.Idx → EReal) (nrm : S4096x1.Idx → EReal) : S4096x512.Idx → EReal :=
  fun i => ∑ k : Fin 128, (x (ix2 (n0 := 4096) (n1 := 128) (i 0) k) * nrm (ix2 (n0 := 4096) (n1 := 1) (i 0) 0))
    * w (ix2 (n0 := 128) (n1 := 512) k (i 1))

/-- `Mfun` at an index given by its coordinates. -/
theorem Mfun_apply (x : S4096x128.Idx → EReal) (w : S128x512.Idx → EReal) (nrm : S4096x1.Idx → EReal) (r : Fin 4096) (j : Fin 512) :
    Mfun x w nrm (ix2 r j) = ∑ k : Fin 128, (x (ix2 r k) * nrm (ix2 r 0)) * w (ix2 k j) := rfl

-- the TensorCore's buffer contents when the region is entered, at the ideal values
variable (V : (c : Dev nD) → (b : Ref sig .tc) → Buf (Elt Ideal) ((c : Thread nD τ).loc b))

/-! ## What a grid point writes back -/

/-- The printed index maps, decided over the 8 grid points: the left operand's and the scaling column's row tiles
    move with the result's, every other block coordinate is 0, and the result's row-tile index stays below 8. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) ≤ 7 ∧ win0_3.index t (1 : Fin 2) = 0 :=
  (by decide +kernel : ∀ t : Fin grid0.N, _)

/-- Every row tile of the result is some point's. -/
theorem idx_onto0 : ∀ q0 : Fin 8, ∃ t : Fin cfg0.N, win0_3.index t = ![q0.val, 0] :=
  (by decide +kernel : ∀ q0 : Fin 8, ∃ t : Fin grid0.N, win0_3.index t = ![q0.val, 0])

/-- WHAT POINT `t` WRITES BACK is block `t` of `Mfun` of the arrays as the region finds them: the one store's
    payload at (p, q) is the sum over the contracted coordinate (`pay_apply`), and each input block reads its array
    at the row tile the result's block is on. -/
theorem flushed0_3_eq (c : Dev nD) (t : Fin cfg0.N) :
    (dat0 V c).flushed 3 t = ((cfg0.win 3).blk t).view.read (Elt Ideal) (Mfun (V c main_arg0) (V c main_v1) (V c main_arg3)) := by
  show (cfg0.win 3).cut (grid0.coords t) ((dat0 V c).after 3 t) = _
  rw [after0_3]
  unfold out0_3
  rw [View.canon_unit_zero hz0]
  simp only [View.ld_unit_zero (S := S512x128) hz0, View.ld_unit_zero (S := S128x512) hz0, View.ld_unit_zero (S := S512x1) hz0]
  obtain ⟨e0, e1, e2, e3, e4, e5, e6, e7⟩ := idx_facts0 t
  funext j
  obtain ⟨p, q, rfl⟩ : ∃ (p : Fin 512) (q : Fin 512), j = ix2 p q := ⟨j 0, j 1, eq_ix2 j⟩
  show k0_pay1 (iblk0 V c 0 t) (iblk0 V c 2 t) (iblk0 V c 1 t) (ix2 p q)
    = Mfun (V c main_arg0) (V c main_v1) (V c main_arg3) (((cfg0.win 3).blk t).view.emb (ix2 p q))
  rw [pay_apply]
  unfold Mfun
  refine Finset.sum_congr rfl fun k _ => ?_
  have h0 : (((cfg0.win 0).blk t).view.emb (ix2 p k) : S4096x128.Idx)
      = ix2 (n0 := 4096) (n1 := 128) ((((cfg0.win 3).blk t).view.emb (ix2 p q) : S4096x512.Idx) (0 : Fin 2)) k := by
    funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 128 + 1 * k.val = k.val; omega
  have h2 : (((cfg0.win 2).blk t).view.emb (ix2 p 0) : S4096x1.Idx)
      = ix2 (n0 := 4096) (n1 := 1) ((((cfg0.win 3).blk t).view.emb (ix2 p q) : S4096x512.Idx) (0 : Fin 2)) 0 := by
    funext a; apply Fin.ext
    match a with
    | ⟨0, _⟩ => show win0_2.index t (0 : Fin 2) * 512 + 1 * p.val = win0_3.index t (0 : Fin 2) * 512 + 1 * p.val; omega
    | ⟨1, _⟩ => show win0_2.index t (1 : Fin 2) * 1 + 1 * 0 = 0; omega
  have h1 : (((cfg0.win 1).blk t).view.emb (ix2 k q) : S128x512.Idx)
      = ix2 (n0 := 128) (n1 := 512) k ((((cfg0.win 3).blk t).view.emb (ix2 p q) : S4096x512.Idx) (1 : Fin 2)) := by
    funext a; apply Fin.ext
    match a with
    | ⟨0, _⟩ => show win0_1.index t (0 : Fin 2) * 128 + 1 * k.val = k.val; omega
    | ⟨1, _⟩ => show win0_1.index t (1 : Fin 2) * 512 + 1 * q.val = win0_3.index t (1 : Fin 2) * 512 + 1 * q.val; omega
  have f0 : iblk0 V c 0 t (ix2 p k) = _ := congrArg (V c main_arg0) h0
  have f2 : iblk0 V c 2 t (ix2 p 0) = _ := congrArg (V c main_arg3) h2
  have f1 : iblk0 V c 1 t (ix2 k q) = _ := congrArg (V c main_v1) h1
  rw [f0, f2, f1]

/-! ## From the blocks to the array -/

/-- An index of the result array is in point `t`'s block iff each coordinate is in the block's range on its axis. -/
theorem mem_blk0_3 (t : Fin cfg0.N) (i : S4096x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v2).slice (win0_3.rect t)).set ↔ _
  rw [View.set_slice_whole, Rect.mem_set_unit]
  exact Iff.rfl

/-- The eight row tiles cover the result array: row `r` is in the block of the point whose row-tile index is
    `r / 512`, and every block spans all 512 columns. -/
theorem cover_arr0_3 (i : S4096x512.Idx) :
    ∃ t : Fin cfg0.N, (cfg0.win 3).flush t = true ∧ i ∈ ((cfg0.win 3).blk t).view.set := by
  have hi0 : (i 0).val < 4096 := (i 0).isLt
  have hi1 : (i 1).val < 512 := (i 1).isLt
  obtain ⟨t, ht⟩ := idx_onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- THE RESULT ARRAY after the region, at the ideal values: `Mfun` of the left operand, the right operand and the
    scaling column as the region finds them — every point writes its block of that one function, and the blocks
    cover the array. -/
theorem final0 (c : Dev nD) :
    (dat0 (F := Ideal) V c).arrAt 3 cfg0.N = fun i => Mfun (V c main_arg0) (V c main_v1) (V c main_arg3) i :=
  (dat0 V c).arrAt_eq_of_cover 3 _ (fun t _ => flushed0_3_eq V c t) cover_arr0_3

end Cert.ReferenceIdeal.Hand

end
-- ==== Proof.LibSumSplit.lean ====
import Mathlib.Algebra.BigOperators.Fin
import Mathlib.Data.Fintype.BigOperators
import Mathlib.Logic.Equiv.Fin.Basic

/-!
# Sums over an index range cut into equal blocks

For any additive commutative monoid:

* `SumSplit.sum_blocks`: a sum over `Fin (n * b)` is the sum over the `n` blocks of the sums over the `b` positions
  inside a block, the position `s` of block `kk` being the index `b * kk + s`; `SumSplit.sum_4096` is the case
  `4096 = 8 * 512`.
* `SumSplit.nest8`: eight terms added one after the other onto zero are the sum over `Fin 8`.
* `SumSplit.accUpTo` adds the first `n` terms of a sequence one after the other onto zero, and
  `SumSplit.accUpTo_eq_sum` says that this is the sum over `Fin n`.
-/

open scoped BigOperators

namespace SumSplit

variable {M : Type*} [AddCommMonoid M]

/-- Position `s` of block `kk`, of `n` blocks of `b` positions each, lies below `n * b`. -/
theorem blk_lt {n b : ℕ} (kk : Fin n) (s : Fin b) : b * kk.val + s.val < n * b :=
  calc b * kk.val + s.val < b * kk.val + b := Nat.add_lt_add_left s.isLt _
    _ = b * (kk.val + 1) := (Nat.mul_succ b kk.val).symm
    _ ≤ b * n := Nat.mul_le_mul_left b kk.isLt
    _ = n * b := Nat.mul_comm b n

/-- A sum over `n * b` indices is the sum, over the `n` blocks, of the sums over the `b` positions of a block: the pair
    (block, position) runs over the indices once each, as `b * block + position`. -/
theorem sum_blocks (n b : ℕ) (g : Fin (n * b) → M) :
    ∑ s : Fin (n * b), g s = ∑ kk : Fin n, ∑ s : Fin b, g ⟨b * kk.val + s.val, blk_lt kk s⟩ := by
  rw [← Equiv.sum_comp finProdFinEquiv g, Fintype.sum_prod_type]
  refine Finset.sum_congr rfl fun kk _ => Finset.sum_congr rfl fun s _ => ?_
  refine congrArg g (Fin.ext ?_)
  show s.val + b * kk.val = b * kk.val + s.val
  exact Nat.add_comm _ _

/-- 4096 indices are 8 blocks of 512. -/
theorem sum_4096 (g : Fin 4096 → M) :
    ∑ s : Fin 4096, g s
      = ∑ kk : Fin 8, ∑ s : Fin 512, g ⟨512 * kk.val + s.val, by have := kk.isLt; have := s.isLt; omega⟩ :=
  sum_blocks 8 512 g

/-- Eight terms added one after the other onto zero are their sum. -/
theorem nest8 (c : Fin 8 → M) :
    ((((((((0 + c 0) + c 1) + c 2) + c 3) + c 4) + c 5) + c 6) + c 7) = ∑ kk : Fin 8, c kk := by
  rw [Fin.sum_univ_eight, zero_add]

/-- The first `n` terms of a sequence added one after the other onto zero. -/
def accUpTo (c : ℕ → M) : ℕ → M
  | 0 => 0
  | k + 1 => accUpTo c k + c k

/-- Adding the first `n` terms one after the other gives their sum. -/
theorem accUpTo_eq_sum (c : ℕ → M) (n : ℕ) : accUpTo c n = ∑ kk : Fin n, c kk.val := by
  induction n with
  | zero => rfl
  | succ k ih =>
    rw [Fin.sum_univ_castSucc]
    show accUpTo c k + c k = ∑ kk : Fin k, c kk.val + c k
    rw [ih]

end SumSplit
-- ==== Proof.Bridge.lean ====
import proofs.«174715_g2000604396416013_pallasbulk_796_15_alg».proof.Proof.KernelFinal
import proofs.«174715_g2000604396416013_pallasbulk_796_15_alg».proof.Proof.RefTransformValue
import proofs.«174715_g2000604396416013_pallasbulk_796_15_alg».proof.Proof.LibSumSplit

set_option maxRecDepth 16384

noncomputable section

namespace Cert.Bridge

open Idealize.ShloMosaic Idealize.ShloMosaic.ValueIdx
open Cert.KernelIdeal.Hand (layer feat entry divOf colOf)
open Cert.ReferenceIdeal.Hand (Mfun)

/-! ## The two programs compute one function

The fused kernel contracts a destination row of a division's adjacency against a feature column over all 4096
sources at once; the two-stage program accumulates the same products over eight source tiles of 512 and writes its
columns division-major, which the host then permutes to head-major. Sums over the extended reals may be regrouped
freely, so the two agree entry by entry, with no finiteness needed. -/

abbrev A3 : Shape := ⟨3, ![4, 4096, 4096]⟩
abbrev M2 : Shape := ⟨2, ![4096, 512]⟩
abbrev X2 : Shape := ⟨2, ![4096, 128]⟩
abbrev W2 : Shape := ⟨2, ![128, 512]⟩
abbrev N2 : Shape := ⟨2, ![4096, 1]⟩

theorem feat_eq_Mfun (x : X2.Idx → EReal) (w : W2.Idx → EReal) (nrm : N2.Idx → EReal) :
    feat x w nrm = Mfun x w nrm := rfl

/-- The division-major column of output column `q`, decomposed. -/
theorem col_decomp (q : Fin 512) :
    q.val = ((q.val / 256) * 4 + (q.val / 64) % 4) * 64 + q.val % 64 := by
  have := q.isLt; omega

/-- If an array `P` holds, at row `r` and division-major column `j`, the eight-tile accumulation of the adjacency
    row against feature column `j`, scaled and clamped, and `Wf` is `P` with its columns permuted to head-major,
    then `Wf` is the layer. -/
theorem bridge_pure (x : X2.Idx → EReal) (w : W2.Idx → EReal) (nrm : N2.Idx → EReal) (adj : A3.Idx → EReal)
    (P : M2.Idx → EReal)
    (hP : ∀ (r : Fin 4096) (j : Fin 512), P (ix2 r j)
      = max ((∑ kk : Fin 8, ∑ s : Fin 512,
            adj (ix3 ⟨j.val / 128, by have := j.isLt; omega⟩ r ⟨512 * kk.val + s.val, by have := kk.isLt; have := s.isLt; omega⟩)
              * Mfun x w nrm (ix2 ⟨512 * kk.val + s.val, by have := kk.isLt; have := s.isLt; omega⟩ j)) * nrm (ix2 r 0)) 0)
    (Wf : M2.Idx → EReal)
    (hW : ∀ (r : Fin 4096) (h : Fin 2) (d : Fin 4) (f : Fin 64),
      Wf (ix2 r ⟨(h.val * 4 + d.val) * 64 + f.val, by have := h.isLt; have := d.isLt; have := f.isLt; omega⟩)
        = P (ix2 r ⟨d.val * 128 + h.val * 64 + f.val, by have := h.isLt; have := d.isLt; have := f.isLt; omega⟩)) :
    Wf = fun i => layer x w nrm adj i := by
  funext i
  obtain ⟨r, q, rfl⟩ : ∃ (r : Fin 4096) (q : Fin 512), i = ix2 r q := ⟨i 0, i 1, eq_ix2 i⟩
  have hq := q.isLt
  have e : (q : Fin 512) = ⟨((⟨q.val / 256, by omega⟩ : Fin 2).val * 4 + (⟨(q.val / 64) % 4, by omega⟩ : Fin 4).val) * 64
      + (⟨q.val % 64, by omega⟩ : Fin 64).val, by show (q.val / 256 * 4 + q.val / 64 % 4) * 64 + q.val % 64 < 512; omega⟩ :=
    Fin.ext (col_decomp q)
  have hWq := hW r ⟨q.val / 256, by omega⟩ ⟨(q.val / 64) % 4, by omega⟩ ⟨q.val % 64, by omega⟩
  rw [← e] at hWq
  rw [hWq, hP]
  show _ = entry (fun s => adj (ix3 (divOf q) r s)) (feat x w nrm) (nrm (ix2 r 0)) q
  unfold entry
  rw [SumSplit.sum_4096 (fun s : Fin 4096 => adj (ix3 (divOf q) r s) * feat x w nrm (ix2 s (colOf q)))]
  have hcol : (⟨(q.val / 64) % 4 * 128 + (q.val / 256) * 64 + q.val % 64, by omega⟩ : Fin 512) = colOf q := rfl
  have hdiv : (⟨(⟨(q.val / 64) % 4 * 128 + (q.val / 256) * 64 + q.val % 64, by omega⟩ : Fin 512).val / 128, by
      show ((q.val / 64) % 4 * 128 + (q.val / 256) * 64 + q.val % 64) / 128 < 4; omega⟩ : Fin 4) = divOf q := by
    apply Fin.ext; show ((q.val / 64) % 4 * 128 + (q.val / 256) * 64 + q.val % 64) / 128 = (q.val / 64) % 4; omega
  rw [hdiv]
  rfl

/-- The two-stage program's pre-permutation result as one function: at row `r` and division-major column `j`, the
    eight source tiles' products of adjacency row (division `j / 128`) and feature column `j`, summed, scaled by the
    row's norm, clamped at zero. -/
def aggFun (adj : A3.Idx → EReal) (mm : M2.Idx → EReal) (nrm : N2.Idx → EReal) : M2.Idx → EReal :=
  fun i => max ((∑ kk : Fin 8, ∑ s : Fin 512,
      adj (ix3 ⟨(i 1).val / 128, by have h1 : (i 1).val < 512 := (i 1).isLt; show (i 1).val / 128 < 4; omega⟩ (i 0)
            ⟨512 * kk.val + s.val, by have := kk.isLt; have := s.isLt; show 512 * kk.val + s.val < 4096; omega⟩)
        * mm (ix2 ⟨512 * kk.val + s.val, by have := kk.isLt; have := s.isLt; show 512 * kk.val + s.val < 4096; omega⟩ (i 1)))
    * nrm (ix2 (i 0) 0)) 0

/-- The head-major permutation of `aggFun` over the transformed features is the layer. -/
theorem bridge (x : X2.Idx → EReal) (w : W2.Idx → EReal) (nrm : N2.Idx → EReal) (adj : A3.Idx → EReal)
    (Wf : M2.Idx → EReal)
    (hW : ∀ (r : Fin 4096) (h : Fin 2) (d : Fin 4) (f : Fin 64),
      Wf (ix2 r ⟨(h.val * 4 + d.val) * 64 + f.val, by have := h.isLt; have := d.isLt; have := f.isLt; omega⟩)
        = aggFun adj (Mfun x w nrm) nrm (ix2 r ⟨d.val * 128 + h.val * 64 + f.val, by have := h.isLt; have := d.isLt; have := f.isLt; omega⟩)) :
    Wf = fun i => layer x w nrm adj i :=
  bridge_pure x w nrm adj (aggFun adj (Mfun x w nrm) nrm) (fun r j => rfl) Wf hW

end Cert.Bridge

end
-- ==== Proof.RefRun.lean ====
/- The reference program's WHOLE RUN: the buffers' contents at each boundary between its four segments (the host
   operations that lay out the right operand, the transform kernel, the aggregate kernel, the host operations that
   lay out the result), every segment over the thread state "each unscoped buffer whole at the boundary's contents",
   and the run itself: every weakly fair execution terminates, the result buffer ends at the last boundary's contents
   and the four argument arrays end as launched. The aggregate kernel's proof data are a PARAMETER (`D1`, with the
   facts `Reg1Facts` asks of them): nothing here looks inside them. -/
import proofs.«174715_g2000604396416013_pallasbulk_796_15_alg».proof.Proof.RefTransform
import proofs.«174715_g2000604396416013_pallasbulk_796_15_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A valuation of the TensorCore's buffers, per core: what a region's proof data are stated at. -/
abbrev TcVal (F : FTy → Type) [FloatOps F] : Type := (c : Dev nD) → (b : Ref sig .tc) → Buf (Elt F) ((c : Thread nD τ).loc b)

/-- What the run asks of the aggregate kernel's proof data `D1`, at every entry valuation: their arrays are the entry
    contents, full shares, nothing owed, the body obligation, and their invariant entered from and left at the
    plain one (the scoped rest and the generator register) — the invariant itself may track more in between. -/
structure Reg1Facts (D1 : TcVal F → (c : Dev nD) → Dat τ (Elt F) Unit ℕ (UR sig nD τ) ℕ cfg1 c) : Prop where
  hA : ∀ V c w, (D1 V c).A w = V c (Pipeline.arrRef spec1 w)
  hq : ∀ V c w, (D1 V c).q w = fullShare
  howed : ∀ V c t, (D1 V c).owed t = 0
  /-- The bound on the pairs recorded before the first point is the trivial one (the structure's default). -/
  hrec : ∀ V c, (D1 V c).recorded 0 = Set.univ
  hbody : ∀ V c, BodyObligation (D1 V c) (defs₀ (F := F)) Variants.none () Set.univ
  hin : ∀ V c, (Pipeline.ΦA spec1 c : sProp 𝕄) ⊢ (D1 V c).Φ 0
  hout : ∀ V c, (D1 V c).Φ (Fin.last cfg1.N) ⊢ (Pipeline.ΦA spec1 c : sProp 𝕄)

variable (D1 : TcVal F → (c : Dev nD) → Dat τ (Elt F) Unit ℕ (UR sig nD τ) ℕ cfg1 c)
variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first host operations (the transform kernel's entry). -/
abbrev W1 : Dev nD → Valuation τ sig (Elt F) := fun c => StableHlo.after hostOps0 (W0 m ρ c)
/-- The same read at the TensorCore's references (what the transform kernel's proof data take). -/
abbrev V1 : TcVal F := fun c b => W1 m ρ c b
/-- At the transform kernel's exit, which is the aggregate kernel's entry: its arrays at what the pipeline leaves
    (the inputs as entered, the result's write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (what the aggregate kernel's proof data take). -/
abbrev V2 : TcVal F := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the aggregate kernel's exit: its arrays at what its pipeline leaves, every other buffer as entered. -/
def W3 (c : Dev nD) : Valuation τ sig (Elt F) :=
  Pipeline.withArrays spec1 c (W2 m ρ c) fun w => (D1 (V2 m ρ) c).arrAt w cfg1.N
theorem W3_arr (c : Dev nD) (w : Fin cfg1.W) :
    W3 D1 m ρ c (Proc.devRef .tc (Pipeline.arrRef spec1 w)) = (D1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 D1 m ρ c (Proc.devRef .tc b) = W2 m ρ c (Proc.devRef .tc b) := by
  unfold W3; exact Pipeline.withArrays_of_ne spec1 c _ _ b hb
/-- The same read at the TensorCore's references. -/
abbrev V3 : TcVal F := fun c b => W3 D1 m ρ c b
theorem hF1 (c : Dev nD) (w : Fin cfg1.W) : (D1 (V2 m ρ) c).arrAt w cfg1.N = V3 D1 m ρ c (Pipeline.arrRef spec1 w) :=
  (W3_arr D1 m ρ c w).symm
theorem hrest1 (c : Dev nD) : ∀ b, b ∉ Finset.univ.image (Pipeline.arrRef spec1) → V3 D1 m ρ c b = V2 m ρ c b :=
  fun b hb => W3_of_ne D1 m ρ c b fun w e => hb (Finset.mem_image.mpr ⟨w, Finset.mem_univ _, e⟩)

/-- After the last host operations: the contents every buffer ends at. -/
abbrev Wend : Dev nD → Valuation τ sig (Elt F) := fun c => StableHlo.after hostOps2 (W3 D1 m ρ c)

/-! ### What each host stretch leaves alone -/

theorem W1_of (c : Dev nD) (r : Ref sig .tc) (h : r ∉ hostOps0_W) : W1 m ρ c r = W0 m ρ c r :=
  StableHlo.after_of_writes_sub hostOps0 _ hostOps0_writes h
theorem Wend_of (c : Dev nD) (r : Ref sig .tc) (h : r ∉ hostOps2_W) : Wend D1 m ρ c r = W3 D1 m ρ c r :=
  StableHlo.after_of_writes_sub hostOps2 _ hostOps2_writes h

/-! ### The arguments end as launched: no host operation writes one, and a region either reads it through an input
    window or bypasses it, so the fold at an argument's buffer walks back to the launch memory -/

section Args
variable (H1 : Reg1Facts D1)
include H1

theorem Wend_main_arg0 (c : Dev nD) : Wend D1 m ρ c (Proc.devRef .tc main_arg0) = m ((c : Thread nD τ).loc main_arg0) :=
  calc Wend D1 m ρ c (Proc.devRef .tc main_arg0)
    _ = W3 D1 m ρ c (Proc.devRef .tc main_arg0) := Wend_of D1 m ρ c main_arg0 (by decide)
    _ = W2 m ρ c (Proc.devRef .tc main_arg0) := W3_of_ne D1 m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem Wend_main_arg1 (c : Dev nD) : Wend D1 m ρ c (Proc.devRef .tc main_arg1) = m ((c : Thread nD τ).loc main_arg1) :=
  calc Wend D1 m ρ c (Proc.devRef .tc main_arg1)
    _ = W3 D1 m ρ c (Proc.devRef .tc main_arg1) := Wend_of D1 m ρ c main_arg1 (by decide)
    _ = W2 m ρ c (Proc.devRef .tc main_arg1) := W3_of_ne D1 m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem Wend_main_arg2 (c : Dev nD) : Wend D1 m ρ c (Proc.devRef .tc main_arg2) = m ((c : Thread nD τ).loc main_arg2) :=
  calc Wend D1 m ρ c (Proc.devRef .tc main_arg2)
    _ = W3 D1 m ρ c (Proc.devRef .tc main_arg2) := Wend_of D1 m ρ c main_arg2 (by decide)
    _ = W2 m ρ c (Proc.devRef .tc main_arg2) := (W3_arr D1 m ρ c 0).trans (((D1 (V2 m ρ) c).arrAt_in 0 rfl _).trans (H1.hA (V2 m ρ) c 0))
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem Wend_main_arg3 (c : Dev nD) : Wend D1 m ρ c (Proc.devRef .tc main_arg3) = m ((c : Thread nD τ).loc main_arg3) :=
  calc Wend D1 m ρ c (Proc.devRef .tc main_arg3)
    _ = W3 D1 m ρ c (Proc.devRef .tc main_arg3) := Wend_of D1 m ρ c main_arg3 (by decide)
    _ = W2 m ρ c (Proc.devRef .tc main_arg3) := (W3_arr D1 m ρ c 2).trans (((D1 (V2 m ρ) c).arrAt_in 2 rfl _).trans (H1.hA (V2 m ρ) c 2))
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := W1_of m ρ c main_arg3 (by decide)
    _ = m ((c : Thread nD τ).loc main_arg3) := rfl

end Args

/-! ## The proof data family and the thread state -/

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => D1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (Wend D1 m ρ c) ∗ ∃ r, prngReg c r)

/-! ## The regions as segments -/

set_option backward.isDefEq.respectTransparency.types false in
/-- The transform kernel over the thread state: entered from every unscoped buffer at `W1`, left at `W2`. Its arrays
    split out of the unscoped buffers and put back at the exit contents; the generator register into the plain
    invariant and out; nothing owed; no semaphore of the kernel's own. -/
def reg0 : Pipeline.RegionSeg (pcfgs (F := F)) adm (pdats D1 m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats D1 m ρ) launch0.win launch0.arr_whole c
      ((pdats D1 m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats D1 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats D1 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D1 m ρ) ((pdats D1 m ρ 0 c).share_full fun _ => rfl)
      (V1 m ρ c) (V2 m ρ c) ((pdats D1 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregate kernel over the thread state: entered from every unscoped buffer at `W2`, left at `W3`. As the
    transform kernel's, except that its proof data are the parameter's: their arrays, shares, dues and body
    obligation by `Reg1Facts`, and their invariant entered from the plain one (`hin`) and left at it (`hout`). -/
def reg1 (H1 : Reg1Facts D1) : Pipeline.RegionSeg (pcfgs (F := F)) adm (pdats D1 m ρ) () defs₀ 𝒱₀ L lv 1 where
  win := launch1.win.to₀
  block_pos := launch1.block_pos
  stage_whole := launch1.stage_whole
  K := PEmpty
  osem k := k.elim
  ho := Pipeline.OwnSemFacts.none _
  hbody c := (H1.hbody (V2 m ρ) c).loose
  hwaits := Pipeline.hwaits_of_owed_zero _ _ _ _ L lv 1 fun c t => H1.howed (V2 m ρ) c t
  pre c := iprop(StableHlo.held (c : Thread nD τ) (Pipeline.ucRefs τ sig) (W2 m ρ c) ∗ R c)
  post c := iprop(StableHlo.held (c : Thread nD τ) (Pipeline.ucRefs τ sig) (W3 D1 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats D1 m ρ) launch1.win launch1.arr_whole c
      ((pdats D1 m ρ 1 c).share_full fun w => H1.hq (V2 m ρ) c w) (V2 m ρ c) fun w => H1.hA (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D1 m ρ 1 c).owed 0 = 0 from H1.howed (V2 m ρ) c 0]
      icases HO with ⟨%W, HO⟩; iexists W; isplitr
      · ipureintro
        exact fun x _ => Or.inl (by
          show x ∈ (D1 (V2 m ρ) c).recorded 0
          rw [H1.hrec (V2 m ρ) c]; exact Set.mem_univ x)
      iexact HO
    isplitl [Hp]; · iexact Hp
    iexact Hrest
  hin c := by
    refine BIClass.entails_trans ?_ (H1.hin (V2 m ρ) c)
    unfold Pipeline.ΦA
    iintro ⟨Hp, -, Hr⟩
    isplitl [Hr]; · iexact Hr
    iexact Hp
  hout c := by
    refine BIClass.entails_trans (H1.hout (V2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats D1 m ρ) ((pdats D1 m ρ 1 c).share_full fun w => H1.hq (V2 m ρ) c w)
      (V2 m ρ c) (V3 D1 m ρ c) ((pdats D1 m ρ 1 c).arrAt · cfg1.N) (hF1 D1 m ρ c) (hrest1 D1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats D1 m ρ 1 c).owed (Fin.last _) = 0 from H1.howed (V2 m ρ) c _]
    icases HO with ⟨%W, -, HO⟩; iexists W; iexact HO

/-! ## @main as segments, and the launch -/

/-- @main's four segments in order: the host operations before the kernels, the two kernels, the host operations after. -/
abbrev segs (H1 : Reg1Facts D1) : List (Pipeline.Seg (pcfgs (F := F)) adm (pdats D1 m ρ) () defs₀ 𝒱₀ L lv) :=
  [ .host (hseg hostOps0 hostOps0_sub hostOps0_fresh (W0 m ρ)),
    .region (reg0 D1 m ρ),
    .region (reg1 D1 m ρ H1),
    .host (hseg hostOps2 hostOps2_sub hostOps2_fresh (W3 D1 m ρ)) ]
/-- @main IS the run of the segments. -/
theorem main_run (H1 : Reg1Facts D1) (c : Dev nD) : main (F := F) c = Pipeline.Seg.run (segs D1 m ρ H1) :=
  (main_chain c).trans (by chain_rfl)

set_option backward.isDefEq.respectTransparency.types false in
/-- THE RUN of the reference: from any memory with zero counters every weakly fair execution of @main on the
    TensorCores terminates, nothing faulting; in every final state the result buffer holds the last boundary's
    contents (`Wend`) and the four argument arrays are as launched. -/
theorem ref_run (H1 : Reg1Facts D1) : θ_run defs (onTc (τ := τ) (main (F := F))) ⟨m, fun _ => 0, ρ⟩ (fun r => ∀ c : Dev nD,
      r.2.mem ((c.tc : Thread nD τ).loc main_v6) = Wend D1 m ρ c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats D1 m ρ) () cellOf_inj emb₁ defs₀ 𝒱₀ L lv m ρ main (segs D1 m ρ H1)
    (fun c Q => by rw [main_run D1 m ρ H1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ D1 m ρ)
    (hch := ⟨fun _ => .rfl, fun _ => .rfl, fun _ => .rfl, fun _ => .rfl, fun c => by
      show iprop(StableHlo.held (c : Thread nD τ) (Pipeline.ucRefs τ sig) (Wend D1 m ρ c) ∗ R c)
        ⊢ iprop(Tₙ D1 m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend D1 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend D1 m ρ c) s')
      isplitl [Hh] <;> iassumption)
    (hQ := fun s h c =>
      ⟨h c _ (mem_uc main_v6 (by decide)),
        (h c _ (mem_uc main_arg0 (by decide))).trans (Wend_main_arg0 D1 m ρ H1 c),
        (h c _ (mem_uc main_arg1 (by decide))).trans (Wend_main_arg1 D1 m ρ H1 c),
        (h c _ (mem_uc main_arg2 (by decide))).trans (Wend_main_arg2 D1 m ρ H1 c),
        (h c _ (mem_uc main_arg3 (by decide))).trans (Wend_main_arg3 D1 m ρ H1 c)⟩)

end Cert.ReferenceIdeal.Hand

end
-- ==== Proof.RefRunValue.lean ====
/- The reference's run READ at the ideal values: what each kernel finds in its windows' arrays when it is entered
   (the arguments as launched, the right operand as the first host operations lay the weights out, the transform
   kernel's result the row-scaled product `Mfun`), and the result buffer at the end as the last three host
   operations of the aggregate kernel's result array, read at an index. The aggregate kernel's proof data are the
   run's parameter `D1`. -/
import proofs.«174715_g2000604396416013_pallasbulk_796_15_alg».proof.Proof.RefRun
import proofs.«174715_g2000604396416013_pallasbulk_796_15_alg».proof.Proof.RefTransformValue
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.ShloMosaic.TcCoe Idealize.SL.Sem
open Idealize.ShloMosaic.ValueIdx
open Idealize.ShloMosaic.Pipeline (Dat)

/-! ## The result's layout after the kernels: reshape, transpose, reshape, read at an index -/

/-- Reading the last three host operations at an index. The aggregate kernel's result `P` has its 512 columns laid
    out as (d : 4 groups) × (h : 2) × (f : 64); the reshape to [4096, 4, 2, 64] names them, the transpose swaps the two
    middle axes, and the reshape back to [4096, 512] lays them out as (h, d, f): column (h·4 + d)·64 + f of the final
    array is column d·128 + h·64 + f of `P`, on the same row. -/
theorem tail_apply {α : Type} (P : S4096x512.Idx → α) (r : Fin 4096) (h : Fin 2) (d : Fin 4) (f : Fin 64) :
    shapeCast S4096x512
        (transpose S4096x2x4x64 [0, 2, 1, 3] (shapeCast S4096x4x2x64 P shapeCasts_S4096x512_S4096x4x2x64)
          transposes_S4096x4x2x64_S4096x2x4x64_0_2_1_3)
        shapeCasts_S4096x2x4x64_S4096x512
        (ix2 r (⟨(h.val * 4 + d.val) * 64 + f.val, by have := h.isLt; have := d.isLt; have := f.isLt; omega⟩ : Fin 512))
      = P (ix2 r (⟨d.val * 128 + h.val * 64 + f.val, by have := h.isLt; have := d.isLt; have := f.isLt; omega⟩ : Fin 512)) := by
  rw [shapeCast_apply _ _ _ (ix4 r h d f) (by
    rw [Shape.rowMajor_val_four, Shape.rowMajor_val_two]
    show ((r.val * 2 + h.val) * 4 + d.val) * 64 + f.val = r.val * 512 + ((h.val * 4 + d.val) * 64 + f.val)
    omega)]
  rw [transpose_apply [0, 2, 1, 3] _ _ (ix4 r h d f) (ix4 r d h f) (fun b => by
    match b with
    | ⟨0, _⟩ => rfl
    | ⟨1, _⟩ => rfl
    | ⟨2, _⟩ => rfl
    | ⟨3, _⟩ => rfl)]
  rw [shapeCast_apply _ _ (ix4 r d h f) (ix2 r (⟨d.val * 128 + h.val * 64 + f.val, by have := h.isLt; have := d.isLt; have := f.isLt; omega⟩ : Fin 512)) (by
    rw [Shape.rowMajor_val_four, Shape.rowMajor_val_two]
    show r.val * 512 + (d.val * 128 + h.val * 64 + f.val) = ((r.val * 4 + d.val) * 2 + h.val) * 64 + f.val
    omega)]

/-! ## The regions' entry contents, read at the windows' arrays (at the ideal values) -/

variable (D1 : TcVal Ideal → (c : Dev nD) → Dat τ (Elt Ideal) Unit ℕ (UR sig nD τ) ℕ cfg1 c)
variable (m : (ℓ : Loc nD τ sig) → Buf (Elt Ideal) ℓ) (ρ : Dev nD → PrngReg)

/-- The transform kernel finds the left operand as launched: no host operation writes an argument. -/
theorem V1_main_arg0 (c : Dev nD) : V1 m ρ c main_arg0 = m ((c : Thread nD τ).loc main_arg0) :=
  W1_of m ρ c main_arg0 (by decide)
/-- It finds the scaling column as launched. -/
theorem V1_main_arg3 (c : Dev nD) : V1 m ρ c main_arg3 = m ((c : Thread nD τ).loc main_arg3) :=
  W1_of m ρ c main_arg3 (by decide)
/-- It finds the right operand as the first host operations leave it: the weights transposed to
    [128, 4, 2, 64] and reshaped to [128, 512]. -/
theorem V1_main_v1 (c : Dev nD) :
    (V1 m ρ c main_v1 : S128x512.Idx → EReal)
      = shapeCast S128x512 (transpose S128x4x2x64 [2, 1, 0, 3] (m ((c : Thread nD τ).loc main_arg1)) transposes_S2x4x128x64_S128x4x2x64_2_1_0_3)
          shapeCasts_S128x4x2x64_S128x512 := by
  show StableHlo.after hostOps0 (W0 m ρ c) (Proc.devRef .tc main_v1) = _
  after_results
  rfl

/-- The aggregate kernel finds, in the transform kernel's result array, the row-scaled product `Mfun` of the left
    operand, the laid-out weights and the scaling column; -/
theorem V2_main_v2 (c : Dev nD) :
    V2 m ρ c main_v2 = fun i => Mfun (m ((c : Thread nD τ).loc main_arg0)) (V1 m ρ c main_v1) (m ((c : Thread nD τ).loc main_arg3)) i :=
  (W2_arr m ρ c 3).trans ((final0 (V1 m ρ) c).trans (by rw [V1_main_arg0, V1_main_arg3]))
/-- the adjacency stack as launched (the transform kernel bypasses it); -/
theorem V2_main_arg2 (c : Dev nD) : V2 m ρ c main_arg2 = m ((c : Thread nD τ).loc main_arg2) :=
  (W2_of_ne m ρ c main_arg2 (by decide)).trans (W1_of m ρ c main_arg2 (by decide))
/-- and the scaling column as launched (the transform kernel only reads it). -/
theorem V2_main_arg3 (c : Dev nD) : V2 m ρ c main_arg3 = m ((c : Thread nD τ).loc main_arg3) :=
  ((W2_arr m ρ c 2).trans (((dat0 (V1 m ρ) c).arrAt_in 2 rfl _).trans (A_eq0 (V1 m ρ) c 2))).trans (V1_main_arg3 m ρ c)

/-! ## The result buffer at the end, from the aggregate kernel's result array -/

/-- The aggregate kernel's result array as its pipeline leaves it. -/
theorem W3_main_v3 (c : Dev nD) : W3 D1 m ρ c main_v3 = (D1 (V2 m ρ) c).arrAt 3 cfg1.N :=
  W3_arr D1 m ρ c 3

/-- The result buffer at the end is the last three host operations of that array. -/
theorem Wend_main_v6 (c : Dev nD) :
    (Wend D1 m ρ c main_v6 : S4096x512.Idx → EReal)
      = shapeCast S4096x512
          (transpose S4096x2x4x64 [0, 2, 1, 3]
            (shapeCast S4096x4x2x64 ((D1 (V2 m ρ) c).arrAt 3 cfg1.N : S4096x512.Idx → EReal) shapeCasts_S4096x512_S4096x4x2x64)
            transposes_S4096x4x2x64_S4096x2x4x64_0_2_1_3)
          shapeCasts_S4096x2x4x64_S4096x512 := by
  rw [← W3_main_v3]
  show StableHlo.after hostOps2 (W3 D1 m ρ c) (Proc.devRef .tc main_v6) = _
  after_results
  rfl

/-- Read at an index: column (h·4 + d)·64 + f of the result buffer is column d·128 + h·64 + f of the aggregate
    kernel's result array, on the same row. -/
theorem Wend_main_v6_apply (c : Dev nD) (r : Fin 4096) (h : Fin 2) (d : Fin 4) (f : Fin 64) :
    (Wend D1 m ρ c main_v6 : S4096x512.Idx → EReal)
        (ix2 r (⟨(h.val * 4 + d.val) * 64 + f.val, by have := h.isLt; have := d.isLt; have := f.isLt; omega⟩ : Fin 512))
      = ((D1 (V2 m ρ) c).arrAt 3 cfg1.N : S4096x512.Idx → EReal)
        (ix2 r (⟨d.val * 128 + h.val * 64 + f.val, by have := h.isLt; have := d.isLt; have := f.isLt; omega⟩ : Fin 512)) := by
  rw [Wend_main_v6]
  exact tail_apply _ r h d f

end Cert.ReferenceIdeal.Hand

end
-- ==== Proof.RefAggregate.lean ====
/- Region 1 of the reference program: the aggregate kernel on its 8 x 8 grid (destination tile, source tile). The
   body adds, at each source tile, the four adjacency slabs' products with the transformed source tile into an
   accumulator it keeps in a scratch buffer across the eight source tiles of one destination tile (reset at the
   first, read out scaled and clamped into the output block at the last). Here: the body's triple in each of its
   three control cases, the accumulator point by point, the pipeline's proof data and the body obligation. -/
import proofs.«174715_g2000604396416013_pallasbulk_796_15_alg».proof.Proof.Gen.ReferenceIdeal.Launch
import proofs.«174715_g2000604396416013_pallasbulk_796_15_alg».proof.Proof.Gen.ReferenceIdeal.Skeleton
import proofs.«174715_g2000604396416013_pallasbulk_796_15_alg».proof.Proof.Gen.ReferenceIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid -/

/-- The condition of the body's first branch (the accumulator is reset): the source-tile coordinate is zero. -/
abbrev cond1_0 (i : grid1.Coords) : Prop := (Scalar.cmpi .ne (Scalar.extui (Scalar.cmpi .eq (BitVec.ofNat 32 (i 1).val) 0#32)) 0#32) = 1#1
/-- It holds at the points ≡ 0 (mod 8): decided over the 64 points. -/
theorem hcond1_0 : ∀ t : Fin cfg1.N, cond1_0 (grid1.coords t) ↔ t.val % 8 = 0 :=
  (by decide +kernel : ∀ t : Fin grid1.N, cond1_0 (grid1.coords t) ↔ t.val % 8 = 0)
/-- The condition of the body's second branch (the output block is stored): the source-tile coordinate is the last. -/
abbrev cond1_1 (i : grid1.Coords) : Prop := k1_cond2 i = 1#1
/-- It holds at the points ≡ 7 (mod 8): decided over the 64 points. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## The body's accesses -/

/-- The whole accumulator, source tile and output block. -/
abbrev rS : Rect S512x512 := Rect.unit (s := S512x512) ![0, 0] S512x512.size inb_S512x512_S512x512_0_0
/-- The whole norm column. -/
abbrev rN : Rect S512x1 := Rect.unit (s := S512x1) ![0, 0] S512x1.size inb_S512x1_S512x1_0_0
/-- The four slabs of the adjacency block, one per division. -/
abbrev rA0 : Rect S4x512x512 := Rect.unit (s := S4x512x512) ![0, 0, 0] S1x512x512.size inb_S4x512x512_S1x512x512_0_0_0
abbrev rA1 : Rect S4x512x512 := Rect.unit (s := S4x512x512) ![1, 0, 0] S1x512x512.size inb_S4x512x512_S1x512x512_1_0_0
abbrev rA2 : Rect S4x512x512 := Rect.unit (s := S4x512x512) ![2, 0, 0] S1x512x512.size inb_S4x512x512_S1x512x512_2_0_0
abbrev rA3 : Rect S4x512x512 := Rect.unit (s := S4x512x512) ![3, 0, 0] S1x512x512.size inb_S4x512x512_S1x512x512_3_0_0

/-- The zero offsets of a rank-2 rectangle, however spelt. -/
theorem off2 : (![0, 0] : Fin 2 → ℕ) = fun _ => 0 := by funext a; fin_cases a <;> rfl

/-- After writes whose LAST is a store through the whole-shape rectangle at zero offsets, a buffer reads that
    store's payload, whatever the earlier writes and the prior contents. -/
theorem read_writes_whole_cons {Val : EltTy → Type} [∀ e, Nonempty (Val e)] {S : Shape} {e : EltTy} {sig' : RefSig} {κ : Kind} {sp : Space}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_of_cover_last v f v f (⟨Rect.unit off S.size inb, w⟩ : View.Piece Val S e) L []
      (fun y => View.mem_set_unit_zero h inb y)).trans
    ((View.read_writes_eq_canon v f [(⟨Rect.unit off S.size inb, w⟩ : View.Piece Val S e)]
      (fun y => ⟨_, List.mem_singleton_self _, View.mem_set_unit_zero h inb y⟩)).trans (View.canon_unit_zero h inb w))

/-! ## What one point leaves in the accumulator and in the output block -/

/-- The accumulator as the first branch resets it: zeros. -/
def accZero : Vec F S512x512 .f32 := k1_pay2 (F := F)

/-- The accumulator after one point, from the adjacency block `x0`, the source tile `x1` and the accumulator `a`
    before: `a` plus the four slabs' products with the source tile's four column groups, side by side. -/
def accStep (x0 : Vec F S4x512x512 .f32) (x1 : Vec F S512x512 .f32) (a : Vec F S512x512 .f32) : Vec F S512x512 .f32 :=
  k1_pay3 x1 (View.ld x0 rA0) (View.ld x0 rA1) (View.ld x0 rA2) (View.ld x0 rA3) a

/-- The output block the second branch stores, from the accumulator `a` and the norm column `x2`: `a` scaled row by
    row, clamped below at zero. -/
def outFin (a : Vec F S512x512 .f32) (x2 : Vec F S512x1 .f32) : Vec F S512x512 .f32 :=
  k1_pay1 a x2

/-! ## The body's triple, one per control case -/

set_option maxHeartbeats 1000000 in
/-- First source tile (the first branch taken, the second not): whatever the accumulator held, it ends at one step
    from zero; the inputs and the output buffer are handed back as found. -/
theorem sound_kernel1_A (c : Dev nD) (E : Set ℕ) (i : grid1.Coords)
    (arg2 : Memref sig .tc .vmem S4x512x512 .f32) (harg2 : arg2.IsWhole) (arg3 : Memref sig .tc .vmem S512x512 .f32) (harg3 : arg3.IsWhole)
    (arg4 : Memref sig .tc .vmem S512x1 .f32) (harg4 : arg4.IsWhole) (arg5 : Memref sig .tc .vmem S512x512 .f32) (harg5 : arg5.IsWhole)
    (arg6 : Memref sig .tc .vmem S512x512 .f32) (harg6 : arg6.IsWhole) (hc0 : cond1_0 i) (hc1 : ¬cond1_1 i)
    (x0 : Vec F S4x512x512 .f32) (x1 : Vec F S512x512 .f32) (x2 : Vec F S512x1 .f32) (xi3 : Vec F S512x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (accStep x0 x1 (accZero (F := F)))) -∗ K ⟨⟩))
      ⊢ wp frame (wpE (defs₀ (F := F)) Variants.none c none) E (cc1__aggregate_kernel i arg2 harg2 arg3 harg3 arg4 harg4 arg5 harg5 arg6 harg6) K := by
  simp only [cc1__aggregate_kernel_eq_skeleton]; unfold cc1__aggregate_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [read_writes_whole_cons _ _ off2, View.readCov_unit_zero _ off2]
  have e1 : View.readAt (Elt F) arg3.view rS.toLoadRect f1 = arg3.view.read (Elt F) f1 := View.ld_unit_zero off2 _ _
  rw [e1]
  rfl

set_option maxHeartbeats 1000000 in
/-- A middle source tile (neither branch taken): the accumulator ends one step on; everything else is handed back
    as found. -/
theorem sound_kernel1_B (c : Dev nD) (E : Set ℕ) (i : grid1.Coords)
    (arg2 : Memref sig .tc .vmem S4x512x512 .f32) (harg2 : arg2.IsWhole) (arg3 : Memref sig .tc .vmem S512x512 .f32) (harg3 : arg3.IsWhole)
    (arg4 : Memref sig .tc .vmem S512x1 .f32) (harg4 : arg4.IsWhole) (arg5 : Memref sig .tc .vmem S512x512 .f32) (harg5 : arg5.IsWhole)
    (arg6 : Memref sig .tc .vmem S512x512 .f32) (harg6 : arg6.IsWhole) (hc0 : ¬cond1_0 i) (hc1 : ¬cond1_1 i)
    (x0 : Vec F S4x512x512 .f32) (x1 : Vec F S512x512 .f32) (x2 : Vec F S512x1 .f32) (xi3 : Vec F S512x512 .f32) (a : Vec F S512x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (accStep x0 x1 a)) -∗ K ⟨⟩))
      ⊢ wp frame (wpE (defs₀ (F := F)) Variants.none c none) E (cc1__aggregate_kernel i arg2 harg2 arg3 harg3 arg4 harg4 arg5 harg5 arg6 harg6) K := by
  simp only [cc1__aggregate_kernel_eq_skeleton]; unfold cc1__aggregate_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [read_writes_whole_cons _ _ off2]
  have e1 : View.readAt (Elt F) arg3.view rS.toLoadRect f1 = arg3.view.read (Elt F) f1 := View.ld_unit_zero off2 _ _
  have e6 : View.readAt (Elt F) arg6.view rS.toLoadRect fs = arg6.view.read (Elt F) fs := View.ld_unit_zero off2 _ _
  rw [e1, e6]
  rfl

set_option maxHeartbeats 1000000 in
/-- Last source tile (the second branch taken, the first not): the accumulator ends one step on and the output
    buffer, whatever it held, at the block computed from that accumulator and the norm column. -/
theorem sound_kernel1_C (c : Dev nD) (E : Set ℕ) (i : grid1.Coords)
    (arg2 : Memref sig .tc .vmem S4x512x512 .f32) (harg2 : arg2.IsWhole) (arg3 : Memref sig .tc .vmem S512x512 .f32) (harg3 : arg3.IsWhole)
    (arg4 : Memref sig .tc .vmem S512x1 .f32) (harg4 : arg4.IsWhole) (arg5 : Memref sig .tc .vmem S512x512 .f32) (harg5 : arg5.IsWhole)
    (arg6 : Memref sig .tc .vmem S512x512 .f32) (harg6 : arg6.IsWhole) (hc0 : ¬cond1_0 i) (hc1 : cond1_1 i)
    (x0 : Vec F S4x512x512 .f32) (x1 : Vec F S512x512 .f32) (x2 : Vec F S512x1 .f32) (a : Vec F S512x512 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (outFin (accStep x0 x1 a) x2) ∗ owns (c : Thread nD τ) arg6 fullShare (accStep x0 x1 a)) -∗ K ⟨⟩))
      ⊢ wp frame (wpE (defs₀ (F := F)) Variants.none c none) E (cc1__aggregate_kernel i arg2 harg2 arg3 harg3 arg4 harg4 arg5 harg5 arg6 harg6) K := by
  simp only [cc1__aggregate_kernel_eq_skeleton]; unfold cc1__aggregate_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  have e1 : View.readAt (Elt F) arg3.view rS.toLoadRect f1 = arg3.view.read (Elt F) f1 := View.ld_unit_zero off2 _ _
  have e6 : View.readAt (Elt F) arg6.view rS.toLoadRect fs = arg6.view.read (Elt F) fs := View.ld_unit_zero off2 _ _
  have e4 : View.readAt (Elt F) arg4.view rN.toLoadRect f2 = arg4.view.read (Elt F) f2 := View.ld_unit_zero off2 _ _
  isplitl [H3]
  · iexists _; isplitr
    swap; · iexact H3
    ipureintro
    sl_unfold_run_names
    rw [read_writes_whole_cons _ _ off2, View.readCov_unit_zero _ off2]
    rw [e1, e6, e4]
    rfl
  iexists _; isplitr
  swap; · iexact HS
  ipureintro
  sl_unfold_run_names
  rw [read_writes_whole_cons _ _ off2]
  rw [e1, e6]
  rfl

/-! # The region at the entry contents `V` -/

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second branch is not taken the output window is idle, -/
theorem idleAt1_3 : ∀ t : Fin cfg1.N, ¬cond1_1 (grid1.coords t) → cfg1.idle 3 (grid1.coords t) = true := by decide +kernel
/-- and its block is not written back there; -/
theorem noFlush1_3 : ∀ t : Fin cfg1.N, ¬cond1_1 (grid1.coords t) → (cfg1.win 3).flush t = false := by decide +kernel
/-- where it is taken the window is live. -/
theorem liveAt1_3 : ∀ t : Fin cfg1.N, cond1_1 (grid1.coords t) → cfg1.idle 3 (grid1.coords t) = false := by decide +kernel

/-! ## The accumulator, point by point -/

/-- THE ACCUMULATION: what the scratch accumulator holds after the body at position `n` — one step from the point's
    adjacency block and source tile, over zero at the first source tile of a destination tile and over what the
    point before left at the others. -/
def accAt (c : Dev nD) : (n : ℕ) → n < cfg1.N → Vec F S512x512 .f32
  | 0, hn => accStep (iblk1 V c 0 ⟨0, hn⟩) (iblk1 V c 1 ⟨0, hn⟩) (accZero (F := F))
  | n + 1, hn =>
    if (n + 1) % 8 = 0 then accStep (iblk1 V c 0 ⟨n + 1, hn⟩) (iblk1 V c 1 ⟨n + 1, hn⟩) (accZero (F := F))
    else accStep (iblk1 V c 0 ⟨n + 1, hn⟩) (iblk1 V c 1 ⟨n + 1, hn⟩) (accAt c n (Nat.lt_of_succ_lt hn))

/-- `accAt` at a first source tile: one step from zero. -/
theorem accAt_reset (c : Dev nD) (t : Fin cfg1.N) (h0 : t.val % 8 = 0) :
    accAt V c t.val t.isLt = accStep (iblk1 V c 0 t) (iblk1 V c 1 t) (accZero (F := F)) := by
  obtain ⟨n, hn⟩ := t
  cases n with
  | zero => rfl
  | succ n => exact (if_pos h0).trans rfl

/-- `accAt` at a later source tile: one step from what the point before left. -/
theorem accAt_acc (c : Dev nD) (t : Fin cfg1.N) (h0 : ¬t.val % 8 = 0) :
    accAt V c t.val t.isLt = accStep (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant -/

/-- The scratch accumulator as a memref: a whole scoped buffer of the kernel's own. -/
abbrev scM1 : Memref sig .tc .vmem S512x512 .f32 := Memref.whole cc1_scratch0

/-- The core's scoped buffers that are neither this pipeline's staging buffers nor the accumulator, each whole at
    some contents: nothing the body touches. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The class invariant with the accumulator split off as a memref owned at some contents. -/
theorem PhiA1_eq (c : Dev nD) :
    (Pipeline.ΦA spec1 c : sProp 𝕄)
      = iprop(others1 c ∗ (∃ d, owns (c : Thread nD τ) scM1 fullShare d) ∗ (∃ r, prngReg c r)) := by
  unfold Pipeline.ΦA others1; rw [scopedRest1_eq]; simp only [scM1, owns_whole]
  refine BI.equiv_iff.mp ⟨?_, ?_⟩
  · show BIBase.Entails (PROP := sProp 𝕄) _ _
    iintro ⟨⟨A1, A2, A3, A4, A5, A6, A7, HS⟩, Hg⟩
    isplitl [A1 A2 A3 A4 A5 A6 A7]
    · isplitl [A1]; · iexact A1
      isplitl [A2]; · iexact A2
      isplitl [A3]; · iexact A3
      isplitl [A4]; · iexact A4
      isplitl [A5]; · iexact A5
      isplitl [A6]; · iexact A6
      iexact A7
    isplitl [HS]; · iexact HS
    iexact Hg
  · show BIBase.Entails (PROP := sProp 𝕄) _ _
    iintro ⟨⟨A1, A2, A3, A4, A5, A6, A7⟩, HS, Hg⟩
    isplitl [A1 A2 A3 A4 A5 A6 A7 HS]
    · isplitl [A1]; · iexact A1
      isplitl [A2]; · iexact A2
      isplitl [A3]; · iexact A3
      isplitl [A4]; · iexact A4
      isplitl [A5]; · iexact A5
      isplitl [A6]; · iexact A6
      isplitl [A7]; · iexact A7
      iexact HS
    iexact Hg

/-- The region invariant before position `n`: before the first point the class's (the accumulator at anything);
    afterwards the accumulator at what the point before left in it, the other scoped buffers at anything, the
    generator register at some state. -/
def PhiS (c : Dev nD) : (n : ℕ) → n ≤ cfg1.N → sProp 𝕄
  | 0, _ => Pipeline.ΦA spec1 c
  | n + 1, hn => iprop(others1 c ∗ owns (c : Thread nD τ) scM1 fullShare (accAt V c n hn) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 c ∗ owns (c : Thread nD τ) scM1 fullShare (accAt V c n hn) ∗ (∃ r, prngReg c r)) := rfl

theorem PhiS_pos (c : Dev nD) (n : ℕ) (h : n ≤ cfg1.N) (hz : n ≠ 0) :
    PhiS V c n h = iprop(others1 c ∗ owns (c : Thread nD τ) scM1 fullShare (accAt V c (n - 1) (by omega)) ∗ (∃ r, prngReg c r)) := by
  cases n with
  | zero => exact absurd rfl hz
  | succ n => rfl

/-! ## The pipeline's proof data -/

/-- The proof data of the pipeline on core `c`: the arrays as the region finds them; after the body at point `t`
    each input's buffer at its block and the output's at the block computed from the accumulator after that point
    and the norm block (consulted only at the last source tile of each destination tile, where the body stores it
    and the pipeline writes it back); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outFin (accAt V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outFin (accAt V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body leaves in each input's buffer: its block. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
/-- What it leaves in the output's buffer where it stores it. -/
theorem leaves1_3 (c : Dev nD) (t : Fin cfg1.N) (h : cond1_1 (grid1.coords t)) :
    (dat1 V c).leavesExact 3 t = owns (c : Thread nD τ) (st1_3 t) fullShare (outFin (accAt V c t.val t.isLt) (iblk1 V c 2 t)) := by
  unfold Dat.leavesExact; rw [liveAt1_3 t h, after1_3]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    the invariant hands the body the accumulator at what the point before left (at anything at the first point) and
    takes it back at this point's contents; where the output window is idle its buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 64 := lt_of_lt_of_eq t.isLt (show cfg1.N = 64 from N_1)
  by_cases h1 : t.val % 8 = 7
  · have h0 : ¬t.val % 8 = 0 := by omega
    have hz : t.val ≠ 0 := by omega
    rw [leaves1_3 V c t ((hcond1_1 t).mpr h1), accAt_acc V c t h0]
    rw [PhiS_castSucc V c t, PhiS_pos V c _ _ hz]
    iintro ⟨⟨Hoth, HS, Hg⟩, Ho, ⟨%d0, H0⟩, ⟨%d1, H1⟩, ⟨%d2, H2⟩, ⟨%d3, H3⟩⟩
    iapply (sound_kernel1_C c Set.univ (grid1.coords t) _ _ _ _ _ _ _ _ _ _ (fun h => h0 ((hcond1_0 t).mp h)) ((hcond1_1 t).mpr h1)
      (iblk1 V c 0 t) (iblk1 V c 1 t) (iblk1 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    iexact H3
  · rw [Dat.leavesExact_idle (dat1 V c) 3 t (idleAt1_3 t (fun h => h1 ((hcond1_1 t).mp h))) (noFlush1_3 t (fun h => h1 ((hcond1_1 t).mp h)))]
    by_cases h0 : t.val % 8 = 0
    · rw [accAt_reset V c t h0]
      by_cases hz : t.val = 0
      · rw [PhiS_castSucc V c t, PhiS_zero V c _ _ hz, PhiA1_eq]
        iintro ⟨⟨Hoth, HS, Hg⟩, Ho, ⟨%d0, H0⟩, ⟨%d1, H1⟩, ⟨%d2, H2⟩, ⟨%d3, H3⟩⟩
        iapply (sound_kernel1_A c Set.univ (grid1.coords t) _ _ _ _ _ _ _ _ _ _ ((hcond1_0 t).mpr h0) (fun h => h1 ((hcond1_1 t).mp h))
          (iblk1 V c 0 t) (iblk1 V c 1 t) (iblk1 V c 2 t) _ _)
        isplitl [H0]; · iexact H0
        isplitl [H1]; · iexact H1
        isplitl [H2]; · iexact H2
        isplitl [H3]; · iexact H3
        isplitl [HS]; · iexact HS
        iintro ⟨H0, H1, H2, H3, HS⟩
        isplitl [Hoth HS Hg]
        · isplitl [Hoth]; · iexact Hoth
          isplitl [HS]; · iexact HS
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨Hoth, HS, Hg⟩, Ho, ⟨%d0, H0⟩, ⟨%d1, H1⟩, ⟨%d2, H2⟩, ⟨%d3, H3⟩⟩
        iapply (sound_kernel1_A c Set.univ (grid1.coords t) _ _ _ _ _ _ _ _ _ _ ((hcond1_0 t).mpr h0) (fun h => h1 ((hcond1_1 t).mp h))
          (iblk1 V c 0 t) (iblk1 V c 1 t) (iblk1 V c 2 t) _ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [Hoth HS Hg]
        · isplitl [Hoth]; · iexact Hoth
          isplitl [HS]; · iexact HS
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accAt_acc V c t h0]
      rw [PhiS_castSucc V c t, PhiS_pos V c _ _ hz]
      iintro ⟨⟨Hoth, HS, Hg⟩, Ho, ⟨%d0, H0⟩, ⟨%d1, H1⟩, ⟨%d2, H2⟩, ⟨%d3, H3⟩⟩
      iapply (sound_kernel1_B c Set.univ (grid1.coords t) _ _ _ _ _ _ _ _ _ _ (fun h => h0 ((hcond1_0 t).mp h)) (fun h => h1 ((hcond1_1 t).mp h))
        (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨Hoth, HS, Hg⟩
  isplitl [Hoth]; · iexact Hoth
  isplitl [HS]
  · iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region

end Cert.ReferenceIdeal.Hand

end
-- ==== Proof.RefFacts.lean ====
import proofs.«174715_g2000604396416013_pallasbulk_796_15_alg».proof.Proof.RefRunValue
import proofs.«174715_g2000604396416013_pallasbulk_796_15_alg».proof.Proof.RefAggregate

noncomputable section
namespace Cert.ReferenceIdeal.Hand
open Cert.ReferenceIdeal Cert.ReferenceIdeal.Gen
open Idealize.ShloMosaic Idealize.ShloMosaic.TcCoe Idealize.SL.Sem

variable {F : FTy → Type} [FloatOps F]

/-- The aggregate kernel's proof data meet what the whole run asks of region 1. -/
theorem reg1Facts : Reg1Facts (F := F) (fun V c => dat1 V c) :=
  ⟨fun V c w => A_eq1 V c w, fun V c w => by dsimp only [dat1], fun V c t => by dsimp only [dat1], fun V c => by dsimp only [dat1],
    fun V c => body_obligation1 V c, fun V c => hin1 V c, fun V c => hout1 V c⟩

end Cert.ReferenceIdeal.Hand
end
-- ==== Proof.RefAggPayloads.lean ====
/- The aggregate kernel's three stored values, read at an index at the ideal values: the zero fill of the accumulator,
   the final scaling and clipping of the accumulator, and the accumulation step — the accumulator plus, in each of the
   four column groups, the product of that group's adjacency slab with the same column group of the source tile. -/
import proofs.«174715_g2000604396416013_pallasbulk_796_15_alg».proof.Proof.Gen.ReferenceIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.SL.Sem
open Idealize.ShloMosaic.ValueIdx

/-! ## The zero fill, and the final scaling -/

/-- The value the first step along the contraction axis fills the accumulator with is zero everywhere: the zero
    literal broadcast, through a shape cast to the same shape. -/
theorem k1_pay2_apply (r j : Fin 512) : k1_pay2 (F := Ideal) (ix2 r j) = (0 : EReal) := by
  unfold k1_pay2
  show shapeCast S512x512 (broadcast S512x512 (Scalar.ofBits (F := Ideal) .f32 0x00000000#32)) shapeCasts_S512x512_S512x512 (ix2 r j) = _
  rw [shapeCast_self]
  show Ideal.ofBits .f32 0x00000000#32 = 0
  exact Ideal.ofBits_zero_f32

/-- The value the last step writes to the result: the accumulator entry times the row's entry of the scaling column,
    clipped below at zero. -/
theorem k1_pay1_apply (acc : Vec Ideal S512x512 .f32) (nrm : Vec Ideal S512x1 .f32) (r j : Fin 512) :
    k1_pay1 acc nrm (ix2 r j) = max (acc (ix2 r j) * nrm (ix2 r 0)) 0 := by
  unfold k1_pay1
  show max (acc (ix2 r j) * broadcastTo S512x512 nrm broadcasts_S512x1_S512x512 (ix2 r j)) (Ideal.ofBits .f32 0x00000000#32) = _
  rw [broadcastTo_apply nrm broadcasts_S512x1_S512x512 (ix2 r j) (ix2 r 0) (fun a => by
    match a with
    | ⟨0, _⟩ => rfl
    | ⟨1, _⟩ => rfl), Ideal.ofBits_zero_f32]

/-! ## One column group's product -/

/-- The left operand index of the 512x512 by 512x128 product at output (r, jj) and contraction coordinate s is (r, s). -/
theorem aggDot_lhsIdx (r : Fin 512) (jj : Fin 128) (s : Fin 512) :
    (dot_S512x512_S512x128_S512x128_1_0_0_1_n_n).lhsIdx (ix2 r jj) ((contrEquiv1 dot_S512x512_S512x128_S512x128_1_0_0_1_n_n 512 rfl rfl).symm s) = ix2 r s := by
  have cs := contrEquiv1_symm_val dot_S512x512_S512x128_S512x128_1_0_0_1_n_n 512 rfl rfl s
  funext ax; apply Fin.ext
  match ax with
  | ⟨0, _⟩ => simp [DotDims.lhsIdx, dot_S512x512_S512x128_S512x128_1_0_0_1_n_n]; rfl
  | ⟨1, _⟩ => exact (DotDims.lhsIdx_val_of_single _ rfl _ _).trans cs

/-- The right operand index there is (s, jj). -/
theorem aggDot_rhsIdx (r : Fin 512) (jj : Fin 128) (s : Fin 512) :
    (dot_S512x512_S512x128_S512x128_1_0_0_1_n_n).rhsIdx (ix2 r jj) ((contrEquiv1 dot_S512x512_S512x128_S512x128_1_0_0_1_n_n 512 rfl rfl).symm s) = ix2 s jj := by
  have cs := contrEquiv1_symm_val dot_S512x512_S512x128_S512x128_1_0_0_1_n_n 512 rfl rfl s
  funext ax; apply Fin.ext
  match ax with
  | ⟨0, _⟩ => exact (DotDims.rhsIdx_val_of_single _ rfl _ _).trans cs
  | ⟨1, _⟩ => simp [DotDims.rhsIdx, dot_S512x512_S512x128_S512x128_1_0_0_1_n_n]; rfl

/-- One column group's product: a [1, 512, 512] adjacency slab seen as [512, 512], times a 512x128 column group of the
    source tile, into the zero splat. -/
def aggBlock (a : Vec Ideal S1x512x512 .f32) (ms : FVec Ideal S512x128 .f32) : FVec Ideal S512x128 .f32 :=
  matmul (φ₁ := .f32) (φ₂ := .f32) dot_S512x512_S512x128_S512x128_1_0_0_1_n_n none (shapeCast S512x512 a shapeCasts_S1x512x512_S512x512) ms
    (constant (F := Ideal) S512x128 .f32 0x00000000#32)

/-- At row `r`, column `jj` it is the sum over the 512 source rows of slab entry × column-group entry. -/
theorem aggBlock_apply (a : Vec Ideal S1x512x512 .f32) (ms : FVec Ideal S512x128 .f32) (r : Fin 512) (jj : Fin 128) :
    aggBlock a ms (ix2 r jj) = ∑ s : Fin 512, a (ix3 (0 : Fin 1) r s) * ms (ix2 s jj) := by
  unfold aggBlock
  show FloatOps.matmul dot_S512x512_S512x128_S512x128_1_0_0_1_n_n none (shapeCast S512x512 a shapeCasts_S1x512x512_S512x512) ms
      (constant (F := Ideal) S512x128 .f32 0x00000000#32) (ix2 r jj) = _
  rw [Ideal.matmul_constant_zero_apply, ← Equiv.sum_comp (contrEquiv1 dot_S512x512_S512x128_S512x128_1_0_0_1_n_n 512 rfl rfl).symm]
  refine Finset.sum_congr rfl fun s _ => ?_
  rw [aggDot_lhsIdx, aggDot_rhsIdx, shapeCast_1ab_ab_apply a shapeCasts_S1x512x512_S512x512 r s]

/-- With the column group cut out of the source tile from column `o` (the tile first cast to its own shape): the
    column-group entry is the tile's at column `o + jj`. -/
theorem aggBlock_slice_apply (a : Vec Ideal S1x512x512 .f32) (mt : Vec Ideal S512x512 .f32) (o : Nat)
    (h : S512x512.Slices ![0, o] S512x128) (r : Fin 512) (jj : Fin 128) (k : Fin 512) (hk : k.val = o + jj.val) :
    aggBlock a (extractStridedSlice S512x128 ![0, o] (shapeCast S512x512 mt shapeCasts_S512x512_S512x512) h) (ix2 r jj)
      = ∑ s : Fin 512, a (ix3 (0 : Fin 1) r s) * mt (ix2 s k) := by
  rw [aggBlock_apply]
  refine Finset.sum_congr rfl fun s _ => ?_
  rw [slice2_axis1_apply o _ h s jj k hk, shapeCast_self]

/-! ## Four column groups side by side -/

/-- Four 512x128 pieces laid side by side along the columns: column `d·128 + jj` of the whole is column `jj` of
    piece `d`, on the same row. -/
theorem concat4_apply {α : Type} (x0 x1 x2 x3 : S512x128.Idx → α) (r : Fin 512) (d : Fin 4) (jj : Fin 128) :
    concatenate S512x512 1 [⟨S512x128, x0⟩, ⟨S512x128, x1⟩, ⟨S512x128, x2⟩, ⟨S512x128, x3⟩] concatenates_S512x128_S512x128_S512x128_S512x128_S512x512_d1
        (ix2 r (⟨d.val * 128 + jj.val, by have := d.isLt; have := jj.isLt; omega⟩ : Fin 512))
      = (![x0, x1, x2, x3] d) (ix2 r jj) := by
  -- off the column axis the two indices agree, whatever the column
  have hoff : ∀ (cc : Fin 512) (b : Fin S512x128.rank), b.cast (rfl : S512x128.rank = S512x512.rank) ≠ (1 : Fin S512x512.rank) →
      ((ix2 r jj : S512x128.Idx) b).val = ((ix2 r cc : S512x512.Idx) (b.cast rfl)).val :=
    fun cc b hb => by
      match b with
      | ⟨0, _⟩ => rfl
      | ⟨1, _⟩ => exact absurd rfl hb
  match d with
  | ⟨0, _⟩ =>
    exact concatenate_apply_piece (1 : Fin S512x512.rank) _ _ _ 0 (by show (0 : ℕ) < 4; omega) S512x128 x0 rfl rfl 0 (by rfl)
      (ix2 r jj) (hoff _) (by show 0 + jj.val = 0 * 128 + jj.val; omega)
  | ⟨1, _⟩ =>
    exact concatenate_apply_piece (1 : Fin S512x512.rank) _ _ _ 1 (by show (1 : ℕ) < 4; omega) S512x128 x1 rfl rfl 128 (by rfl)
      (ix2 r jj) (hoff _) (by show 128 + jj.val = 1 * 128 + jj.val; omega)
  | ⟨2, _⟩ =>
    exact concatenate_apply_piece (1 : Fin S512x512.rank) _ _ _ 2 (by show (2 : ℕ) < 4; omega) S512x128 x2 rfl rfl 256 (by rfl)
      (ix2 r jj) (hoff _) (by show 256 + jj.val = 2 * 128 + jj.val; omega)
  | ⟨3, _⟩ =>
    exact concatenate_apply_piece (1 : Fin S512x512.rank) _ _ _ 3 (by show (3 : ℕ) < 4; omega) S512x128 x3 rfl rfl 384 (by rfl)
      (ix2 r jj) (hoff _) (by show 384 + jj.val = 3 * 128 + jj.val; omega)

/-! ## The accumulation step -/

/-- The accumulation step's stored value, spelled over the four column groups' products: the accumulator plus the
    products laid side by side (two shape casts to the same shape around it). -/
theorem k1_pay3_eq (mt : Vec Ideal S512x512 .f32) (a0 a1 a2 a3 : Vec Ideal S1x512x512 .f32) (acc : Vec Ideal S512x512 .f32) :
    k1_pay3 mt a0 a1 a2 a3 acc
      = shapeCast S512x512 (addf (φ := .f32) acc (concatenate S512x512 1
          [⟨S512x128, aggBlock a0 (extractStridedSlice S512x128 ![0, 0] (shapeCast S512x512 mt shapeCasts_S512x512_S512x512) slices_S512x512_o0_0_S512x128)⟩,
           ⟨S512x128, aggBlock a1 (extractStridedSlice S512x128 ![0, 128] (shapeCast S512x512 mt shapeCasts_S512x512_S512x512) slices_S512x512_o0_128_S512x128)⟩,
           ⟨S512x128, aggBlock a2 (extractStridedSlice S512x128 ![0, 256] (shapeCast S512x512 mt shapeCasts_S512x512_S512x512) slices_S512x512_o0_256_S512x128)⟩,
           ⟨S512x128, aggBlock a3 (extractStridedSlice S512x128 ![0, 384] (shapeCast S512x512 mt shapeCasts_S512x512_S512x512) slices_S512x512_o0_384_S512x128)⟩] concatenates_S512x128_S512x128_S512x128_S512x128_S512x512_d1)) shapeCasts_S512x512_S512x512 := rfl

/-- THE ACCUMULATION STEP at row `r`, column `d·128 + jj` (column `jj` of group `d`): the accumulator entry plus the
    sum over the 512 source rows of group `d`'s adjacency slab entry × the source tile's entry in the same column. -/
theorem k1_pay3_apply (mt : Vec Ideal S512x512 .f32) (a0 a1 a2 a3 : Vec Ideal S1x512x512 .f32) (acc : Vec Ideal S512x512 .f32)
    (r : Fin 512) (d : Fin 4) (jj : Fin 128) :
    k1_pay3 mt a0 a1 a2 a3 acc (ix2 r (⟨d.val * 128 + jj.val, by have := d.isLt; have := jj.isLt; omega⟩ : Fin 512))
      = acc (ix2 r (⟨d.val * 128 + jj.val, by have := d.isLt; have := jj.isLt; omega⟩ : Fin 512))
        + ∑ s : Fin 512, (![a0, a1, a2, a3] d) (ix3 (0 : Fin 1) r s)
            * mt (ix2 s (⟨d.val * 128 + jj.val, by have := d.isLt; have := jj.isLt; omega⟩ : Fin 512)) := by
  rw [k1_pay3_eq, shapeCast_self, addf_apply, concat4_apply]
  refine congrArg (acc _ + ·) ?_
  match d with
  | ⟨0, _⟩ => exact aggBlock_slice_apply a0 mt 0 _ r jj _ (by show 0 * 128 + jj.val = 0 + jj.val; omega)
  | ⟨1, _⟩ => exact aggBlock_slice_apply a1 mt 128 _ r jj _ (by show 1 * 128 + jj.val = 128 + jj.val; omega)
  | ⟨2, _⟩ => exact aggBlock_slice_apply a2 mt 256 _ r jj _ (by show 2 * 128 + jj.val = 256 + jj.val; omega)
  | ⟨3, _⟩ => exact aggBlock_slice_apply a3 mt 384 _ r jj _ (by show 3 * 128 + jj.val = 384 + jj.val; omega)

end Cert.ReferenceIdeal.Hand

end
-- ==== Proof.RefAggregateValue.lean ====
/- The VALUE of the reference's aggregate kernel (region 1 of its @main) at the ideal values: the result array after
   the region as ONE function of the three arrays the region reads — `aggF`: per row and column the sum over the
   eight source tiles and the 512 sources of a tile of adjacency entry × feature entry, scaled by the row's norm and
   clamped below at zero —, from one accumulation step read at an index, the accumulator as a sum over the source
   tiles so far, what each writing point writes back, and the cover of the array by those blocks. -/
import proofs.«174715_g2000604396416013_pallasbulk_796_15_alg».proof.Proof.RefAggregate
import proofs.«174715_g2000604396416013_pallasbulk_796_15_alg».proof.Proof.RefAggPayloads
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.ShloMosaic.TcCoe Idealize.SL.Sem
open Idealize.ShloMosaic.ValueIdx
open Idealize.ShloMosaic.Pipeline (Dat)

/-! ## The function the aggregate kernel leaves in its result array -/

/-- The aggregation: at row `R`, column `j` (division `j / 128`), the sum over the eight source tiles and the 512
    sources of a tile of adjacency entry × feature entry, scaled by the row's norm and clamped below at zero. -/
def aggF (adj : S4x4096x4096.Idx → EReal) (mm : S4096x512.Idx → EReal) (nrm : S4096x1.Idx → EReal) : S4096x512.Idx → EReal :=
  fun i => max ((∑ kk : Fin 8, ∑ s : Fin 512,
      adj (ix3 (n0 := 4) (n1 := 4096) (n2 := 4096) ⟨(i 1).val / 128, by have := idx2_lt1 i; omega⟩ (i 0)
          ⟨512 * kk.val + s.val, by have := kk.isLt; have := s.isLt; omega⟩)
        * mm (ix2 (n0 := 4096) (n1 := 512) ⟨512 * kk.val + s.val, by have := kk.isLt; have := s.isLt; omega⟩ (i 1)))
      * nrm (ix2 (n0 := 4096) (n1 := 1) (i 0) 0)) 0

/-- The double sum inside `aggF`, at row `R`, column `col`. -/
def aggSum (adj : S4x4096x4096.Idx → EReal) (mm : S4096x512.Idx → EReal) (R : Fin 4096) (col : Fin 512) : EReal :=
  ∑ kk : Fin 8, ∑ s : Fin 512,
    adj (ix3 (n0 := 4) (n1 := 4096) (n2 := 4096) ⟨col.val / 128, by have := col.isLt; omega⟩ R
        ⟨512 * kk.val + s.val, by have := kk.isLt; have := s.isLt; omega⟩)
      * mm (ix2 (n0 := 4096) (n1 := 512) ⟨512 * kk.val + s.val, by have := kk.isLt; have := s.isLt; omega⟩ col)

/-- `aggF` through `aggSum`, at an index given by its coordinates. -/
theorem aggF_ix2 (adj : S4x4096x4096.Idx → EReal) (mm : S4096x512.Idx → EReal) (nrm : S4096x1.Idx → EReal) (R : Fin 4096) (col : Fin 512) :
    aggF adj mm nrm (ix2 R col) = max (aggSum adj mm R col * nrm (ix2 R 0)) 0 := rfl

/-- What one point adds to the accumulator at row `r`, column `col`, from its adjacency block and source tile: the
    sum over the 512 sources of adjacency entry (division `col / 128`) × source-tile entry. -/
def addendB (x0 : Vec Ideal S4x512x512 .f32) (x1 : Vec Ideal S512x512 .f32) (r col : Fin 512) : EReal :=
  ∑ s : Fin 512, x0 (ix3 (⟨col.val / 128, by have := col.isLt; omega⟩ : Fin 4) r s) * x1 (ix2 s col)

/-! ## One accumulation step at an index -/

/-- A load through the slab rectangle of division `d` reads the adjacency block at that division. -/
theorem aggv_ld_slab (x0 : Vec Ideal S4x512x512 .f32) (d : Fin 4) (r s : Fin 512) :
    (![(View.ld x0 rA0 : Vec Ideal S1x512x512 .f32), View.ld x0 rA1, View.ld x0 rA2, View.ld x0 rA3] d) (ix3 (0 : Fin 1) r s) = x0 (ix3 d r s) := by
  have key : ∀ (off : Fin 3 → ℕ) (inb : ∀ a, off a + S1x512x512.size a ≤ S4x512x512.size a) (k : Fin 4), off = ![k.val, 0, 0] →
      View.ld x0 (Rect.unit (s := S4x512x512) off S1x512x512.size inb) (ix3 (0 : Fin 1) r s) = x0 (ix3 k r s) := by
    intro off inb k hoff
    subst hoff
    show x0 _ = x0 _
    congr 1
    funext a; apply Fin.ext
    match a with
    | ⟨0, _⟩ => show k.val + 1 * 0 = k.val; omega
    | ⟨1, _⟩ => show 0 + 1 * r.val = r.val; omega
    | ⟨2, _⟩ => show 0 + 1 * s.val = s.val; omega
  match d with
  | ⟨0, _⟩ => exact key _ _ ⟨0, by omega⟩ rfl
  | ⟨1, _⟩ => exact key _ _ ⟨1, by omega⟩ rfl
  | ⟨2, _⟩ => exact key _ _ ⟨2, by omega⟩ rfl
  | ⟨3, _⟩ => exact key _ _ ⟨3, by omega⟩ rfl

/-- The zero accumulator at an index. -/
theorem aggv_accZero_apply (r col : Fin 512) : accZero (F := Ideal) (ix2 r col) = (0 : EReal) := k1_pay2_apply r col

/-- One accumulation step at row `r`, column `col`: the accumulator there plus the sum over the 512 sources of the
    tile of adjacency entry (division `col / 128`) × source-tile entry. -/
theorem aggv_accStep_apply (x0 : Vec Ideal S4x512x512 .f32) (x1 : Vec Ideal S512x512 .f32) (a : Vec Ideal S512x512 .f32) (r col : Fin 512) :
    accStep x0 x1 a (ix2 r col) = a (ix2 r col) + addendB x0 x1 r col := by
  unfold addendB
  obtain ⟨d, jj, rfl⟩ : ∃ (d : Fin 4) (jj : Fin 128), col = ⟨d.val * 128 + jj.val, by have := d.isLt; have := jj.isLt; omega⟩ :=
    ⟨⟨col.val / 128, by have := col.isLt; omega⟩, ⟨col.val % 128, Nat.mod_lt _ (by omega)⟩, Fin.ext (by show col.val = col.val / 128 * 128 + col.val % 128; omega)⟩
  unfold accStep
  rw [k1_pay3_apply]
  have hd : (⟨(d.val * 128 + jj.val) / 128, by have := d.isLt; have := jj.isLt; omega⟩ : Fin 4) = d :=
    Fin.ext (by show (d.val * 128 + jj.val) / 128 = d.val; have := jj.isLt; omega)
  rw [hd]
  congr 1
  refine Finset.sum_congr rfl fun s _ => ?_
  exact congrArg (fun z => z * x1 (ix2 s _)) (aggv_ld_slab x0 d r s)

-- the TensorCore's buffer contents when the region is entered, at the ideal values
variable (V : (c : Dev nD) → (b : Ref sig .tc) → Buf (Elt Ideal) ((c : Thread nD τ).loc b))

/-! ## The blocks at a point, read off the arrays -/

/-- The printed index maps, decided over the 64 grid points: the adjacency block is at (0, destination tile,
    source tile), the source tile at (source tile, 0), the norm column and the result block at (destination tile, 0);
    the destination tile of point `t` is `t / 8`, its source tile `t % 8`. -/
theorem idx_facts1 : ∀ t : Fin cfg1.N,
    win1_0.index t (0 : Fin 3) = 0 ∧ win1_0.index t (1 : Fin 3) = t.val / 8 ∧ win1_0.index t (2 : Fin 3) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0 :=
  (by decide +kernel : ∀ t : Fin grid1.N, _)

/-- A point is below 64. -/
theorem lt64 (t : Fin cfg1.N) : t.val < 64 := lt_of_lt_of_eq t.isLt (show cfg1.N = 64 from N_1)

/-- The adjacency block at point `p` reads the adjacency array at the point's destination and source tiles. -/
theorem iblk1_0_apply (c : Dev nD) (p : Fin cfg1.N) (d : Fin 4) (r s : Fin 512) :
    iblk1 V c 0 p (ix3 d r s)
      = V c main_arg2 (ix3 (n0 := 4) (n1 := 4096) (n2 := 4096) d ⟨512 * (p.val / 8) + r.val, by have := lt64 p; have := r.isLt; omega⟩
          ⟨512 * (p.val % 8) + s.val, by have := s.isLt; omega⟩) := by
  obtain ⟨e0, e1, e2, -⟩ := idx_facts1 p
  have h : (((cfg1.win 0).blk p).view.emb (ix3 d r s) : S4x4096x4096.Idx)
      = ix3 (n0 := 4) (n1 := 4096) (n2 := 4096) d ⟨512 * (p.val / 8) + r.val, by have := lt64 p; have := r.isLt; omega⟩
          ⟨512 * (p.val % 8) + s.val, by have := s.isLt; omega⟩ := by
    funext a; apply Fin.ext
    match a with
    | ⟨0, _⟩ => show win1_0.index p (0 : Fin 3) * 4 + 1 * d.val = d.val; omega
    | ⟨1, _⟩ => show win1_0.index p (1 : Fin 3) * 512 + 1 * r.val = 512 * (p.val / 8) + r.val; omega
    | ⟨2, _⟩ => show win1_0.index p (2 : Fin 3) * 512 + 1 * s.val = 512 * (p.val % 8) + s.val; omega
  exact congrArg (V c main_arg2) h

/-- The source tile at point `p` reads the feature array at the point's source tile. -/
theorem iblk1_1_apply (c : Dev nD) (p : Fin cfg1.N) (s col : Fin 512) :
    iblk1 V c 1 p (ix2 s col)
      = V c main_v2 (ix2 (n0 := 4096) (n1 := 512) ⟨512 * (p.val % 8) + s.val, by have := s.isLt; omega⟩ col) := by
  obtain ⟨-, -, -, e3, e4, -⟩ := idx_facts1 p
  have h : (((cfg1.win 1).blk p).view.emb (ix2 s col) : S4096x512.Idx)
      = ix2 (n0 := 4096) (n1 := 512) ⟨512 * (p.val % 8) + s.val, by have := s.isLt; omega⟩ col := by
    funext a; apply Fin.ext
    match a with
    | ⟨0, _⟩ => show win1_1.index p (0 : Fin 2) * 512 + 1 * s.val = 512 * (p.val % 8) + s.val; omega
    | ⟨1, _⟩ => show win1_1.index p (1 : Fin 2) * 512 + 1 * col.val = col.val; omega
  exact congrArg (V c main_v2) h

/-- The norm column at point `p` reads the norm array at the point's destination tile. -/
theorem iblk1_2_apply (c : Dev nD) (p : Fin cfg1.N) (r : Fin 512) :
    iblk1 V c 2 p (ix2 r (0 : Fin 1))
      = V c main_arg3 (ix2 (n0 := 4096) (n1 := 1) ⟨512 * (p.val / 8) + r.val, by have := lt64 p; have := r.isLt; omega⟩ 0) := by
  obtain ⟨-, -, -, -, -, e5, e6, -⟩ := idx_facts1 p
  have h : (((cfg1.win 2).blk p).view.emb (ix2 r (0 : Fin 1)) : S4096x1.Idx)
      = ix2 (n0 := 4096) (n1 := 1) ⟨512 * (p.val / 8) + r.val, by have := lt64 p; have := r.isLt; omega⟩ 0 := by
    funext a; apply Fin.ext
    match a with
    | ⟨0, _⟩ => show win1_2.index p (0 : Fin 2) * 512 + 1 * r.val = 512 * (p.val / 8) + r.val; omega
    | ⟨1, _⟩ => show win1_2.index p (1 : Fin 2) * 1 + 1 * 0 = 0; omega
  exact congrArg (V c main_arg3) h

/-! ## The accumulator at a point, as a sum over the source tiles so far -/

/-- What point `p` adds to the accumulator at row `r`, column `col`: the sum over the 512 sources of its source
    tile of adjacency entry × feature entry, read off the arrays (zero past the grid). -/
def addend (c : Dev nD) (r col : Fin 512) (p : ℕ) : EReal :=
  if h : p < cfg1.N then addendB (iblk1 V c 0 ⟨p, h⟩) (iblk1 V c 1 ⟨p, h⟩) r col else 0

/-- THE ACCUMULATOR after position `n`, at an index: the addends of the points of the current destination tile up
    to `n` — those from `8 (n / 8)`, where the accumulator was reset, to `n`. -/
theorem accAt_apply (c : Dev nD) (r col : Fin 512) : ∀ (n : ℕ) (hn : n < cfg1.N),
    accAt V c n hn (ix2 r col) = ∑ kk ∈ Finset.range (n % 8 + 1), addend V c r col (8 * (n / 8) + kk)
  | 0, hn => by
    show accStep (iblk1 V c 0 ⟨0, hn⟩) (iblk1 V c 1 ⟨0, hn⟩) (accZero (F := Ideal)) (ix2 r col) = _
    rw [aggv_accStep_apply, aggv_accZero_apply, zero_add]
    show _ = ∑ kk ∈ Finset.range 1, addend V c r col (0 + kk)
    rw [Finset.sum_range_one]
    show _ = addend V c r col 0
    unfold addend; rw [dif_pos hn]
  | n + 1, hn => by
    by_cases h0 : (n + 1) % 8 = 0
    · have e : accAt V c (n + 1) hn = accStep (iblk1 V c 0 ⟨n + 1, hn⟩) (iblk1 V c 1 ⟨n + 1, hn⟩) (accZero (F := Ideal)) :=
        (if_pos h0).trans rfl
      rw [e, aggv_accStep_apply, aggv_accZero_apply, zero_add, h0]
      show _ = ∑ kk ∈ Finset.range 1, addend V c r col (8 * ((n + 1) / 8) + kk)
      rw [Finset.sum_range_one]
      have e3 : 8 * ((n + 1) / 8) + 0 = n + 1 := by omega
      rw [e3]
      unfold addend; rw [dif_pos hn]
    · have e : accAt V c (n + 1) hn = accStep (iblk1 V c 0 ⟨n + 1, hn⟩) (iblk1 V c 1 ⟨n + 1, hn⟩) (accAt V c n (Nat.lt_of_succ_lt hn)) :=
        (if_neg h0).trans rfl
      have e1 : (n + 1) % 8 = n % 8 + 1 := by omega
      have e2 : (n + 1) / 8 = n / 8 := by omega
      have e3 : 8 * (n / 8) + (n % 8 + 1) = n + 1 := by omega
      rw [e, aggv_accStep_apply, accAt_apply c r col n (Nat.lt_of_succ_lt hn), e1, e2, Finset.sum_range_succ _ (n % 8 + 1), e3]
      congr 1
      unfold addend; rw [dif_pos hn]

/-- At the last source tile of a destination tile the accumulator is the sum over all eight source tiles. -/
theorem accAt_last (c : Dev nD) (r col : Fin 512) (t : Fin cfg1.N) (h7 : t.val % 8 = 7) :
    accAt V c t.val t.isLt (ix2 r col)
      = aggSum (V c main_arg2) (V c main_v2) ⟨512 * (t.val / 8) + r.val, by have := lt64 t; have := r.isLt; omega⟩ col := by
  rw [accAt_apply V c r col t.val t.isLt, h7, Finset.sum_range]
  unfold aggSum
  refine Finset.sum_congr rfl fun kk _ => ?_
  have hN : cfg1.N = 64 := N_1
  have hp : 8 * (t.val / 8) + kk.val < cfg1.N := by
    have := lt64 t; have := kk.isLt; omega
  unfold addend; rw [dif_pos hp]
  unfold addendB
  refine Finset.sum_congr rfl fun s _ => ?_
  rw [iblk1_0_apply, iblk1_1_apply]
  have q1 : (8 * (t.val / 8) + kk.val) / 8 = t.val / 8 := by have := kk.isLt; omega
  have q2 : (8 * (t.val / 8) + kk.val) % 8 = kk.val := by have := kk.isLt; omega
  simp only [q1, q2]

/-! ## What a point writes back, and the array after the region -/

/-- WHAT A POINT THAT WRITES BACK WRITES is its block of `aggF` of the arrays as the region finds them. -/
theorem flushed1_3_eq (c : Dev nD) (t : Fin cfg1.N) (hf : (cfg1.win 3).flush t = true) :
    (dat1 V c).flushed 3 t = ((cfg1.win 3).blk t).view.read (Elt Ideal) (aggF (V c main_arg2) (V c main_v2) (V c main_arg3)) := by
  have h7 : t.val % 8 = 7 := (flush1_3 t).mp hf
  obtain ⟨-, -, -, -, -, -, -, e7, e8⟩ := idx_facts1 t
  show (cfg1.win 3).cut (grid1.coords t) ((dat1 V c).after 3 t) = _
  rw [after1_3]
  funext j
  obtain ⟨r, col, rfl⟩ : ∃ (r : Fin 512) (col : Fin 512), j = ix2 r col := ⟨j 0, j 1, eq_ix2 j⟩
  show outFin (accAt V c t.val t.isLt) (iblk1 V c 2 t) (ix2 r col)
    = aggF (V c main_arg2) (V c main_v2) (V c main_arg3) (((cfg1.win 3).blk t).view.emb (ix2 r col))
  have h3 : (((cfg1.win 3).blk t).view.emb (ix2 r col) : S4096x512.Idx)
      = ix2 (n0 := 4096) (n1 := 512) ⟨512 * (t.val / 8) + r.val, by have := lt64 t; have := r.isLt; omega⟩ col := by
    funext a; apply Fin.ext
    match a with
    | ⟨0, _⟩ => show win1_3.index t (0 : Fin 2) * 512 + 1 * r.val = 512 * (t.val / 8) + r.val; omega
    | ⟨1, _⟩ => show win1_3.index t (1 : Fin 2) * 512 + 1 * col.val = col.val; omega
  rw [h3, aggF_ix2]
  unfold outFin
  rw [k1_pay1_apply, accAt_last V c r col t h7, iblk1_2_apply]

/-- An index of the result array is in point `t`'s block iff each coordinate is in the block's range on its axis. -/
theorem mem_blk1_3 (t : Fin cfg1.N) (i : S4096x512.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v3).slice (win1_3.rect t)).set ↔ _
  rw [View.set_slice_whole, Rect.mem_set_unit]
  exact Iff.rfl

/-- The blocks written back cover the result array: row `R` is in the block of the last source tile of destination
    tile `R / 512`, which spans all 512 columns. -/
theorem cover_arr1_3 (i : S4096x512.Idx) :
    ∃ t : Fin cfg1.N, (cfg1.win 3).flush t = true ∧ i ∈ ((cfg1.win 3).blk t).view.set := by
  have hi0 : (i 0).val < 4096 := idx2_lt0 i
  have hi1 : (i 1).val < 512 := idx2_lt1 i
  have hN : cfg1.N = 64 := N_1
  let t : Fin cfg1.N := ⟨8 * ((i 0).val / 512) + 7, by rw [hN]; omega⟩
  obtain ⟨-, -, -, -, -, -, -, e7, e8⟩ := idx_facts1 t
  have tv : t.val = 8 * ((i 0).val / 512) + 7 := rfl
  refine ⟨t, (flush1_3 t).mpr (by rw [tv]; omega), ?_⟩
  rw [mem_blk1_3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- THE RESULT ARRAY after the region, at the ideal values: `aggF` of the adjacency, the features and the norms as
    the region finds them — every point that writes back writes its block of that one function, and those blocks
    cover the array. -/
theorem final1 (c : Dev nD) :
    (dat1 (F := Ideal) V c).arrAt 3 cfg1.N = fun i => aggF (V c main_arg2) (V c main_v2) (V c main_arg3) i :=
  (dat1 V c).arrAt_eq_of_cover 3 _ (fun t hf => flushed1_3_eq V c t hf) cover_arr1_3

end Cert.ReferenceIdeal.Hand

end
-- ==== Proof.lean ====
/-
  One GeomGCN layer, fused, against its two-stage form, over the extended reals.

  The fused kernel, at each of sixteen destination-row slabs, recomputes the transformed features
  M = (x · norm) W into a scratch (eight 512-row chunks), and for each of the four divisions multiplies the
  slab's adjacency rows with that division's 128 columns of M over all 4096 sources at once, scales by the
  destination's norm, clamps at zero, and stores the two 64-column halves at the head-major offsets
  (h·4 + d)·64 of the result. The two-stage program computes M once by row tiles, then accumulates the same
  products over eight source tiles of 512 into a carried accumulator, scales and clamps at the last tile,
  writes its columns division-major (d·128 + h·64 + f), and permutes them to head-major on the host.

  Entry by entry both are
      max ((∑ₛ adj d r s · M s (d·128 + h·64 + f)) · norm r, 0)
  with one sum over the 4096 sources regrouped as eight sums of 512: sums over the extended reals regroup
  freely, so the claim needs no finiteness and the precondition is never opened.

  Each program's run — every weakly fair execution ends, nothing faults, the arguments end as launched, and
  the result array holds that function — is proved once per program; the three frame claims are those runs
  with the result dropped, and no operation was rewritten on the way to the idealized kernel.
-/
import proofs.«174715_g2000604396416013_pallasbulk_796_15_alg».proof.Defs
import proofs.«174715_g2000604396416013_pallasbulk_796_15_alg».proof.Proof.Gen.Kernel
import proofs.«174715_g2000604396416013_pallasbulk_796_15_alg».proof.Proof.Gen.KernelIdeal
import proofs.«174715_g2000604396416013_pallasbulk_796_15_alg».proof.Proof.Gen.ReferenceIdeal
import proofs.«174715_g2000604396416013_pallasbulk_796_15_alg».proof.Proof.Gen.Pre_finite_inputs
import proofs.«174715_g2000604396416013_pallasbulk_796_15_alg».proof.Proof.BitsFrame
import proofs.«174715_g2000604396416013_pallasbulk_796_15_alg».proof.Proof.KernelClosed
import proofs.«174715_g2000604396416013_pallasbulk_796_15_alg».proof.Proof.KernelEntry
import proofs.«174715_g2000604396416013_pallasbulk_796_15_alg».proof.Proof.Bridge
import proofs.«174715_g2000604396416013_pallasbulk_796_15_alg».proof.Proof.RefRunValue
import proofs.«174715_g2000604396416013_pallasbulk_796_15_alg».proof.Proof.RefFacts
import proofs.«174715_g2000604396416013_pallasbulk_796_15_alg».proof.Proof.RefAggregateValue

noncomputable section

namespace Cert.Proof

open Idealize.ShloMosaic Idealize.SL.Sem Idealize.ShloMosaic.ValueIdx

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the kernel read at the exact reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the two-stage program: its whole run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Hand.ref_run (F := Ideal) (fun V c => Cert.ReferenceIdeal.Hand.dat1 V c) m ρ Cert.ReferenceIdeal.Hand.reg1Facts)

/-- From memories that agree on the arguments both programs end with the layer of those arguments: the kernel's
    result by its run, the two-stage program's by its run, the host's column permutation and the regrouping of the
    sum over the sources. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun i => Cert.KernelIdeal.Hand.layer (m ((c.tc : Thread Cert.KernelIdeal.nD Cert.KernelIdeal.τ).loc Cert.KernelIdeal.main_arg0))
      (Cert.KernelIdeal.Hand.V m c Cert.KernelIdeal.main_v1)
      (m ((c.tc : Thread Cert.KernelIdeal.nD Cert.KernelIdeal.τ).loc Cert.KernelIdeal.main_arg3))
      (m ((c.tc : Thread Cert.KernelIdeal.nD Cert.KernelIdeal.τ).loc Cert.KernelIdeal.main_arg2)) i),
    Cert.KernelIdeal.Hand.value_run m ρ, ?_⟩
  refine (θ_run Cert.ReferenceIdeal.defs _ _).mono (fun r h c => ⟨(h c).1.trans ?_, (h c).2⟩)
    (Cert.ReferenceIdeal.Hand.ref_run (F := Ideal) (fun V c => Cert.ReferenceIdeal.Hand.dat1 V c) m' ρ' Cert.ReferenceIdeal.Hand.reg1Facts)
  obtain ⟨a0, a1, a2, a3⟩ := hagree c
  refine Cert.Bridge.bridge _ _ _ _ _ (fun r h d f => ?_)
  rw [Cert.ReferenceIdeal.Hand.Wend_main_v6_apply (fun V c => Cert.ReferenceIdeal.Hand.dat1 V c) m' ρ' c r h d f, Cert.ReferenceIdeal.Hand.final1,
    Cert.ReferenceIdeal.Hand.V2_main_v2, Cert.ReferenceIdeal.Hand.V2_main_arg2, Cert.ReferenceIdeal.Hand.V2_main_arg3,
    Cert.ReferenceIdeal.Hand.V1_main_v1, Cert.KernelIdeal.Hand.V_main_v1, a0, a1, a2, a3]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
